-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_arg11 : FVec F S4096x1024 .f32) (main_arg12 : FVec F S1024 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x1024 .f32 := Host.absf main_arg11
  let main_cst_20 : FVec F S_ .f32 := constant S_ .f32 0x7F800000#32
  let main_v55 : FVec F S4096x1024 .f32 := broadcastInDim S4096x1024 ![] bcast_S_S4096x1024 main_cst_20
  let main_v56 : IVec S4096x1024 1 := cmpf .olt main_v54 main_v55
  let main_c_21 : IVec S_ 1 := constantI S_ 1 1#1
  let main_v57 : IVec S_ 1 := (fun x v => Host.reduce IntOp.andi x v reducesTo_S4096x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S512x1024 .f32) (main_arg8 : FVec F S1024 .f32) (main_arg9 : FVec F S1024x4096 .f32) (main_arg10 : FVec F S4096 .f32) (main_arg11 : FVec F S4096x1024 .f32) (main_arg12 : FVec F S1024 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x4096 .f32 := Host.absf main_arg9
  let main_cst_16 : FVec F S_ .f32 := constant S_ .f32 0x7F800000#32
  let main_v45 : FVec F S1024x4096 .f32 := broadcastInDim S1024x4096 ![] bcast_S_S1024x4096 main_cst_16
  let main_v46 : IVec S1024x4096 1 := cmpf .olt main_v44 main_v45
  let main_c_17 : IVec S_ 1 := constantI S_ 1 1#1
  let main_v47 : IVec S_ 1 := (fun x v => Host.reduce IntOp.andi x v reducesTo_S1024x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_v48 main_v49 main_v50

def fn_part1 {F : FTy → Type} [FloatOps F] (main_arg4 : FVec F S512 .f32) (main_arg5 : FVec F S1024x512 .f32) (main_arg6 : FVec F S512 .f32) (main_arg7 : FVec F S512x1024 .f32) (main_arg8 : FVec F S1024 .f32) (main_arg9 : FVec F S1024x4096 .f32) (main_arg10 : FVec F S4096 .f32) (main_arg11 : FVec F S4096x1024 .f32) (main_arg12 : FVec F S1024 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x1024 .f32) (main_arg1 : FVec F S1024x512 .f32) (main_arg2 : FVec F S512 .f32) (main_arg3 : FVec F S1024x512 .f32) (main_arg4 : FVec F S512 .f32) (main_arg5 : FVec F S1024x512 .f32) (main_arg6 : FVec F S512 .f32) (main_arg7 : FVec F S512x1024 .f32) (main_arg8 : FVec F S1024 .f32) (main_arg9 : FVec F S1024x4096 .f32) (main_arg10 : FVec F S4096 .f32) (main_arg11 : FVec F S4096x1024 .f32) (main_arg12 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_arg11 main_arg12 main_v13 main_v16
-- ==== Kernel.lean ====
abbrev S4096x1024 : Shape := ⟨2, ![4096, 1024]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S1024x1536 : Shape := ⟨2, ![1024, 1536]⟩
abbrev S1536 : Shape := ⟨1, ![1536]⟩
abbrev S4096x512 : Shape := ⟨2, ![4096, 512]⟩
abbrev S1024x1024 : Shape := ⟨2, ![1024, 1024]⟩
abbrev S1x1536 : Shape := ⟨2, ![1, 1536]⟩
abbrev S4096x4096 : Shape := ⟨2, ![4096, 4096]⟩
abbrev S256x512 : Shape := ⟨2, ![256, 512]⟩
abbrev S256x4096 : Shape := ⟨2, ![256, 4096]⟩
abbrev S256 : Shape := ⟨1, ![256]⟩
abbrev S256x1 : Shape := ⟨2, ![256, 1]⟩
abbrev S256x1024 : Shape := ⟨2, ![256, 1024]⟩
abbrev S1x1024 : Shape := ⟨2, ![1, 1024]⟩
abbrev S1x4096 : Shape := ⟨2, ![1, 4096]⟩

abbrev nBuf : Space → Nat
  | .hbm => 25
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S512, .f32⟩
  | .hbm, ⟨3, _⟩ => ⟨S1024x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S512x1024, .f32⟩
  | .hbm, ⟨8, _⟩ => ⟨S1024, .f32⟩
  | .hbm, ⟨9, _⟩ => ⟨S1024x4096, .f32⟩
  | .hbm, ⟨10, _⟩ => ⟨S4096, .f32⟩
  | .hbm, ⟨11, _⟩ => ⟨S4096x1024, .f32⟩
  | .hbm, ⟨12, _⟩ => ⟨S1024, .f32⟩
  | .hbm, ⟨13, _⟩ => ⟨S1024x1536, .f32⟩
  | .hbm, ⟨14, _⟩ => ⟨S1024x1536, .bf16⟩
  | .hbm, ⟨15, _⟩ => ⟨S1536, .f32⟩
  | .hbm, ⟨16, _⟩ => ⟨S4096x512, .bf16⟩
  | .hbm, ⟨17, _⟩ => ⟨S4096x512, .bf16⟩
  | .hbm, ⟨18, _⟩ => ⟨S4096x512, .bf16⟩
  | .hbm, ⟨19, _⟩ => ⟨S4096x4096, .f32⟩
  | .hbm, ⟨20, _⟩ => ⟨S4096x512, .bf16⟩
  | .hbm, ⟨21, _⟩ => ⟨S512x1024, .bf16⟩
  | .hbm, ⟨22, _⟩ => ⟨S1024x4096, .bf16⟩
  | .hbm, ⟨23, _⟩ => ⟨S4096x1024, .bf16⟩
  | .hbm, ⟨24, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1536, .bf16⟩
  | .local _ .vmem, ⟨3, _⟩ => ⟨S1536, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S256x512, .bf16⟩
  | .local _ .vmem, ⟨11, _⟩ => ⟨S256x512, .bf16⟩
  | .local _ .vmem, ⟨12, _⟩ => ⟨S4096x512, .bf16⟩
  | .local _ .vmem, ⟨13, _⟩ => ⟨S4096x512, .bf16⟩
  | .local _ .vmem, ⟨14, _⟩ => ⟨S256x4096, .f32⟩
  | .local _ .vmem, ⟨15, _⟩ => ⟨S256x4096, .f32⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x1024, .f32⟩
  | .local _ .vmem, ⟨21, _⟩ => ⟨S256x1024, .f32⟩
  | .local _ .vmem, ⟨22, _⟩ => ⟨S512x1024, .bf16⟩
  | .local _ .vmem, ⟨23, _⟩ => ⟨S1024, .f32⟩
  | .local _ .vmem, ⟨24, _⟩ => ⟨S1024x4096, .bf16⟩
  | .local _ .vmem, ⟨25, _⟩ => ⟨S4096, .f32⟩
  | .local _ .vmem, ⟨26, _⟩ => ⟨S4096x1024, .bf16⟩
  | .local _ .vmem, ⟨27, _⟩ => ⟨S1024, .f32⟩
  | .local _ .vmem, ⟨28, _⟩ => ⟨S256x1024, .f32⟩
  | .local _ .vmem, ⟨29, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v4_0 : Ref sig .tc := ⟨.hbm, 19, rfl⟩
abbrev main_v4_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x4096 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S4096x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S256x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  concatenates_S1024x512_S1024x512_S1024x512_S1024x1536_d1 : Shape.Concatenates [S1024x512, S1024x512, S1024x512] S1024x1536 1
  bitsLt_bf16_f32 : FTy.bits .bf16 < FTy.bits .f32
  concatenates_S512_S512_S512_S1536_d0 : Shape.Concatenates [S512, S512, S512] S1536 0
  inb_S1024x1024_S1024x1024_0_0 : ∀ a, (![0, 0] : Fin 2 → Nat) a + S1024x1024.size a ≤ S1024x1024.size a
  h_S1024x1024 : 0 < S1024x1024.numel
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S1536_S1536_0 : ∀ a, (![0] : Fin 1 → Nat) a + S1536.size a ≤ S1536.size a
  h_S1536 : 0 < S1536.numel
  shapeCasts_S1536_S1536 : S1536.ShapeCasts S1536
  shapeCasts_S1536_S1x1536 : S1536.ShapeCasts S1x1536
  broadcasts_S1x1536_S1024x1536 : S1x1536.Broadcasts S1024x1536
  slices_S1024x1536_o0_0_S1024x512 : S1024x1536.Slices ![0, 0] S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  slices_S1024x1536_o0_512_S1024x512 : S1024x1536.Slices ![0, 512] S1024x512
  slices_S1024x1536_o0_1024_S1024x512 : S1024x1536.Slices ![0, 1024] S1024x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S256x4096_S256 : S256x4096.Reduces [1] S256
  shapeCasts_S256_S256x1 : S256.ShapeCasts S256x1
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  broadcasts_S256x1_S256x512 : S256x1.Broadcasts S256x512
  packedbf16_S256x512_S256x512_0_0 : (Rect.unit (s := S256x512) ![0, 0] S256x512.size inb_S256x512_S256x512_0_0).PackedRows (EltTy.packing .bf16)
  inb_S256x1024_S256x1024_0_0 : ∀ a, (![0, 0] : Fin 2 → Nat) a + S256x1024.size a ≤ S256x1024.size a
  h_S256x1024 : 0 < S256x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  dot_S1024x1024_S1024x1536_S1024x1536_1_0_0_1_n_n_wf : DotDims.WF S1024x1024 S1024x1536 S1024x1536 [1] [0] [0] [1] [] []
  dot_S256x512_S4096x512_S256x4096_1_1_0_0_n_n_wf : DotDims.WF S256x512 S4096x512 S256x4096 [1] [1] [0] [0] [] []
  dot_S256x4096_S4096x512_S256x512_1_0_0_1_n_n_wf : DotDims.WF S256x4096 S4096x512 S256x512 [1] [0] [0] [1] [] []
  dot_S256x512_S512x1024_S256x1024_1_0_0_1_n_n_wf : DotDims.WF S256x512 S512x1024 S256x1024 [1] [0] [0] [1] [] []
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1536.size a ≤ S1024x1536.size a
  hwx0_1 : ∀ i : grid0.Coords, EltTy.bits .bf16 = 32 ∨ (Rect.block (s := S1024x1536) S1024x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .bf16 = 32 ∨ (Rect.block (s := S4096x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x512.size a
  hwx0_4 : ∀ i : grid0.Coords, EltTy.bits .bf16 = 32 ∨ (Rect.block (s := S4096x512) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x512.size a
  hwx0_5 : ∀ i : grid0.Coords, EltTy.bits .bf16 = 32 ∨ (Rect.block (s := S4096x512) S1024x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x512.size a
  hwx1_0 : ∀ i : grid1.Coords, EltTy.bits .bf16 = 32 ∨ (Rect.block (s := S4096x512) S256x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .bf16 = 32 ∨ (Rect.block (s := S4096x512) S4096x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x512.size a
  hwx1_2 : ∀ i : grid1.Coords, EltTy.bits .bf16 = 32 ∨ (Rect.block (s := S4096x512) S4096x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S4096x4096.size a
  hwx1_3 : ∀ i : grid1.Coords, EltTy.bits .f32 = 32 ∨ (Rect.block (s := S4096x4096) S256x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S4096x512.size a
  hwx1_4 : ∀ i : grid1.Coords, EltTy.bits .bf16 = 32 ∨ (Rect.block (s := S4096x512) S256x512.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S4096x512.size a
  hwx2_0 : ∀ i : grid2.Coords, EltTy.bits .bf16 = 32 ∨ (Rect.block (s := S4096x512) S256x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S4096x1024.size a
  hwx2_1 : ∀ i : grid2.Coords, EltTy.bits .f32 = 32 ∨ (Rect.block (s := S4096x1024) S256x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S512x1024.size a
  hwx2_2 : ∀ i : grid2.Coords, EltTy.bits .bf16 = 32 ∨ (Rect.block (s := S512x1024) S512x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S1024.size a
  hwx2_3 : ∀ i : grid2.Coords, EltTy.bits .f32 = 32 ∨ (Rect.block (s := S1024) S1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x4096.size a ≤ S1024x4096.size a
  hwx2_4 : ∀ i : grid2.Coords, EltTy.bits .bf16 = 32 ∨ (Rect.block (s := S1024x4096) S1024x4096.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4096.size a ≤ S4096.size a
  hwx2_5 : ∀ i : grid2.Coords, EltTy.bits .f32 = 32 ∨ (Rect.block (s := S4096) S4096.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S4096x1024.size a ≤ S4096x1024.size a
  hwx2_6 : ∀ i : grid2.Coords, EltTy.bits .bf16 = 32 ∨ (Rect.block (s := S4096x1024) S4096x1024.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1024.size a ≤ S1024.size a
  hwx2_7 : ∀ i : grid2.Coords, EltTy.bits .f32 = 32 ∨ (Rect.block (s := S1024) S1024.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x1024.size a ≤ S4096x1024.size a
  hwx2_8 : ∀ i : grid2.Coords, EltTy.bits .f32 = 32 ∨ (Rect.block (s := S4096x1024) S256x1024.size (cc2_transform_8 i) (hinb2_8 i)).WholeWords (EltTy.packing .f32)

variable [Facts₀]

def dot_S1024x1024_S1024x1536_S1024x1536_1_0_0_1_n_n : DotDims S1024x1024 S1024x1536 S1024x1536 where
  lhsContracting := [1]
  rhsContracting := [0]
  lhsNonContracting := [0]
  rhsNonContracting := [1]
  lhsBatch := []
  rhsBatch := []
  wf := dot_S1024x1024_S1024x1536_S1024x1536_1_0_0_1_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3_0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S4096x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S256x4096.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4_1) S256x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v4_1) S256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S512x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1024x4096.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S4096.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S4096x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg12) S1024.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v8) S256x1024.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S4096x512 : Shape := ⟨2, ![4096, 512]⟩
abbrev S1x512 : Shape := ⟨2, ![1, 512]⟩
abbrev S512x4096 : Shape := ⟨2, ![512, 4096]⟩
abbrev S4096x4096 : Shape := ⟨2, ![4096, 4096]⟩
abbrev S_ : Shape := ⟨0, ![]⟩
abbrev S4096x1 : Shape := ⟨2, ![4096, 1]⟩
abbrev S1x1024 : Shape := ⟨2, ![1, 1024]⟩
abbrev S1x4096 : Shape := ⟨2, ![1, 4096]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S512, .f32⟩
  | .hbm, ⟨3, _⟩ => ⟨S1024x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S512x1024, .f32⟩
  | .hbm, ⟨8, _⟩ => ⟨S1024, .f32⟩
  | .hbm, ⟨9, _⟩ => ⟨S1024x4096, .f32⟩
  | .hbm, ⟨10, _⟩ => ⟨S4096, .f32⟩
  | .hbm, ⟨11, _⟩ => ⟨S4096x1024, .f32⟩
  | .hbm, ⟨12, _⟩ => ⟨S1024, .f32⟩
  | .hbm, ⟨13, _⟩ => ⟨S4096x512, .f32⟩
  | .hbm, ⟨14, _⟩ => ⟨S1x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S1x512, .f32⟩
  | .hbm, ⟨23, _⟩ => ⟨S4096x512, .f32⟩
  | .hbm, ⟨24, _⟩ => ⟨S4096x512, .f32⟩
  | .hbm, ⟨25, _⟩ => ⟨S512x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x4096, .f32⟩
  | .hbm, ⟨43, _⟩ => ⟨S4096x4096, .f32⟩
  | .hbm, ⟨44, _⟩ => ⟨S4096x512, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x4096, .f32⟩
  | .hbm, ⟨51, _⟩ => ⟨S1x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x1024_S1024x512_S4096x512_1_0_0_1_n_n_wf : DotDims.WF S4096x1024 S1024x512 S4096x512 [1] [0] [0] [1] [] []
  dot_S4096x512_S512x4096_S4096x4096_1_0_0_1_n_n_wf : DotDims.WF S4096x512 S512x4096 S4096x4096 [1] [0] [0] [1] [] []
  dot_S4096x4096_S4096x512_S4096x512_1_0_0_1_n_n_wf : DotDims.WF S4096x4096 S4096x512 S4096x512 [1] [0] [0] [1] [] []
  dot_S4096x512_S512x1024_S4096x1024_1_0_0_1_n_n_wf : DotDims.WF S4096x512 S512x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Reg0Bits.lean ====
/-
  The projection region: one grid point multiplies a block of 1024 input rows by the 1024 × 1536 matrix of the three
  projections side by side, adds the 1536 biases, and stores the three 512-column thirds as the query, key and value blocks.

  Stated at any contents `V` of the buffers when the region is entered: each window's block at a grid point, what the
  body leaves in the three output windows' buffers as a function of the three input blocks, the body's triple, and the
  proof data and body obligation the pipeline's launch theorem takes.
-/
import proofs.«164798_j81956565942714_2_alg».proof.Proof.Gen.Kernel.Launch
import proofs.«164798_j81956565942714_2_alg».proof.Proof.Gen.Kernel.Skeleton
import proofs.«164798_j81956565942714_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: every load and store is of a whole staging buffer. -/
abbrev r0_x : Rect S1024x1024 := Rect.unit (s := S1024x1024) ![0, 0] S1024x1024.size inb_S1024x1024_S1024x1024_0_0
abbrev r0_w : Rect S1024x1536 := Rect.unit (s := S1024x1536) ![0, 0] S1024x1536.size inb_S1024x1536_S1024x1536_0_0
abbrev r0_b : Rect S1536 := Rect.unit (s := S1536) ![0] S1536.size inb_S1536_S1536_0
abbrev r0_o : Rect S1024x512 := Rect.unit (s := S1024x512) ![0, 0] S1024x512.size inb_S1024x512_S1024x512_0_0

/-- The query window's buffer after the body: its one store, of the first third of the biased product. -/
def out0_3 (x0 : Vec F S1024x1024 .f32) (x1 : Vec F S1024x1536 .bf16) (x2 : Vec F S1536 .f32) : Vec F S1024x512 .bf16 :=
  View.canon [⟨r0_o, k0_pay2 (View.ld x0 r0_x) (View.ld x1 r0_w) (View.ld x2 r0_b)⟩]
/-- The key window's buffer after the body: the second third. -/
def out0_4 (x0 : Vec F S1024x1024 .f32) (x1 : Vec F S1024x1536 .bf16) (x2 : Vec F S1536 .f32) : Vec F S1024x512 .bf16 :=
  View.canon [⟨r0_o, k0_pay3 (View.ld x0 r0_x) (View.ld x1 r0_w) (View.ld x2 r0_b)⟩]
/-- The value window's buffer after the body: the last third. -/
def out0_5 (x0 : Vec F S1024x1024 .f32) (x1 : Vec F S1024x1536 .bf16) (x2 : Vec F S1536 .f32) : Vec F S1024x512 .bf16 :=
  View.canon [⟨r0_o, k0_pay4 (View.ld x0 r0_x) (View.ld x1 r0_w) (View.ld x2 r0_b)⟩]

/-- One whole-buffer store covers the buffer. -/
theorem cover0_o (p0 : Vec F S1024x512 .bf16) (y : S1024x512.Idx) :
    ∃ pc ∈ ([⟨r0_o, p0⟩] : List (View.Piece (Elt F) S1024x512 .bf16)), y ∈ pc.1.set :=
  View.cover_of_tiled [⟨r0_o, p0⟩] S1024x512.size (by rfl) y

set_option maxHeartbeats 1000000 in
/-- The body on whole staging buffers, the inputs' at contents `x0 x1 x2` and the outputs' at anything, runs to the
    continuation holding the inputs' as they were and each output's at its function of the inputs'. -/
theorem sound_kernel0 (c : Dev nD) (E : Set ℕ) (i : grid0.Coords)
    (arg1 : Memref sig .tc .vmem S1024x1024 .f32) (harg1 : arg1.IsWhole) (arg2 : Memref sig .tc .vmem S1024x1536 .bf16) (harg2 : arg2.IsWhole)
    (arg3 : Memref sig .tc .vmem S1536 .f32) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (x0 : Vec F S1024x1024 .f32) (x1 : Vec F S1024x1536 .bf16) (x2 : Vec F S1536 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_proj_kernel i arg1 harg1 arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-- The proof data of the projection pipeline on core `c`: the arrays as the region finds them; after the body at point `t`
    each input's buffer at its block and each output's at its function of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Reg1Bits.lean ====
/-
  The attention region: one grid point takes a block of 256 query rows and the whole key and value arrays, and stores the
  block's 256 × 4096 softmax weights and its 256 × 512 mixed value rows.

  Stated at any contents `V` of the buffers when the region is entered: each window's block at a grid point, what the
  body leaves in the two output windows' buffers as a function of the three input blocks, the body's triple, and the
  proof data and body obligation the pipeline's launch theorem takes.
-/
import proofs.«164798_j81956565942714_2_alg».proof.Proof.Gen.Kernel.Launch
import proofs.«164798_j81956565942714_2_alg».proof.Proof.Gen.Kernel.Skeleton
import proofs.«164798_j81956565942714_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: every load and store is of a whole staging buffer. -/
abbrev r1_q : Rect S256x512 := Rect.unit (s := S256x512) ![0, 0] S256x512.size inb_S256x512_S256x512_0_0
abbrev r1_k : Rect S4096x512 := Rect.unit (s := S4096x512) ![0, 0] S4096x512.size inb_S4096x512_S4096x512_0_0
abbrev r1_a : Rect S256x4096 := Rect.unit (s := S256x4096) ![0, 0] S256x4096.size inb_S256x4096_S256x4096_0_0

/-- The weights window's buffer after the body: its one store, of the normalised exponentials. -/
def out1_3 (x0 : Vec F S256x512 .bf16) (x1 : Vec F S4096x512 .bf16) : Vec F S256x4096 .f32 :=
  View.canon [⟨r1_a, k1_pay3 (View.ld x0 r1_q) (View.ld x1 r1_k)⟩]
/-- The mixed-rows window's buffer after the body: its one store, of the normalised product with the value rows. -/
def out1_4 (x0 : Vec F S256x512 .bf16) (x1 : Vec F S4096x512 .bf16) (x2 : Vec F S4096x512 .bf16) : Vec F S256x512 .bf16 :=
  View.canon [⟨r1_q, k1_pay4 (View.ld x0 r1_q) (View.ld x1 r1_k) (View.ld x2 r1_k)⟩]

/-- One whole-buffer store covers the buffer. -/
theorem cover1_a (p0 : Vec F S256x4096 .f32) (y : S256x4096.Idx) :
    ∃ pc ∈ ([⟨r1_a, p0⟩] : List (View.Piece (Elt F) S256x4096 .f32)), y ∈ pc.1.set :=
  View.cover_of_tiled [⟨r1_a, p0⟩] S256x4096.size (by rfl) y
theorem cover1_q (p0 : Vec F S256x512 .bf16) (y : S256x512.Idx) :
    ∃ pc ∈ ([⟨r1_q, p0⟩] : List (View.Piece (Elt F) S256x512 .bf16)), y ∈ pc.1.set :=
  View.cover_of_tiled [⟨r1_q, p0⟩] S256x512.size (by rfl) y

set_option maxHeartbeats 1000000 in
/-- The body on whole staging buffers, the inputs' at contents `x0 x1 x2` and the outputs' at anything, runs to the
    continuation holding the inputs' as they were and each output's at its function of the inputs'. -/
theorem sound_kernel1 (c : Dev nD) (E : Set ℕ) (i : grid1.Coords)
    (arg1 : Memref sig .tc .vmem S256x512 .bf16) (harg1 : arg1.IsWhole) (arg2 : Memref sig .tc .vmem S4096x512 .bf16) (harg2 : arg2.IsWhole)
    (arg3 : Memref sig .tc .vmem S4096x512 .bf16) (harg3 : arg3.IsWhole) (arg4 : Memref sig .tc .vmem S256x4096 .f32) (harg4 : arg4.IsWhole)
    (arg5 : Memref sig .tc .vmem S256x512 .bf16) (harg5 : arg5.IsWhole)
    (x0 : Vec F S256x512 .bf16) (x1 : Vec F S4096x512 .bf16) (x2 : Vec F S4096x512 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x1 x2)) -∗ K ⟨⟩))
      ⊢ wp frame (wpE (defs₀ (F := F)) Variants.none c none) E (cc1__attention_kernel i arg1 harg1 arg2 harg2 arg3 harg3 arg4 harg4 arg5 harg5) K := by
  simp only [cc1__attention_kernel_eq_skeleton]; unfold cc1__attention_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_a _)
  iexists _; isplitr
  swap; · iexact H4
  ipureintro
  exact View.read_writes_eq_canon _ _ _ (cover1_q _)

/-- The proof data of the attention pipeline on core `c`: the arrays as the region finds them; after the body at point `t`
    each input's buffer at its block and each output's at its function of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Reg2Bits.lean ====
/-
  The output region: one grid point takes a block of 256 mixed rows and the matching 256 input rows, with the output
  projection and the two perceptron layers whole, and stores the block's 256 × 1024 result rows.

  Stated at any contents `V` of the buffers when the region is entered: each window's block at a grid point, what the
  body leaves in the output window's buffer as a function of the eight input blocks, the body's triple, and the proof
  data and body obligation the pipeline's launch theorem takes.
-/
import proofs.«164798_j81956565942714_2_alg».proof.Proof.Gen.Kernel.Launch
import proofs.«164798_j81956565942714_2_alg».proof.Proof.Gen.Kernel.Skeleton
import proofs.«164798_j81956565942714_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: every load and store is of a whole staging buffer. -/
abbrev r2_o : Rect S256x512 := Rect.unit (s := S256x512) ![0, 0] S256x512.size inb_S256x512_S256x512_0_0
abbrev r2_x : Rect S256x1024 := Rect.unit (s := S256x1024) ![0, 0] S256x1024.size inb_S256x1024_S256x1024_0_0
abbrev r2_wo : Rect S512x1024 := Rect.unit (s := S512x1024) ![0, 0] S512x1024.size inb_S512x1024_S512x1024_0_0
abbrev r2_b : Rect S1024 := Rect.unit (s := S1024) ![0] S1024.size inb_S1024_S1024_0
abbrev r2_w1 : Rect S1024x4096 := Rect.unit (s := S1024x4096) ![0, 0] S1024x4096.size inb_S1024x4096_S1024x4096_0_0
abbrev r2_b1 : Rect S4096 := Rect.unit (s := S4096) ![0] S4096.size inb_S4096_S4096_0
abbrev r2_w2 : Rect S4096x1024 := Rect.unit (s := S4096x1024) ![0, 0] S4096x1024.size inb_S4096x1024_S4096x1024_0_0

/-- The result window's buffer after the body: its one store. -/
def out2_8 (x0 : Vec F S256x512 .bf16) (x1 : Vec F S256x1024 .f32) (x2 : Vec F S512x1024 .bf16) (x3 : Vec F S1024 .f32)
    (x4 : Vec F S1024x4096 .bf16) (x5 : Vec F S4096 .f32) (x6 : Vec F S4096x1024 .bf16) (x7 : Vec F S1024 .f32) : Vec F S256x1024 .f32 :=
  View.canon [⟨r2_x, k2_pay1 (View.ld x0 r2_o) (View.ld x1 r2_x) (View.ld x2 r2_wo) (View.ld x3 r2_b) (View.ld x4 r2_w1) (View.ld x5 r2_b1) (View.ld x6 r2_w2) (View.ld x7 r2_b)⟩]

/-- One whole-buffer store covers the buffer. -/
theorem cover2_x (p0 : Vec F S256x1024 .f32) (y : S256x1024.Idx) :
    ∃ pc ∈ ([⟨r2_x, p0⟩] : List (View.Piece (Elt F) S256x1024 .f32)), y ∈ pc.1.set :=
  View.cover_of_tiled [⟨r2_x, p0⟩] S256x1024.size (by rfl) y

set_option maxHeartbeats 1000000 in
/-- The body on whole staging buffers, the inputs' at contents `x0 … x7` and the output's at anything, runs to the
    continuation holding the inputs' as they were and the output's at its function of the inputs'. -/
theorem sound_kernel2 (c : Dev nD) (E : Set ℕ) (i : grid2.Coords)
    (arg1 : Memref sig .tc .vmem S256x512 .bf16) (harg1 : arg1.IsWhole) (arg2 : Memref sig .tc .vmem S256x1024 .f32) (harg2 : arg2.IsWhole)
    (arg3 : Memref sig .tc .vmem S512x1024 .bf16) (harg3 : arg3.IsWhole) (arg4 : Memref sig .tc .vmem S1024 .f32) (harg4 : arg4.IsWhole)
    (arg5 : Memref sig .tc .vmem S1024x4096 .bf16) (harg5 : arg5.IsWhole) (arg6 : Memref sig .tc .vmem S4096 .f32) (harg6 : arg6.IsWhole)
    (arg7 : Memref sig .tc .vmem S4096x1024 .bf16) (harg7 : arg7.IsWhole) (arg8 : Memref sig .tc .vmem S1024 .f32) (harg8 : arg8.IsWhole)
    (arg9 : Memref sig .tc .vmem S256x1024 .f32) (harg9 : arg9.IsWhole)
    (x0 : Vec F S256x512 .bf16) (x1 : Vec F S256x1024 .f32) (x2 : Vec F S512x1024 .bf16) (x3 : Vec F S1024 .f32)
    (x4 : Vec F S1024x4096 .bf16) (x5 : Vec F S4096 .f32) (x6 : Vec F S4096x1024 .bf16) (x7 : Vec F S1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E
          (cc2__post_kernel i arg1 harg1 arg2 harg2 arg3 harg3 arg4 harg4 arg5 harg5 arg6 harg6 arg7 harg7 arg8 harg8 arg9 harg9) K := by
  simp only [cc2__post_kernel_eq_skeleton]; unfold cc2__post_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_x _)

/-- The proof data of the output pipeline on core `c`: the arrays as the region finds them; after the body at point `t`
    each input's buffer at its block and the output's at its function of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t
    = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.RunBits.lean ====
/-
  The whole program as one run: the three regions among two stretches of host operations.

  The contents of every buffer at each boundary between segments are a fold from the launch memory: a stretch of host
  operations applies its operations; a region leaves its input arrays as entered and each output array at what its
  write-backs leave. Each region is entered from the fold's contents before it and left at the contents after it, so
  every weakly fair execution terminates with every buffer that outlives the regions at the last fold's contents —
  the argument arrays as launched among them.
-/
import proofs.«164798_j81956565942714_2_alg».proof.Proof.Reg0Bits
import proofs.«164798_j81956565942714_2_alg».proof.Proof.Reg1Bits
import proofs.«164798_j81956565942714_2_alg».proof.Proof.Reg2Bits
import proofs.«164798_j81956565942714_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After region 0: its arrays at what the pipeline leaves (the inputs as entered, each output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1: its arrays at what the pipeline leaves (the inputs as entered, each output's write-backs folded), every
    other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An input window's array leaves the region as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second stretch of host operations (the output region's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After region 2: its arrays at what the pipeline leaves (the inputs as entered, each output's write-backs folded), every
    other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- An input window's array leaves the region as it entered. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (A_eq2 (V4 m ρ) c w))
/-- The same read at the TensorCore's references. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- A stretch of host operations leaves a buffer it does not write as it was. -/
theorem W1_keep (c : Dev nD) (r : Ref sig .tc) (h : r ∉ hostOps0_W) : W1 m ρ c r = W0 m ρ c r :=
  StableHlo.after_of_writes_sub hostOps0 _ hostOps0_writes h
theorem W4_keep (c : Dev nD) (r : Ref sig .tc) (h : r ∉ hostOps2_W) : W4 m ρ c r = W3 m ρ c r :=
  StableHlo.after_of_writes_sub hostOps2 _ hostOps2_writes h

/-! ## The arguments end as launched -/

theorem W5_main_arg0 (c : Dev nD) : W5 m ρ c (Proc.devRef .tc main_arg0) = m ((c : Thread nD τ).loc main_arg0) :=
  (W5_in m ρ c 1 rfl).trans <| (W4_keep m ρ c main_arg0 (by decide)).trans <| (W3_of_ne m ρ c main_arg0 (by decide)).trans <|
    (W2_in m ρ c 0 rfl).trans <| (W1_keep m ρ c main_arg0 (by decide)).trans rfl
theorem W5_main_arg1 (c : Dev nD) : W5 m ρ c (Proc.devRef .tc main_arg1) = m ((c : Thread nD τ).loc main_arg1) :=
  (W5_of_ne m ρ c main_arg1 (by decide)).trans <| (W4_keep m ρ c main_arg1 (by decide)).trans <| (W3_of_ne m ρ c main_arg1 (by decide)).trans <|
    (W2_of_ne m ρ c main_arg1 (by decide)).trans <| (W1_keep m ρ c main_arg1 (by decide)).trans rfl
theorem W5_main_arg2 (c : Dev nD) : W5 m ρ c (Proc.devRef .tc main_arg2) = m ((c : Thread nD τ).loc main_arg2) :=
  (W5_of_ne m ρ c main_arg2 (by decide)).trans <| (W4_keep m ρ c main_arg2 (by decide)).trans <| (W3_of_ne m ρ c main_arg2 (by decide)).trans <|
    (W2_of_ne m ρ c main_arg2 (by decide)).trans <| (W1_keep m ρ c main_arg2 (by decide)).trans rfl
theorem W5_main_arg3 (c : Dev nD) : W5 m ρ c (Proc.devRef .tc main_arg3) = m ((c : Thread nD τ).loc main_arg3) :=
  (W5_of_ne m ρ c main_arg3 (by decide)).trans <| (W4_keep m ρ c main_arg3 (by decide)).trans <| (W3_of_ne m ρ c main_arg3 (by decide)).trans <|
    (W2_of_ne m ρ c main_arg3 (by decide)).trans <| (W1_keep m ρ c main_arg3 (by decide)).trans rfl
theorem W5_main_arg4 (c : Dev nD) : W5 m ρ c (Proc.devRef .tc main_arg4) = m ((c : Thread nD τ).loc main_arg4) :=
  (W5_of_ne m ρ c main_arg4 (by decide)).trans <| (W4_keep m ρ c main_arg4 (by decide)).trans <| (W3_of_ne m ρ c main_arg4 (by decide)).trans <|
    (W2_of_ne m ρ c main_arg4 (by decide)).trans <| (W1_keep m ρ c main_arg4 (by decide)).trans rfl
theorem W5_main_arg5 (c : Dev nD) : W5 m ρ c (Proc.devRef .tc main_arg5) = m ((c : Thread nD τ).loc main_arg5) :=
  (W5_of_ne m ρ c main_arg5 (by decide)).trans <| (W4_keep m ρ c main_arg5 (by decide)).trans <| (W3_of_ne m ρ c main_arg5 (by decide)).trans <|
    (W2_of_ne m ρ c main_arg5 (by decide)).trans <| (W1_keep m ρ c main_arg5 (by decide)).trans rfl
theorem W5_main_arg6 (c : Dev nD) : W5 m ρ c (Proc.devRef .tc main_arg6) = m ((c : Thread nD τ).loc main_arg6) :=
  (W5_of_ne m ρ c main_arg6 (by decide)).trans <| (W4_keep m ρ c main_arg6 (by decide)).trans <| (W3_of_ne m ρ c main_arg6 (by decide)).trans <|
    (W2_of_ne m ρ c main_arg6 (by decide)).trans <| (W1_keep m ρ c main_arg6 (by decide)).trans rfl
theorem W5_main_arg7 (c : Dev nD) : W5 m ρ c (Proc.devRef .tc main_arg7) = m ((c : Thread nD τ).loc main_arg7) :=
  (W5_of_ne m ρ c main_arg7 (by decide)).trans <| (W4_keep m ρ c main_arg7 (by decide)).trans <| (W3_of_ne m ρ c main_arg7 (by decide)).trans <|
    (W2_of_ne m ρ c main_arg7 (by decide)).trans <| (W1_keep m ρ c main_arg7 (by decide)).trans rfl
theorem W5_main_arg9 (c : Dev nD) : W5 m ρ c (Proc.devRef .tc main_arg9) = m ((c : Thread nD τ).loc main_arg9) :=
  (W5_of_ne m ρ c main_arg9 (by decide)).trans <| (W4_keep m ρ c main_arg9 (by decide)).trans <| (W3_of_ne m ρ c main_arg9 (by decide)).trans <|
    (W2_of_ne m ρ c main_arg9 (by decide)).trans <| (W1_keep m ρ c main_arg9 (by decide)).trans rfl
theorem W5_main_arg11 (c : Dev nD) : W5 m ρ c (Proc.devRef .tc main_arg11) = m ((c : Thread nD τ).loc main_arg11) :=
  (W5_of_ne m ρ c main_arg11 (by decide)).trans <| (W4_keep m ρ c main_arg11 (by decide)).trans <| (W3_of_ne m ρ c main_arg11 (by decide)).trans <|
    (W2_of_ne m ρ c main_arg11 (by decide)).trans <| (W1_keep m ρ c main_arg11 (by decide)).trans rfl
theorem W5_main_arg8 (c : Dev nD) : W5 m ρ c (Proc.devRef .tc main_arg8) = m ((c : Thread nD τ).loc main_arg8) :=
  (W5_in m ρ c 3 rfl).trans <| (W4_keep m ρ c main_arg8 (by decide)).trans <| (W3_of_ne m ρ c main_arg8 (by decide)).trans <|
    (W2_of_ne m ρ c main_arg8 (by decide)).trans <| (W1_keep m ρ c main_arg8 (by decide)).trans rfl
theorem W5_main_arg10 (c : Dev nD) : W5 m ρ c (Proc.devRef .tc main_arg10) = m ((c : Thread nD τ).loc main_arg10) :=
  (W5_in m ρ c 5 rfl).trans <| (W4_keep m ρ c main_arg10 (by decide)).trans <| (W3_of_ne m ρ c main_arg10 (by decide)).trans <|
    (W2_of_ne m ρ c main_arg10 (by decide)).trans <| (W1_keep m ρ c main_arg10 (by decide)).trans rfl
theorem W5_main_arg12 (c : Dev nD) : W5 m ρ c (Proc.devRef .tc main_arg12) = m ((c : Thread nD τ).loc main_arg12) :=
  (W5_in m ρ c 7 rfl).trans <| (W4_keep m ρ c main_arg12 (by decide)).trans <| (W3_of_ne m ρ c main_arg12 (by decide)).trans <|
    (W2_of_ne m ρ c main_arg12 (by decide)).trans <| (W1_keep m ρ c main_arg12 (by decide)).trans rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)
/-- A stretch of host operations as a segment over the buffers that outlive the regions. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every buffer that outlives the regions at the last boundary's contents. -/
abbrev Tₙ (c : Dev nD) : sProp 𝕄 := iprop(StableHlo.held (c : Thread nD τ) (Pipeline.ucRefs τ sig) (W5 m ρ c) ∗ ∃ r, prngReg c r)

/-! ## The regions as segments -/

-- a library lemma stated over the pinned configuration unifies with the printed one only when unification may unfold
-- plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- Every weakly fair execution of the program from memory `m` terminates, nothing faulting, and every final state has
    each buffer that outlives the regions at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c),
    (h c _ (mem_uc main_arg12 (by decide))).trans (W5_main_arg12 m ρ c)⟩) (run_all m ρ)

end Cert.Kernel.Hand

end
-- ==== Proof.Reg0Ideal.lean ====
/-
  The projection region: one grid point multiplies a block of 1024 input rows by the 1024 × 1536 matrix of the three
  projections side by side, adds the 1536 biases, and stores the three 512-column thirds as the query, key and value blocks.

  Stated at any contents `V` of the buffers when the region is entered: each window's block at a grid point, what the
  body leaves in the three output windows' buffers as a function of the three input blocks, the body's triple, and the
  proof data and body obligation the pipeline's launch theorem takes.
-/
import proofs.«164798_j81956565942714_2_alg».proof.Proof.Gen.KernelIdeal.Launch
import proofs.«164798_j81956565942714_2_alg».proof.Proof.Gen.KernelIdeal.Skeleton
import proofs.«164798_j81956565942714_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: every load and store is of a whole staging buffer. -/
abbrev r0_x : Rect S1024x1024 := Rect.unit (s := S1024x1024) ![0, 0] S1024x1024.size inb_S1024x1024_S1024x1024_0_0
abbrev r0_w : Rect S1024x1536 := Rect.unit (s := S1024x1536) ![0, 0] S1024x1536.size inb_S1024x1536_S1024x1536_0_0
abbrev r0_b : Rect S1536 := Rect.unit (s := S1536) ![0] S1536.size inb_S1536_S1536_0
abbrev r0_o : Rect S1024x512 := Rect.unit (s := S1024x512) ![0, 0] S1024x512.size inb_S1024x512_S1024x512_0_0

/-- The query window's buffer after the body: its one store, of the first third of the biased product. -/
def out0_3 (x0 : Vec F S1024x1024 .f32) (x1 : Vec F S1024x1536 .bf16) (x2 : Vec F S1536 .f32) : Vec F S1024x512 .bf16 :=
  View.canon [⟨r0_o, k0_pay2 (View.ld x0 r0_x) (View.ld x1 r0_w) (View.ld x2 r0_b)⟩]
/-- The key window's buffer after the body: the second third. -/
def out0_4 (x0 : Vec F S1024x1024 .f32) (x1 : Vec F S1024x1536 .bf16) (x2 : Vec F S1536 .f32) : Vec F S1024x512 .bf16 :=
  View.canon [⟨r0_o, k0_pay3 (View.ld x0 r0_x) (View.ld x1 r0_w) (View.ld x2 r0_b)⟩]
/-- The value window's buffer after the body: the last third. -/
def out0_5 (x0 : Vec F S1024x1024 .f32) (x1 : Vec F S1024x1536 .bf16) (x2 : Vec F S1536 .f32) : Vec F S1024x512 .bf16 :=
  View.canon [⟨r0_o, k0_pay4 (View.ld x0 r0_x) (View.ld x1 r0_w) (View.ld x2 r0_b)⟩]

/-- One whole-buffer store covers the buffer. -/
theorem cover0_o (p0 : Vec F S1024x512 .bf16) (y : S1024x512.Idx) :
    ∃ pc ∈ ([⟨r0_o, p0⟩] : List (View.Piece (Elt F) S1024x512 .bf16)), y ∈ pc.1.set :=
  View.cover_of_tiled [⟨r0_o, p0⟩] S1024x512.size (by rfl) y

set_option maxHeartbeats 1000000 in
/-- The body on whole staging buffers, the inputs' at contents `x0 x1 x2` and the outputs' at anything, runs to the
    continuation holding the inputs' as they were and each output's at its function of the inputs'. -/
theorem sound_kernel0 (c : Dev nD) (E : Set ℕ) (i : grid0.Coords)
    (arg1 : Memref sig .tc .vmem S1024x1024 .f32) (harg1 : arg1.IsWhole) (arg2 : Memref sig .tc .vmem S1024x1536 .bf16) (harg2 : arg2.IsWhole)
    (arg3 : Memref sig .tc .vmem S1536 .f32) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (x0 : Vec F S1024x1024 .f32) (x1 : Vec F S1024x1536 .bf16) (x2 : Vec F S1536 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_proj_kernel i arg1 harg1 arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-- The proof data of the projection pipeline on core `c`: the arrays as the region finds them; after the body at point `t`
    each input's buffer at its block and each output's at its function of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg1Ideal.lean ====
/-
  The attention region: one grid point takes a block of 256 query rows and the whole key and value arrays, and stores the
  block's 256 × 4096 softmax weights and its 256 × 512 mixed value rows.

  Stated at any contents `V` of the buffers when the region is entered: each window's block at a grid point, what the
  body leaves in the two output windows' buffers as a function of the three input blocks, the body's triple, and the
  proof data and body obligation the pipeline's launch theorem takes.
-/
import proofs.«164798_j81956565942714_2_alg».proof.Proof.Gen.KernelIdeal.Launch
import proofs.«164798_j81956565942714_2_alg».proof.Proof.Gen.KernelIdeal.Skeleton
import proofs.«164798_j81956565942714_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: every load and store is of a whole staging buffer. -/
abbrev r1_q : Rect S256x512 := Rect.unit (s := S256x512) ![0, 0] S256x512.size inb_S256x512_S256x512_0_0
abbrev r1_k : Rect S4096x512 := Rect.unit (s := S4096x512) ![0, 0] S4096x512.size inb_S4096x512_S4096x512_0_0
abbrev r1_a : Rect S256x4096 := Rect.unit (s := S256x4096) ![0, 0] S256x4096.size inb_S256x4096_S256x4096_0_0

/-- The weights window's buffer after the body: its one store, of the normalised exponentials. -/
def out1_3 (x0 : Vec F S256x512 .bf16) (x1 : Vec F S4096x512 .bf16) : Vec F S256x4096 .f32 :=
  View.canon [⟨r1_a, k1_pay3 (View.ld x0 r1_q) (View.ld x1 r1_k)⟩]
/-- The mixed-rows window's buffer after the body: its one store, of the normalised product with the value rows. -/
def out1_4 (x0 : Vec F S256x512 .bf16) (x1 : Vec F S4096x512 .bf16) (x2 : Vec F S4096x512 .bf16) : Vec F S256x512 .bf16 :=
  View.canon [⟨r1_q, k1_pay4 (View.ld x0 r1_q) (View.ld x1 r1_k) (View.ld x2 r1_k)⟩]

/-- One whole-buffer store covers the buffer. -/
theorem cover1_a (p0 : Vec F S256x4096 .f32) (y : S256x4096.Idx) :
    ∃ pc ∈ ([⟨r1_a, p0⟩] : List (View.Piece (Elt F) S256x4096 .f32)), y ∈ pc.1.set :=
  View.cover_of_tiled [⟨r1_a, p0⟩] S256x4096.size (by rfl) y
theorem cover1_q (p0 : Vec F S256x512 .bf16) (y : S256x512.Idx) :
    ∃ pc ∈ ([⟨r1_q, p0⟩] : List (View.Piece (Elt F) S256x512 .bf16)), y ∈ pc.1.set :=
  View.cover_of_tiled [⟨r1_q, p0⟩] S256x512.size (by rfl) y

set_option maxHeartbeats 1000000 in
/-- The body on whole staging buffers, the inputs' at contents `x0 x1 x2` and the outputs' at anything, runs to the
    continuation holding the inputs' as they were and each output's at its function of the inputs'. -/
theorem sound_kernel1 (c : Dev nD) (E : Set ℕ) (i : grid1.Coords)
    (arg1 : Memref sig .tc .vmem S256x512 .bf16) (harg1 : arg1.IsWhole) (arg2 : Memref sig .tc .vmem S4096x512 .bf16) (harg2 : arg2.IsWhole)
    (arg3 : Memref sig .tc .vmem S4096x512 .bf16) (harg3 : arg3.IsWhole) (arg4 : Memref sig .tc .vmem S256x4096 .f32) (harg4 : arg4.IsWhole)
    (arg5 : Memref sig .tc .vmem S256x512 .bf16) (harg5 : arg5.IsWhole)
    (x0 : Vec F S256x512 .bf16) (x1 : Vec F S4096x512 .bf16) (x2 : Vec F S4096x512 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x1 x2)) -∗ K ⟨⟩))
      ⊢ wp frame (wpE (defs₀ (F := F)) Variants.none c none) E (cc1__attention_kernel i arg1 harg1 arg2 harg2 arg3 harg3 arg4 harg4 arg5 harg5) K := by
  simp only [cc1__attention_kernel_eq_skeleton]; unfold cc1__attention_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_a _)
  iexists _; isplitr
  swap; · iexact H4
  ipureintro
  exact View.read_writes_eq_canon _ _ _ (cover1_q _)

/-- The proof data of the attention pipeline on core `c`: the arrays as the region finds them; after the body at point `t`
    each input's buffer at its block and each output's at its function of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Reg2Ideal.lean ====
/-
  The output region: one grid point takes a block of 256 mixed rows and the matching 256 input rows, with the output
  projection and the two perceptron layers whole, and stores the block's 256 × 1024 result rows.

  Stated at any contents `V` of the buffers when the region is entered: each window's block at a grid point, what the
  body leaves in the output window's buffer as a function of the eight input blocks, the body's triple, and the proof
  data and body obligation the pipeline's launch theorem takes.
-/
import proofs.«164798_j81956565942714_2_alg».proof.Proof.Gen.KernelIdeal.Launch
import proofs.«164798_j81956565942714_2_alg».proof.Proof.Gen.KernelIdeal.Skeleton
import proofs.«164798_j81956565942714_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: every load and store is of a whole staging buffer. -/
abbrev r2_o : Rect S256x512 := Rect.unit (s := S256x512) ![0, 0] S256x512.size inb_S256x512_S256x512_0_0
abbrev r2_x : Rect S256x1024 := Rect.unit (s := S256x1024) ![0, 0] S256x1024.size inb_S256x1024_S256x1024_0_0
abbrev r2_wo : Rect S512x1024 := Rect.unit (s := S512x1024) ![0, 0] S512x1024.size inb_S512x1024_S512x1024_0_0
abbrev r2_b : Rect S1024 := Rect.unit (s := S1024) ![0] S1024.size inb_S1024_S1024_0
abbrev r2_w1 : Rect S1024x4096 := Rect.unit (s := S1024x4096) ![0, 0] S1024x4096.size inb_S1024x4096_S1024x4096_0_0
abbrev r2_b1 : Rect S4096 := Rect.unit (s := S4096) ![0] S4096.size inb_S4096_S4096_0
abbrev r2_w2 : Rect S4096x1024 := Rect.unit (s := S4096x1024) ![0, 0] S4096x1024.size inb_S4096x1024_S4096x1024_0_0

/-- The result window's buffer after the body: its one store. -/
def out2_8 (x0 : Vec F S256x512 .bf16) (x1 : Vec F S256x1024 .f32) (x2 : Vec F S512x1024 .bf16) (x3 : Vec F S1024 .f32)
    (x4 : Vec F S1024x4096 .bf16) (x5 : Vec F S4096 .f32) (x6 : Vec F S4096x1024 .bf16) (x7 : Vec F S1024 .f32) : Vec F S256x1024 .f32 :=
  View.canon [⟨r2_x, k2_pay1 (View.ld x0 r2_o) (View.ld x1 r2_x) (View.ld x2 r2_wo) (View.ld x3 r2_b) (View.ld x4 r2_w1) (View.ld x5 r2_b1) (View.ld x6 r2_w2) (View.ld x7 r2_b)⟩]

/-- One whole-buffer store covers the buffer. -/
theorem cover2_x (p0 : Vec F S256x1024 .f32) (y : S256x1024.Idx) :
    ∃ pc ∈ ([⟨r2_x, p0⟩] : List (View.Piece (Elt F) S256x1024 .f32)), y ∈ pc.1.set :=
  View.cover_of_tiled [⟨r2_x, p0⟩] S256x1024.size (by rfl) y

set_option maxHeartbeats 1000000 in
/-- The body on whole staging buffers, the inputs' at contents `x0 … x7` and the output's at anything, runs to the
    continuation holding the inputs' as they were and the output's at its function of the inputs'. -/
theorem sound_kernel2 (c : Dev nD) (E : Set ℕ) (i : grid2.Coords)
    (arg1 : Memref sig .tc .vmem S256x512 .bf16) (harg1 : arg1.IsWhole) (arg2 : Memref sig .tc .vmem S256x1024 .f32) (harg2 : arg2.IsWhole)
    (arg3 : Memref sig .tc .vmem S512x1024 .bf16) (harg3 : arg3.IsWhole) (arg4 : Memref sig .tc .vmem S1024 .f32) (harg4 : arg4.IsWhole)
    (arg5 : Memref sig .tc .vmem S1024x4096 .bf16) (harg5 : arg5.IsWhole) (arg6 : Memref sig .tc .vmem S4096 .f32) (harg6 : arg6.IsWhole)
    (arg7 : Memref sig .tc .vmem S4096x1024 .bf16) (harg7 : arg7.IsWhole) (arg8 : Memref sig .tc .vmem S1024 .f32) (harg8 : arg8.IsWhole)
    (arg9 : Memref sig .tc .vmem S256x1024 .f32) (harg9 : arg9.IsWhole)
    (x0 : Vec F S256x512 .bf16) (x1 : Vec F S256x1024 .f32) (x2 : Vec F S512x1024 .bf16) (x3 : Vec F S1024 .f32)
    (x4 : Vec F S1024x4096 .bf16) (x5 : Vec F S4096 .f32) (x6 : Vec F S4096x1024 .bf16) (x7 : Vec F S1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E
          (cc2__post_kernel i arg1 harg1 arg2 harg2 arg3 harg3 arg4 harg4 arg5 harg5 arg6 harg6 arg7 harg7 arg8 harg8 arg9 harg9) K := by
  simp only [cc2__post_kernel_eq_skeleton]; unfold cc2__post_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_x _)

/-- The proof data of the output pipeline on core `c`: the arrays as the region finds them; after the body at point `t`
    each input's buffer at its block and the output's at its function of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t
    = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.RunIdeal.lean ====
/-
  The whole program as one run: the three regions among two stretches of host operations.

  The contents of every buffer at each boundary between segments are a fold from the launch memory: a stretch of host
  operations applies its operations; a region leaves its input arrays as entered and each output array at what its
  write-backs leave. Each region is entered from the fold's contents before it and left at the contents after it, so
  every weakly fair execution terminates with every buffer that outlives the regions at the last fold's contents —
  the argument arrays as launched among them.
-/
import proofs.«164798_j81956565942714_2_alg».proof.Proof.Reg0Ideal
import proofs.«164798_j81956565942714_2_alg».proof.Proof.Reg1Ideal
import proofs.«164798_j81956565942714_2_alg».proof.Proof.Reg2Ideal
import proofs.«164798_j81956565942714_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After region 0: its arrays at what the pipeline leaves (the inputs as entered, each output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1: its arrays at what the pipeline leaves (the inputs as entered, each output's write-backs folded), every
    other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An input window's array leaves the region as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second stretch of host operations (the output region's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After region 2: its arrays at what the pipeline leaves (the inputs as entered, each output's write-backs folded), every
    other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- An input window's array leaves the region as it entered. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (A_eq2 (V4 m ρ) c w))
/-- The same read at the TensorCore's references. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- A stretch of host operations leaves a buffer it does not write as it was. -/
theorem W1_keep (c : Dev nD) (r : Ref sig .tc) (h : r ∉ hostOps0_W) : W1 m ρ c r = W0 m ρ c r :=
  StableHlo.after_of_writes_sub hostOps0 _ hostOps0_writes h
theorem W4_keep (c : Dev nD) (r : Ref sig .tc) (h : r ∉ hostOps2_W) : W4 m ρ c r = W3 m ρ c r :=
  StableHlo.after_of_writes_sub hostOps2 _ hostOps2_writes h

/-! ## The arguments end as launched -/

theorem W5_main_arg0 (c : Dev nD) : W5 m ρ c (Proc.devRef .tc main_arg0) = m ((c : Thread nD τ).loc main_arg0) :=
  (W5_in m ρ c 1 rfl).trans <| (W4_keep m ρ c main_arg0 (by decide)).trans <| (W3_of_ne m ρ c main_arg0 (by decide)).trans <|
    (W2_in m ρ c 0 rfl).trans <| (W1_keep m ρ c main_arg0 (by decide)).trans rfl
theorem W5_main_arg1 (c : Dev nD) : W5 m ρ c (Proc.devRef .tc main_arg1) = m ((c : Thread nD τ).loc main_arg1) :=
  (W5_of_ne m ρ c main_arg1 (by decide)).trans <| (W4_keep m ρ c main_arg1 (by decide)).trans <| (W3_of_ne m ρ c main_arg1 (by decide)).trans <|
    (W2_of_ne m ρ c main_arg1 (by decide)).trans <| (W1_keep m ρ c main_arg1 (by decide)).trans rfl
theorem W5_main_arg2 (c : Dev nD) : W5 m ρ c (Proc.devRef .tc main_arg2) = m ((c : Thread nD τ).loc main_arg2) :=
  (W5_of_ne m ρ c main_arg2 (by decide)).trans <| (W4_keep m ρ c main_arg2 (by decide)).trans <| (W3_of_ne m ρ c main_arg2 (by decide)).trans <|
    (W2_of_ne m ρ c main_arg2 (by decide)).trans <| (W1_keep m ρ c main_arg2 (by decide)).trans rfl
theorem W5_main_arg3 (c : Dev nD) : W5 m ρ c (Proc.devRef .tc main_arg3) = m ((c : Thread nD τ).loc main_arg3) :=
  (W5_of_ne m ρ c main_arg3 (by decide)).trans <| (W4_keep m ρ c main_arg3 (by decide)).trans <| (W3_of_ne m ρ c main_arg3 (by decide)).trans <|
    (W2_of_ne m ρ c main_arg3 (by decide)).trans <| (W1_keep m ρ c main_arg3 (by decide)).trans rfl
theorem W5_main_arg4 (c : Dev nD) : W5 m ρ c (Proc.devRef .tc main_arg4) = m ((c : Thread nD τ).loc main_arg4) :=
  (W5_of_ne m ρ c main_arg4 (by decide)).trans <| (W4_keep m ρ c main_arg4 (by decide)).trans <| (W3_of_ne m ρ c main_arg4 (by decide)).trans <|
    (W2_of_ne m ρ c main_arg4 (by decide)).trans <| (W1_keep m ρ c main_arg4 (by decide)).trans rfl
theorem W5_main_arg5 (c : Dev nD) : W5 m ρ c (Proc.devRef .tc main_arg5) = m ((c : Thread nD τ).loc main_arg5) :=
  (W5_of_ne m ρ c main_arg5 (by decide)).trans <| (W4_keep m ρ c main_arg5 (by decide)).trans <| (W3_of_ne m ρ c main_arg5 (by decide)).trans <|
    (W2_of_ne m ρ c main_arg5 (by decide)).trans <| (W1_keep m ρ c main_arg5 (by decide)).trans rfl
theorem W5_main_arg6 (c : Dev nD) : W5 m ρ c (Proc.devRef .tc main_arg6) = m ((c : Thread nD τ).loc main_arg6) :=
  (W5_of_ne m ρ c main_arg6 (by decide)).trans <| (W4_keep m ρ c main_arg6 (by decide)).trans <| (W3_of_ne m ρ c main_arg6 (by decide)).trans <|
    (W2_of_ne m ρ c main_arg6 (by decide)).trans <| (W1_keep m ρ c main_arg6 (by decide)).trans rfl
theorem W5_main_arg7 (c : Dev nD) : W5 m ρ c (Proc.devRef .tc main_arg7) = m ((c : Thread nD τ).loc main_arg7) :=
  (W5_of_ne m ρ c main_arg7 (by decide)).trans <| (W4_keep m ρ c main_arg7 (by decide)).trans <| (W3_of_ne m ρ c main_arg7 (by decide)).trans <|
    (W2_of_ne m ρ c main_arg7 (by decide)).trans <| (W1_keep m ρ c main_arg7 (by decide)).trans rfl
theorem W5_main_arg9 (c : Dev nD) : W5 m ρ c (Proc.devRef .tc main_arg9) = m ((c : Thread nD τ).loc main_arg9) :=
  (W5_of_ne m ρ c main_arg9 (by decide)).trans <| (W4_keep m ρ c main_arg9 (by decide)).trans <| (W3_of_ne m ρ c main_arg9 (by decide)).trans <|
    (W2_of_ne m ρ c main_arg9 (by decide)).trans <| (W1_keep m ρ c main_arg9 (by decide)).trans rfl
theorem W5_main_arg11 (c : Dev nD) : W5 m ρ c (Proc.devRef .tc main_arg11) = m ((c : Thread nD τ).loc main_arg11) :=
  (W5_of_ne m ρ c main_arg11 (by decide)).trans <| (W4_keep m ρ c main_arg11 (by decide)).trans <| (W3_of_ne m ρ c main_arg11 (by decide)).trans <|
    (W2_of_ne m ρ c main_arg11 (by decide)).trans <| (W1_keep m ρ c main_arg11 (by decide)).trans rfl
theorem W5_main_arg8 (c : Dev nD) : W5 m ρ c (Proc.devRef .tc main_arg8) = m ((c : Thread nD τ).loc main_arg8) :=
  (W5_in m ρ c 3 rfl).trans <| (W4_keep m ρ c main_arg8 (by decide)).trans <| (W3_of_ne m ρ c main_arg8 (by decide)).trans <|
    (W2_of_ne m ρ c main_arg8 (by decide)).trans <| (W1_keep m ρ c main_arg8 (by decide)).trans rfl
theorem W5_main_arg10 (c : Dev nD) : W5 m ρ c (Proc.devRef .tc main_arg10) = m ((c : Thread nD τ).loc main_arg10) :=
  (W5_in m ρ c 5 rfl).trans <| (W4_keep m ρ c main_arg10 (by decide)).trans <| (W3_of_ne m ρ c main_arg10 (by decide)).trans <|
    (W2_of_ne m ρ c main_arg10 (by decide)).trans <| (W1_keep m ρ c main_arg10 (by decide)).trans rfl
theorem W5_main_arg12 (c : Dev nD) : W5 m ρ c (Proc.devRef .tc main_arg12) = m ((c : Thread nD τ).loc main_arg12) :=
  (W5_in m ρ c 7 rfl).trans <| (W4_keep m ρ c main_arg12 (by decide)).trans <| (W3_of_ne m ρ c main_arg12 (by decide)).trans <|
    (W2_of_ne m ρ c main_arg12 (by decide)).trans <| (W1_keep m ρ c main_arg12 (by decide)).trans rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)
/-- A stretch of host operations as a segment over the buffers that outlive the regions. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every buffer that outlives the regions at the last boundary's contents. -/
abbrev Tₙ (c : Dev nD) : sProp 𝕄 := iprop(StableHlo.held (c : Thread nD τ) (Pipeline.ucRefs τ sig) (W5 m ρ c) ∗ ∃ r, prngReg c r)

/-! ## The regions as segments -/

-- a library lemma stated over the pinned configuration unifies with the printed one only when unification may unfold
-- plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- Every weakly fair execution of the program from memory `m` terminates, nothing faulting, and every final state has
    each buffer that outlives the regions at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c),
    (h c _ (mem_uc main_arg12 (by decide))).trans (W5_main_arg12 m ρ c)⟩) (run_all m ρ)

end Cert.KernelIdeal.Hand

end
-- ==== Proof.Spec.lean ====
/-
  One row of a single-head attention block followed by a two-layer perceptron, on the extended reals.

  Every stage acts on ONE query row: its projection, its scores against all key rows, the softmax weights of those
  scores, the weighted mix of the value rows, the output projection with a residual, and the perceptron with a second
  residual. Only the key and value projections are whole matrices. Matrices are functions of two coordinates.

  The softmax is written twice: dividing each exponential by the row's sum and then mixing the value rows
  (`weight`, `mix`), and multiplying by the reciprocal of the sum, for the mix after the product with the value rows
  (`weightK`, `mixK`). The two agree when the sum is a positive real number (Proof/Softmax.lean).
-/
import Idealize.ShloMosaic.PureOps.Ideal

noncomputable section

namespace Cert.Spec

open Idealize.ShloMosaic

/-- A row times a matrix plus a bias: entry `j` of `xr · W + b`. -/
def lin {K C : Nat} (xr : Fin K → EReal) (W : Fin K → Fin C → EReal) (b : Fin C → EReal) (j : Fin C) : EReal :=
  (∑ k : Fin K, xr k * W k j) + b j

/-- The scale of the scores: the single-precision number nearest to one over the square root of 512. -/
def scale : EReal := Ideal.ofBits .f32 0x3D3504F3#32

/-- The scaled score of a query row against key row `j`. -/
def score (q : Fin 512 → EReal) (Km : Fin 4096 → Fin 512 → EReal) (j : Fin 4096) : EReal :=
  (∑ d : Fin 512, q d * Km j d) * scale

/-- The largest score of a row. -/
def rowMax (s : Fin 4096 → EReal) : EReal := (Finset.univ : Finset (Fin 4096)).fold max ⊥ s

/-- The exponential of a score less the row's largest. -/
def expo (s : Fin 4096 → EReal) (j : Fin 4096) : EReal := Ideal.exp (s j - rowMax s)

/-- The sum of a row's exponentials. -/
def denom (s : Fin 4096 → EReal) : EReal := ∑ j : Fin 4096, expo s j

/-- A softmax weight: the exponential divided by the row's sum. -/
def weight (s : Fin 4096 → EReal) (j : Fin 4096) : EReal := Ideal.div (expo s j) (denom s)

/-- The same weight as the exponential times the reciprocal of the row's sum. -/
def weightK (s : Fin 4096 → EReal) (j : Fin 4096) : EReal := expo s j * Ideal.div 1 (denom s)

/-- The value rows mixed by the softmax weights. -/
def mix (s : Fin 4096 → EReal) (Vm : Fin 4096 → Fin 512 → EReal) (d : Fin 512) : EReal :=
  ∑ j : Fin 4096, weight s j * Vm j d

/-- The value rows mixed by the exponentials, the reciprocal of the row's sum applied to the mix. -/
def mixK (s : Fin 4096 → EReal) (Vm : Fin 4096 → Fin 512 → EReal) (d : Fin 512) : EReal :=
  (∑ j : Fin 4096, expo s j * Vm j d) * Ideal.div 1 (denom s)

/-- The output projection of a mixed row, with its bias and the input row added. -/
def res1 (o : Fin 512 → EReal) (Wo : Fin 512 → Fin 1024 → EReal) (bo : Fin 1024 → EReal) (xr : Fin 1024 → EReal)
    (n : Fin 1024) : EReal :=
  ((∑ d : Fin 512, o d * Wo d n) + bo n) + xr n

/-- The perceptron's hidden row: the positive part of `r · W1 + b1`. -/
def hidden (r : Fin 1024 → EReal) (W1 : Fin 1024 → Fin 4096 → EReal) (b1 : Fin 4096 → EReal) (f : Fin 4096) : EReal :=
  max ((∑ n : Fin 1024, r n * W1 n f) + b1 f) 0

/-- The perceptron's output row with the residual: `h · W2 + b2 + r`. -/
def outRow (r : Fin 1024 → EReal) (h : Fin 4096 → EReal) (W2 : Fin 4096 → Fin 1024 → EReal) (b2 : Fin 1024 → EReal)
    (n : Fin 1024) : EReal :=
  ((∑ f : Fin 4096, h f * W2 f n) + b2 n) + r n

/-- The block's last two stages on a mixed row `o` of input row `xr`. -/
def tail (o : Fin 512 → EReal) (xr : Fin 1024 → EReal) (Wo : Fin 512 → Fin 1024 → EReal) (bo : Fin 1024 → EReal)
    (W1 : Fin 1024 → Fin 4096 → EReal) (b1 : Fin 4096 → EReal) (W2 : Fin 4096 → Fin 1024 → EReal) (b2 : Fin 1024 → EReal)
    (n : Fin 1024) : EReal :=
  outRow (res1 o Wo bo xr) (hidden (res1 o Wo bo xr) W1 b1) W2 b2 n

/-- A projection of every input row: row `j` of `x · W + b`. -/
def proj (x : Fin 4096 → Fin 1024 → EReal) (W : Fin 1024 → Fin 512 → EReal) (b : Fin 512 → EReal)
    (j : Fin 4096) (d : Fin 512) : EReal := lin (x j) W b d

/-- The scores of input row `i` against every key row. -/
def scores (x : Fin 4096 → Fin 1024 → EReal) (Wq : Fin 1024 → Fin 512 → EReal) (bq : Fin 512 → EReal)
    (Wk : Fin 1024 → Fin 512 → EReal) (bk : Fin 512 → EReal) (i : Fin 4096) : Fin 4096 → EReal :=
  score (proj x Wq bq i) (proj x Wk bk)

end Cert.Spec

end
-- ==== Proof.LibPlainDot.lean ====
/-
  A plain matrix product — M×K by K×N, the left operand contracted on its columns and the right on its rows, no batch
  axis (`DotDims.plain M K N`) — read at an index at the ideal values, for any extents.

  * `plain_lhsIdx` / `plain_rhsIdx`: at result index (r, c) and contraction coordinate k the operand indices are
    (r, k) and (k, c).
  * `dotGeneral_plain_apply`: the host's product at (r, c) is the sum over k of left (r, k) times right (k, c).
  * `matmul_plain_zero_apply`: the vector unit's product into a zero accumulator is the same sum.
  * `matmul_plain_zero_eq_dotGeneral`: a product of a block of rows (of any two formats) at a block index is the
    product of whole arrays (of any two formats, under any precision and schedule key) at an array index, as soon as the
    block's row is the array's row and the right operands' columns agree: no rounding is left at the ideal values, so
    the tiling of the rows and the operand formats do not matter.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The left operand's index of a plain product at result index `j` and contraction coordinate `k` is (row of `j`, `k`). -/
theorem plain_lhsIdx (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ (0 : Fin (⟨2, ![M, K]⟩ : Shape).rank)).val = (j 0).val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ => exact ((DotDims.plain M K N).lhsIdx_val_of_single rfl j _).trans hk

/-- The right operand's index of a plain product at result index `j` and contraction coordinate `k` is (`k`, column of `j`). -/
theorem plain_rhsIdx (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ (1 : Fin (⟨2, ![K, N]⟩ : Shape).rank)).val = (j 1).val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The host's plain product at the ideal values, at (r, c): the sum over k of left (r, k) times right (k, c). -/
theorem dotGeneral_plain_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) := by
  rw [Ideal.dotGeneral_apply, ← Equiv.sum_comp (contrEquiv1 (DotDims.plain M K N) K rfl rfl).symm]
  refine Finset.sum_congr rfl fun k _ => ?_
  rw [plain_lhsIdx, plain_rhsIdx]
  rfl

/-- The vector unit's plain product into a zero accumulator, at the ideal values, at (r, c): the same sum. -/
theorem matmul_plain_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

/-- A block of B rows times a right operand, into zero, read at block index `y`, is the whole M-row product read at array
    index `i`, when the block's row at `y` is the array's row at `i` and the right operands agree on the column. -/
theorem matmul_plain_zero_eq_dotGeneral {B : Nat} {φ₁ φ₂ ψ₁ ψ₂ : FTy} (prec prec' : Option ContractPrecision)
    (sched : HostSchedule)
    (lb : FVec Ideal ⟨2, ![B, K]⟩ φ₁) (rb : FVec Ideal ⟨2, ![K, N]⟩ φ₂)
    (l : FVec Ideal ⟨2, ![M, K]⟩ ψ₁) (r : FVec Ideal ⟨2, ![K, N]⟩ ψ₂)
    (y : (⟨2, ![B, N]⟩ : Shape).Idx) (i : (⟨2, ![M, N]⟩ : Shape).Idx)
    (hrow : ∀ k : Fin K, (lb (ix2 (y 0) k) : EReal) = l (ix2 (i 0) k))
    (hcol : ∀ k : Fin K, (rb (ix2 k (y 1)) : EReal) = r (ix2 k (i 1))) :
    (FloatOps.matmul (DotDims.plain B K N) prec lb rb (constant ⟨2, ![B, N]⟩ .f32 0x00000000#32) y : EReal)
      = FloatOps.dotGeneral (DotDims.plain M K N) prec' sched l r i := by
  rw [matmul_plain_zero_apply, dotGeneral_plain_apply]
  exact Finset.sum_congr rfl fun k _ => by rw [hrow k, hcol k]

end Cert.LibPlainDot

end
-- ==== Proof.LibRowBias.lean ====
/-
  A vector read as a row and repeated down the rows, for any element type and any extents R, C, read at (r, k):
  * `hostRow_apply`: the host's two steps — a length-C vector given a leading unit axis ([C] → [1, C], its axis sent to
    axis 1) and that row broadcast to [R, C] — read at (r, k) the vector's entry k;
  * `vectorRow_apply`: the vector unit's two steps — the vector cast to [1, C] and broadcast to [R, C] — read the same;
  * `hostSplat_apply`: a scalar broadcast to any shape reads the scalar everywhere.
-/
import Idealize.ShloMosaic.Lib.Pipeline.Value
import Idealize.ShloMosaic.Lib.ValueIdx
import Idealize.ShloMosaic.Lib.ValueLayout

noncomputable section

namespace Cert.LibRowBias

open Idealize.ShloMosaic Idealize.ShloMosaic.ValueIdx

variable {α : Type} {R C : Nat}

/-- A length-C vector given a leading unit axis on the host reads, at (u, k), its entry k. -/
theorem hostUnitRow_apply (h1 : (⟨1, ![C]⟩ : Shape).BroadcastsInDim ⟨2, ![1, C]⟩ (![1] : Fin 1 → Fin 2))
    (b : (⟨1, ![C]⟩ : Shape).Idx → α) (u : Fin 1) (k : Fin C) :
    broadcastInDim ⟨2, ![1, C]⟩ (![1] : Fin 1 → Fin 2) h1 b (ix2 u k) = b (ix1 k) := by
  refine broadcastInDim_apply _ h1 b (ix2 u k) (ix1 k) fun a => ?_
  match a with
  | ⟨0, _⟩ =>
    show k.val = if C = 1 then 0 else k.val
    split
    · have := k.isLt; omega
    · rfl

/-- That row broadcast to R rows reads, at (r, k), the row's entry (0, k). -/
theorem hostRows_apply (h2 : (⟨2, ![1, C]⟩ : Shape).BroadcastsInDim ⟨2, ![R, C]⟩ (![0, 1] : Fin 2 → Fin 2))
    (v : (⟨2, ![1, C]⟩ : Shape).Idx → α) (r : Fin R) (k : Fin C) :
    broadcastInDim ⟨2, ![R, C]⟩ (![0, 1] : Fin 2 → Fin 2) h2 v (ix2 r k) = v (ix2 (0 : Fin 1) k) := by
  refine broadcastInDim_apply _ h2 v (ix2 r k) (ix2 (0 : Fin 1) k) fun a => ?_
  match a with
  | ⟨0, _⟩ => rfl
  | ⟨1, _⟩ =>
    show k.val = if C = 1 then 0 else k.val
    split
    · have := k.isLt; omega
    · rfl

/-- The host's row of a vector, repeated down R rows, reads at (r, k) the vector's entry k. -/
theorem hostRow_apply (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2))
    (b : (⟨1, ![C]⟩ : Shape).Idx → α) (r : Fin R) (k : Fin C) :
    broadcastInDim ⟨2, ![R, C]⟩ (![0, 1] : Fin 2 → Fin 2) h2 (broadcastInDim ⟨2, ![1, C]⟩ (![1] : Fin 1 → Fin 2) h1 b) (ix2 r k)
      = b (ix1 k) :=
  (hostRows_apply h2 _ r k).trans (hostUnitRow_apply h1 b 0 k)

/-- The vector unit's row of a vector, repeated down R rows, reads at (r, k) the vector's entry k. -/
theorem vectorRow_apply (h1 : (⟨1, ![C]⟩ : Shape).ShapeCasts ⟨2, ![1, C]⟩)
    (h2 : (⟨2, ![1, C]⟩ : Shape).Broadcasts ⟨2, ![R, C]⟩)
    (b : (⟨1, ![C]⟩ : Shape).Idx → α) (r : Fin R) (k : Fin C) :
    broadcastTo ⟨2, ![R, C]⟩ (shapeCast ⟨2, ![1, C]⟩ b h1) h2 (ix2 r k) = b (ix1 k) :=
  (broadcastTo_1b_ab_apply _ h2 r k).trans (shapeCast_a_1a_apply b h1 0 k)

/-- A scalar broadcast on the host to any shape reads the scalar at every index. -/
theorem hostSplat_apply {s : Shape} (h : (⟨0, ![]⟩ : Shape).BroadcastsInDim s (![] : Fin 0 → Fin s.rank))
    (v : (⟨0, ![]⟩ : Shape).Idx → α) (j : s.Idx) :
    broadcastInDim s (![] : Fin 0 → Fin s.rank) h v j = v ix0 :=
  broadcastInDim_apply _ h v j ix0 fun a => a.elim0

end Cert.LibRowBias

end
-- ==== Proof.PayProj.lean ====
/-
  The fused projection's arithmetic read at an index, at the ideal values.

  The kernel body forms one biased product, x · W + b with W of 1536 columns, and cuts it into three blocks of 512
  columns. At the ideal values every change of format is the identity, the product into a zero accumulator is the plain
  sum over the contracted coordinate, and the bias repeated down the rows reads its own entry; so entry (p, c) of the
  biased product is the sum over k of x (p, k) · W (k, c), plus b (c), and entry (p, q) of the block cut at column
  offset o is the row function `Spec.lin` of row p of x against the columns o + j of W and the entries o + j of b.
-/
import proofs.«164798_j81956565942714_2_alg».proof.Proof.Gen.KernelIdeal.Skeleton
import proofs.«164798_j81956565942714_2_alg».proof.Proof.Spec
import proofs.«164798_j81956565942714_2_alg».proof.Proof.LibPlainDot
import proofs.«164798_j81956565942714_2_alg».proof.Proof.LibRowBias

noncomputable section

namespace Cert.KernelIdeal.Pay

open Cert.KernelIdeal Cert.KernelIdeal.Gen Idealize.ShloMosaic Idealize.ShloMosaic.ValueIdx

/-- Entry (p, c) of the biased product: the sum over k of x (p, k) · W (k, c), plus b (c). -/
theorem pay1_apply (x0 : Vec Ideal S1024x1024 .f32) (w : Vec Ideal S1024x1536 .bf16) (b : Vec Ideal S1536 .f32)
    (p : Fin 1024) (c : Fin 1536) :
    k0_pay1 (F := Ideal) x0 w b (ix2 p c) = (∑ k : Fin 1024, x0 (ix2 p k) * w (ix2 k c)) + b (ix1 c) := by
  have hw : shapeCast S1024x1536 w shapeCasts_S1024x1536_S1024x1536 = w := shapeCast_self w _
  have hb : shapeCast S1536 b shapeCasts_S1536_S1536 = b := shapeCast_self b _
  unfold k0_pay1
  refine (addf_apply _ _ _).trans ?_
  rw [hw, hb]
  refine congrArg₂ (· + ·) ?_ ?_
  · exact Cert.LibPlainDot.matmul_plain_zero_apply none (truncf FTy.bf16 x0 bitsLt_bf16_f32) w (ix2 p c)
  · exact Cert.LibRowBias.vectorRow_apply shapeCasts_S1536_S1x1536 broadcasts_S1x1536_S1024x1536 b p c

/-- The first block of 512 columns (the queries): row p of x against columns j of W and entries j of b. -/
theorem pay_q (x0 : Vec Ideal S1024x1024 .f32) (w : Vec Ideal S1024x1536 .bf16) (b : Vec Ideal S1536 .f32)
    (p : Fin 1024) (q : Fin 512) :
    k0_pay2 (F := Ideal) x0 w b (ix2 p q)
      = Spec.lin (fun k : Fin 1024 => x0 (ix2 p k))
          (fun (k : Fin 1024) (j : Fin 512) => w (ix2 k (⟨j.val, by omega⟩ : Fin 1536)))
          (fun j : Fin 512 => b (ix1 (⟨j.val, by omega⟩ : Fin 1536))) q := by
  unfold k0_pay2
  show extractStridedSlice S1024x512 ![0, 0] (k0_pay1 (F := Ideal) x0 w b) slices_S1024x1536_o0_0_S1024x512 (ix2 p q) = _
  refine (slice2_axis1_apply 0 (k0_pay1 x0 w b) slices_S1024x1536_o0_0_S1024x512 p q
    (⟨q.val, by omega⟩ : Fin 1536) (Nat.zero_add _).symm).trans ?_
  exact pay1_apply x0 w b p _

/-- The second block of 512 columns (the keys): row p of x against columns j + 512 of W and entries j + 512 of b. -/
theorem pay_k (x0 : Vec Ideal S1024x1024 .f32) (w : Vec Ideal S1024x1536 .bf16) (b : Vec Ideal S1536 .f32)
    (p : Fin 1024) (q : Fin 512) :
    k0_pay3 (F := Ideal) x0 w b (ix2 p q)
      = Spec.lin (fun k : Fin 1024 => x0 (ix2 p k))
          (fun (k : Fin 1024) (j : Fin 512) => w (ix2 k (⟨j.val + 512, by omega⟩ : Fin 1536)))
          (fun j : Fin 512 => b (ix1 (⟨j.val + 512, by omega⟩ : Fin 1536))) q := by
  unfold k0_pay3
  show extractStridedSlice S1024x512 ![0, 512] (k0_pay1 (F := Ideal) x0 w b) slices_S1024x1536_o0_512_S1024x512 (ix2 p q) = _
  refine (slice2_axis1_apply 512 (k0_pay1 x0 w b) slices_S1024x1536_o0_512_S1024x512 p q
    (⟨q.val + 512, by omega⟩ : Fin 1536) (Nat.add_comm _ _)).trans ?_
  exact pay1_apply x0 w b p _

/-- The third block of 512 columns (the values): row p of x against columns j + 1024 of W and entries j + 1024 of b. -/
theorem pay_v (x0 : Vec Ideal S1024x1024 .f32) (w : Vec Ideal S1024x1536 .bf16) (b : Vec Ideal S1536 .f32)
    (p : Fin 1024) (q : Fin 512) :
    k0_pay4 (F := Ideal) x0 w b (ix2 p q)
      = Spec.lin (fun k : Fin 1024 => x0 (ix2 p k))
          (fun (k : Fin 1024) (j : Fin 512) => w (ix2 k (⟨j.val + 1024, by omega⟩ : Fin 1536)))
          (fun j : Fin 512 => b (ix1 (⟨j.val + 1024, by omega⟩ : Fin 1536))) q := by
  unfold k0_pay4
  show extractStridedSlice S1024x512 ![0, 1024] (k0_pay1 (F := Ideal) x0 w b) slices_S1024x1536_o0_1024_S1024x512 (ix2 p q) = _
  refine (slice2_axis1_apply 1024 (k0_pay1 x0 w b) slices_S1024x1536_o0_1024_S1024x512 p q
    (⟨q.val + 1024, by omega⟩ : Fin 1536) (Nat.add_comm _ _)).trans ?_
  exact pay1_apply x0 w b p _

end Cert.KernelIdeal.Pay

end
-- ==== Proof.Value0.lean ====
/-
  What the projection region leaves: the query, key and value arrays as whole-array functions of the contents the
  region is entered with.

  Grid point `t` holds input rows 1024·t … 1024·t + 1023; the matrix of the three projections and the biases are whole
  at every point. Row `p` of what the point writes back into the query array is the first 512 entries of
  (input row 1024·t + p) · W + b, so entry (i, d) of the array after the run is row i of the input against column d
  of the first third — a projection row of the specification; the key and value arrays read the second and last thirds.
-/
import proofs.«164798_j81956565942714_2_alg».proof.Proof.Reg0Ideal
import proofs.«164798_j81956565942714_2_alg».proof.Proof.PayProj
import proofs.«164798_j81956565942714_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the buffer contents when the region is entered, at the ideal values
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the four grid points: the input rows and the three outputs move with the point, the
    matrix and the biases stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem row0_lt (t : Fin cfg0.N) (p : Fin 1024) : 1024 * t.val + p.val < 4096 := by
  have hN : (cfg0.N : Nat) = 4 := N_0
  have := t.isLt; have := p.isLt; omega

/-- Row `p` of the input block at point `t` is input row 1024·t + p. -/
theorem blk0_x (c : Dev nD) (t : Fin cfg0.N) (p : Fin 1024) (k : Fin 1024) :
    (iblk0 V c 0 t : S1024x1024.Idx → EReal) (ix2 p k) = V c main_arg0 (ix2 (⟨1024 * t.val + p.val, row0_lt t p⟩ : Fin 4096) k) := by
  unfold iblk0
  show V c main_arg0 (((cfg0.win 0).blk t).view.emb (ix2 p k)) = _
  refine congrArg (V c main_arg0) ?_
  obtain ⟨e0, e1, -⟩ := idx_facts0 t
  funext a; apply Fin.ext
  match a with
  | ⟨0, _⟩ => show win0_0.index t (0 : Fin 2) * 1024 + 1 * p.val = 1024 * t.val + p.val; omega
  | ⟨1, _⟩ => show win0_0.index t (1 : Fin 2) * 1024 + 1 * k.val = k.val; omega

/-- The matrix block at any point is the whole matrix. -/
theorem blk0_w (c : Dev nD) (t : Fin cfg0.N) (k : Fin 1024) (j : Fin 1536) :
    (iblk0 V c 1 t : S1024x1536.Idx → EReal) (ix2 k j) = V c main_v1 (ix2 k j) := by
  unfold iblk0
  show V c main_v1 (((cfg0.win 1).blk t).view.emb (ix2 k j)) = _
  refine congrArg (V c main_v1) ?_
  obtain ⟨-, -, e2, e3, -⟩ := idx_facts0 t
  funext a; apply Fin.ext
  match a with
  | ⟨0, _⟩ => show win0_1.index t (0 : Fin 2) * 1024 + 1 * k.val = k.val; omega
  | ⟨1, _⟩ => show win0_1.index t (1 : Fin 2) * 1536 + 1 * j.val = j.val; omega

/-- The bias block at any point is the whole bias vector. -/
theorem blk0_b (c : Dev nD) (t : Fin cfg0.N) (j : Fin 1536) :
    (iblk0 V c 2 t : S1536.Idx → EReal) (ix1 j) = V c main_v2 (ix1 j) := by
  unfold iblk0
  show V c main_v2 (((cfg0.win 2).blk t).view.emb (ix1 j)) = _
  refine congrArg (V c main_v2) ?_
  obtain ⟨-, -, -, -, e4, -⟩ := idx_facts0 t
  funext a; apply Fin.ext
  match a with
  | ⟨0, _⟩ => show win0_2.index t (0 : Fin 1) * 1536 + 1 * j.val = j.val; omega

/-- Entry (i, d) of a projection: input row `i` against column `d + off` of the side-by-side matrix, plus bias `d + off`. -/
def projAt (c : Dev nD) (off : Nat) (hoff : off + 512 ≤ 1536) (i : Fin 4096) (d : Fin 512) : EReal :=
  Spec.lin (fun k : Fin 1024 => V c main_arg0 (ix2 i k))
    (fun (k : Fin 1024) (j : Fin 512) => V c main_v1 (ix2 k (⟨j.val + off, by have := j.isLt; omega⟩ : Fin 1536)))
    (fun j : Fin 512 => V c main_v2 (ix1 (⟨j.val + off, by have := j.isLt; omega⟩ : Fin 1536))) d

/-- A projection as an array. -/
def projArr (c : Dev nD) (off : Nat) (hoff : off + 512 ≤ 1536) : S4096x512.Idx → EReal :=
  fun i => projAt V c off hoff ⟨(i 0).val, idx2_lt0 i⟩ ⟨(i 1).val, idx2_lt1 i⟩

theorem projArr_apply (c : Dev nD) (off : Nat) (hoff : off + 512 ≤ 1536) (i : Fin 4096) (d : Fin 512) :
    projArr V c off hoff (ix2 i d) = projAt V c off hoff i d := rfl

/-- Where an entry of the query block sits in its array: row 1024·t + p, the same column. -/
theorem emb0_3 (t : Fin cfg0.N) (p : Fin 1024) (q : Fin 512) :
    ((cfg0.win 3).blk t).view.emb (ix2 p q) = ix2 (⟨1024 * t.val + p.val, row0_lt t p⟩ : Fin 4096) q := by
  have hf := idx_facts0 t
  have e5 : win0_3.index t (0 : Fin 2) = t.val := by simp only [hf]
  have e6 : win0_3.index t (1 : Fin 2) = 0 := by simp only [hf]
  funext a; apply Fin.ext
  match a with
  | ⟨0, _⟩ => show win0_3.index t (0 : Fin 2) * 1024 + 1 * p.val = 1024 * t.val + p.val; omega
  | ⟨1, _⟩ => show win0_3.index t (1 : Fin 2) * 512 + 1 * q.val = q.val; omega

/-- What point `t` writes back into the query array is block `t` of the projection through columns 0 … 511. -/
theorem flushed0_q (c : Dev nD) (t : Fin cfg0.N) :
    (dat0 V c).flushed 3 t = ((cfg0.win 3).blk t).view.read (Elt Ideal) (projArr V c 0 (by omega)) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S1024x1536) hz2, View.ld_unit_zero (S := S1536) hz1]
  funext y
  obtain ⟨p, q, rfl⟩ : ∃ (p : Fin 1024) (q : Fin 512), y = ix2 p q := ⟨y 0, y 1, eq_ix2 y⟩
  show k0_pay2 (F := Ideal) (iblk0 V c 0 t) (iblk0 V c 1 t) (iblk0 V c 2 t) (ix2 p q)
    = projArr V c 0 (by omega) (((cfg0.win 3).blk t).view.emb (ix2 p q))
  refine (Pay.pay_q (iblk0 V c 0 t) (iblk0 V c 1 t) (iblk0 V c 2 t) p q).trans ?_
  rw [emb0_3, projArr_apply]
  unfold projAt
  have h1 : (fun k : Fin 1024 => (iblk0 V c 0 t : S1024x1024.Idx → EReal) (ix2 p k))
      = fun k : Fin 1024 => V c main_arg0 (ix2 (⟨1024 * t.val + p.val, row0_lt t p⟩ : Fin 4096) k) := funext fun k => blk0_x V c t p k
  have h2 : (fun (k : Fin 1024) (j : Fin 512) => (iblk0 V c 1 t : S1024x1536.Idx → EReal) (ix2 k (⟨j.val, by have := j.isLt; omega⟩ : Fin 1536)))
      = fun (k : Fin 1024) (j : Fin 512) => V c main_v1 (ix2 k (⟨j.val + 0, by have := j.isLt; omega⟩ : Fin 1536)) :=
    funext fun k => funext fun j => blk0_w V c t k _
  have h3 : (fun j : Fin 512 => (iblk0 V c 2 t : S1536.Idx → EReal) (ix1 (⟨j.val, by have := j.isLt; omega⟩ : Fin 1536)))
      = fun j : Fin 512 => V c main_v2 (ix1 (⟨j.val + 0, by have := j.isLt; omega⟩ : Fin 1536)) :=
    funext fun j => blk0_b V c t _
  rw [h1, h2, h3]

/-- An index of the query array is in point `t`'s block iff each coordinate is in the block's range on its axis. -/
theorem mem_blk0_3 (t : Fin cfg0.N) (i : S4096x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v3_0).slice (win0_3.rect t)).set ↔ _
  rw [View.set_slice_whole, Rect.mem_set_unit]
  exact Iff.rfl

/-- Every entry of the query array is in the block of the point its row falls in. -/
theorem covered0_3 (i : S4096x512.Idx) : ∃ t : Fin cfg0.N, (cfg0.win 3).flush t = true ∧ i ∈ ((cfg0.win 3).blk t).view.set := by
  have hi0 : (i 0).val < 4096 := idx2_lt0 i
  have hi1 : (i 1).val < 512 := idx2_lt1 i
  have hN : (cfg0.N : Nat) = 4 := N_0
  have ht : (i 0).val / 1024 < cfg0.N := by omega
  have hf := idx_facts0 ⟨(i 0).val / 1024, ht⟩
  have e5 : win0_3.index ⟨(i 0).val / 1024, ht⟩ (0 : Fin 2) = (i 0).val / 1024 := by simp only [hf]
  have e6 : win0_3.index ⟨(i 0).val / 1024, ht⟩ (1 : Fin 2) = 0 := by simp only [hf]
  refine ⟨⟨(i 0).val / 1024, ht⟩, flush0_3 _, ?_⟩
  rw [mem_blk0_3]
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    omega
  | ⟨1, _⟩ =>
    show win0_3.index ⟨(i 0).val / 1024, ht⟩ (1 : Fin 2) * 512 ≤ (i 1).val ∧ (i 1).val < win0_3.index ⟨(i 0).val / 1024, ht⟩ (1 : Fin 2) * 512 + 512
    omega

/-- The query array after the region: the projection through columns 0 … 511, entry by entry. -/
theorem final0_q (c : Dev nD) : (dat0 V c).arrAt 3 cfg0.N = projArr V c 0 (by omega) :=
  (dat0 V c).arrAt_eq_of_cover 3 (projArr V c 0 (by omega)) (fun t _ => flushed0_q V c t) (covered0_3)

/-- Where an entry of the key block sits in its array: row 1024·t + p, the same column. -/
theorem emb0_4 (t : Fin cfg0.N) (p : Fin 1024) (q : Fin 512) :
    ((cfg0.win 4).blk t).view.emb (ix2 p q) = ix2 (⟨1024 * t.val + p.val, row0_lt t p⟩ : Fin 4096) q := by
  have hf := idx_facts0 t
  have e5 : win0_4.index t (0 : Fin 2) = t.val := by simp only [hf]
  have e6 : win0_4.index t (1 : Fin 2) = 0 := by simp only [hf]
  funext a; apply Fin.ext
  match a with
  | ⟨0, _⟩ => show win0_4.index t (0 : Fin 2) * 1024 + 1 * p.val = 1024 * t.val + p.val; omega
  | ⟨1, _⟩ => show win0_4.index t (1 : Fin 2) * 512 + 1 * q.val = q.val; omega

/-- What point `t` writes back into the key array is block `t` of the projection through columns 512 … 1023. -/
theorem flushed0_k (c : Dev nD) (t : Fin cfg0.N) :
    (dat0 V c).flushed 4 t = ((cfg0.win 4).blk t).view.read (Elt Ideal) (projArr V c 512 (by omega)) := by
  show (cfg0.win 4).cut (grid0.coords t) ((dat0 V c).after 4 t) = _
  rw [after0_4]
  unfold out0_4
  rw [View.canon_unit_zero hz2]
  simp only [View.ld_unit_zero (S := S1024x1024) hz2, View.ld_unit_zero (S := S1024x1536) hz2, View.ld_unit_zero (S := S1536) hz1]
  funext y
  obtain ⟨p, q, rfl⟩ : ∃ (p : Fin 1024) (q : Fin 512), y = ix2 p q := ⟨y 0, y 1, eq_ix2 y⟩
  show k0_pay3 (F := Ideal) (iblk0 V c 0 t) (iblk0 V c 1 t) (iblk0 V c 2 t) (ix2 p q)
    = projArr V c 512 (by omega) (((cfg0.win 4).blk t).view.emb (ix2 p q))
  refine (Pay.pay_k (iblk0 V c 0 t) (iblk0 V c 1 t) (iblk0 V c 2 t) p q).trans ?_
  rw [emb0_4, projArr_apply]
  unfold projAt
  have h1 : (fun k : Fin 1024 => (iblk0 V c 0 t : S1024x1024.Idx → EReal) (ix2 p k))
      = fun k : Fin 1024 => V c main_arg0 (ix2 (⟨1024 * t.val + p.val, row0_lt t p⟩ : Fin 4096) k) := funext fun k => blk0_x V c t p k
  have h2 : (fun (k : Fin 1024) (j : Fin 512) => (iblk0 V c 1 t : S1024x1536.Idx → EReal) (ix2 k (⟨j.val + 512, by have := j.isLt; omega⟩ : Fin 1536)))
      = fun (k : Fin 1024) (j : Fin 512) => V c main_v1 (ix2 k (⟨j.val + 512, by have := j.isLt; omega⟩ : Fin 1536)) :=
    funext fun k => funext fun j => blk0_w V c t k _
  have h3 : (fun j : Fin 512 => (iblk0 V c 2 t : S1536.Idx → EReal) (ix1 (⟨j.val + 512, by have := j.isLt; omega⟩ : Fin 1536)))
      = fun j : Fin 512 => V c main_v2 (ix1 (⟨j.val + 512, by have := j.isLt; omega⟩ : Fin 1536)) :=
    funext fun j => blk0_b V c t _
  rw [h1, h2, h3]

/-- An index of the key array is in point `t`'s block iff each coordinate is in the block's range on its axis. -/
theorem mem_blk0_4 (t : Fin cfg0.N) (i : S4096x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v3_1).slice (win0_4.rect t)).set ↔ _
  rw [View.set_slice_whole, Rect.mem_set_unit]
  exact Iff.rfl

/-- Every entry of the key array is in the block of the point its row falls in. -/
theorem covered0_4 (i : S4096x512.Idx) : ∃ t : Fin cfg0.N, (cfg0.win 4).flush t = true ∧ i ∈ ((cfg0.win 4).blk t).view.set := by
  have hi0 : (i 0).val < 4096 := idx2_lt0 i
  have hi1 : (i 1).val < 512 := idx2_lt1 i
  have hN : (cfg0.N : Nat) = 4 := N_0
  have ht : (i 0).val / 1024 < cfg0.N := by omega
  have hf := idx_facts0 ⟨(i 0).val / 1024, ht⟩
  have e5 : win0_4.index ⟨(i 0).val / 1024, ht⟩ (0 : Fin 2) = (i 0).val / 1024 := by simp only [hf]
  have e6 : win0_4.index ⟨(i 0).val / 1024, ht⟩ (1 : Fin 2) = 0 := by simp only [hf]
  refine ⟨⟨(i 0).val / 1024, ht⟩, flush0_4 _, ?_⟩
  rw [mem_blk0_4]
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    omega
  | ⟨1, _⟩ =>
    show win0_4.index ⟨(i 0).val / 1024, ht⟩ (1 : Fin 2) * 512 ≤ (i 1).val ∧ (i 1).val < win0_4.index ⟨(i 0).val / 1024, ht⟩ (1 : Fin 2) * 512 + 512
    omega

/-- The key array after the region: the projection through columns 512 … 1023, entry by entry. -/
theorem final0_k (c : Dev nD) : (dat0 V c).arrAt 4 cfg0.N = projArr V c 512 (by omega) :=
  (dat0 V c).arrAt_eq_of_cover 4 (projArr V c 512 (by omega)) (fun t _ => flushed0_k V c t) (covered0_4)

/-- Where an entry of the value block sits in its array: row 1024·t + p, the same column. -/
theorem emb0_5 (t : Fin cfg0.N) (p : Fin 1024) (q : Fin 512) :
    ((cfg0.win 5).blk t).view.emb (ix2 p q) = ix2 (⟨1024 * t.val + p.val, row0_lt t p⟩ : Fin 4096) q := by
  have hf := idx_facts0 t
  have e5 : win0_5.index t (0 : Fin 2) = t.val := by simp only [hf]
  have e6 : win0_5.index t (1 : Fin 2) = 0 := by simp only [hf]
  funext a; apply Fin.ext
  match a with
  | ⟨0, _⟩ => show win0_5.index t (0 : Fin 2) * 1024 + 1 * p.val = 1024 * t.val + p.val; omega
  | ⟨1, _⟩ => show win0_5.index t (1 : Fin 2) * 512 + 1 * q.val = q.val; omega

/-- What point `t` writes back into the value array is block `t` of the projection through columns 1024 … 1535. -/
theorem flushed0_v (c : Dev nD) (t : Fin cfg0.N) :
    (dat0 V c).flushed 5 t = ((cfg0.win 5).blk t).view.read (Elt Ideal) (projArr V c 1024 (by omega)) := by
  show (cfg0.win 5).cut (grid0.coords t) ((dat0 V c).after 5 t) = _
  rw [after0_5]
  unfold out0_5
  rw [View.canon_unit_zero hz2]
  simp only [View.ld_unit_zero (S := S1024x1024) hz2, View.ld_unit_zero (S := S1024x1536) hz2, View.ld_unit_zero (S := S1536) hz1]
  funext y
  obtain ⟨p, q, rfl⟩ : ∃ (p : Fin 1024) (q : Fin 512), y = ix2 p q := ⟨y 0, y 1, eq_ix2 y⟩
  show k0_pay4 (F := Ideal) (iblk0 V c 0 t) (iblk0 V c 1 t) (iblk0 V c 2 t) (ix2 p q)
    = projArr V c 1024 (by omega) (((cfg0.win 5).blk t).view.emb (ix2 p q))
  refine (Pay.pay_v (iblk0 V c 0 t) (iblk0 V c 1 t) (iblk0 V c 2 t) p q).trans ?_
  rw [emb0_5, projArr_apply]
  unfold projAt
  have h1 : (fun k : Fin 1024 => (iblk0 V c 0 t : S1024x1024.Idx → EReal) (ix2 p k))
      = fun k : Fin 1024 => V c main_arg0 (ix2 (⟨1024 * t.val + p.val, row0_lt t p⟩ : Fin 4096) k) := funext fun k => blk0_x V c t p k
  have h2 : (fun (k : Fin 1024) (j : Fin 512) => (iblk0 V c 1 t : S1024x1536.Idx → EReal) (ix2 k (⟨j.val + 1024, by have := j.isLt; omega⟩ : Fin 1536)))
      = fun (k : Fin 1024) (j : Fin 512) => V c main_v1 (ix2 k (⟨j.val + 1024, by have := j.isLt; omega⟩ : Fin 1536)) :=
    funext fun k => funext fun j => blk0_w V c t k _
  have h3 : (fun j : Fin 512 => (iblk0 V c 2 t : S1536.Idx → EReal) (ix1 (⟨j.val + 1024, by have := j.isLt; omega⟩ : Fin 1536)))
      = fun j : Fin 512 => V c main_v2 (ix1 (⟨j.val + 1024, by have := j.isLt; omega⟩ : Fin 1536)) :=
    funext fun j => blk0_b V c t _
  rw [h1, h2, h3]

/-- An index of the value array is in point `t`'s block iff each coordinate is in the block's range on its axis. -/
theorem mem_blk0_5 (t : Fin cfg0.N) (i : S4096x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v3_2).slice (win0_5.rect t)).set ↔ _
  rw [View.set_slice_whole, Rect.mem_set_unit]
  exact Iff.rfl

/-- Every entry of the value array is in the block of the point its row falls in. -/
theorem covered0_5 (i : S4096x512.Idx) : ∃ t : Fin cfg0.N, (cfg0.win 5).flush t = true ∧ i ∈ ((cfg0.win 5).blk t).view.set := by
  have hi0 : (i 0).val < 4096 := idx2_lt0 i
  have hi1 : (i 1).val < 512 := idx2_lt1 i
  have hN : (cfg0.N : Nat) = 4 := N_0
  have ht : (i 0).val / 1024 < cfg0.N := by omega
  have hf := idx_facts0 ⟨(i 0).val / 1024, ht⟩
  have e5 : win0_5.index ⟨(i 0).val / 1024, ht⟩ (0 : Fin 2) = (i 0).val / 1024 := by simp only [hf]
  have e6 : win0_5.index ⟨(i 0).val / 1024, ht⟩ (1 : Fin 2) = 0 := by simp only [hf]
  refine ⟨⟨(i 0).val / 1024, ht⟩, flush0_5 _, ?_⟩
  rw [mem_blk0_5]
  intro a
  match a with
  | ⟨0, _⟩ =>
    show win0_5.index ⟨(i 0).val / 1024, ht⟩ (0 : Fin 2) * 1024 ≤ (i 0).val ∧ (i 0).val < win0_5.index ⟨(i 0).val / 1024, ht⟩ (0 : Fin 2) * 1024 + 1024
    omega
  | ⟨1, _⟩ =>
    show win0_5.index ⟨(i 0).val / 1024, ht⟩ (1 : Fin 2) * 512 ≤ (i 1).val ∧ (i 1).val < win0_5.index ⟨(i 0).val / 1024, ht⟩ (1 : Fin 2) * 512 + 512
    omega

/-- The value array after the region: the projection through columns 1024 … 1535, entry by entry. -/
theorem final0_v (c : Dev nD) : (dat0 V c).arrAt 5 cfg0.N = projArr V c 1024 (by omega) :=
  (dat0 V c).arrAt_eq_of_cover 5 (projArr V c 1024 (by omega)) (fun t _ => flushed0_v V c t) (covered0_5)

end Cert.KernelIdeal.Hand

end
-- ==== Proof.LibRowReduce.lean ====
/-
  Row reductions of an R × C float array at the ideal instance, read with coordinates.

  A kernel's lane sum and lane maximum over the second axis, and the host's reduce with a maximum body over it, at row
  `r`: the sum over `k` of the entries `(r, k)`, and the maximum of those entries folded from the initial value.
  The f32 pattern of minus infinity is the bottom element of the extended reals.
-/
import Idealize.ShloMosaic.PureOps.Ideal.Laws
import Idealize.ShloMosaic.Lib.ValueIdx

noncomputable section

namespace Cert.LibRowReduce

open Idealize.ShloMosaic Idealize.ShloMosaic.ValueIdx

variable {R C : Nat}

/-- Row `r` with the dropped second coordinate `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- A kernel's sum over the second axis, at row `r`. -/
theorem rowSum_kernel (src : FVec Ideal ⟨2, ![R, C]⟩ .f32) (acc : BitVec 32)
    (h : (⟨2, ![R, C]⟩ : Shape).Reduces [1] (⟨1, ![R]⟩ : Shape)) (hφ : FKind.Formats .f32)
    (hacc : acc = FKind.add.neutral .f32 hφ) (r : Fin R) :
    multiReduction .add [1] ⟨1, ![R]⟩ src acc h hφ hacc (ix1 r) = ∑ k : Fin C, src (ix2 r k) :=
  (Ideal.multiReduction_add_single src acc h hφ hacc (ix1 r)).trans
    (Finset.sum_congr rfl fun k _ => congrArg src (lift_row h r k))

/-- A kernel's maximum over the second axis, at row `r`: folded from the accumulator's value. -/
theorem rowMax_kernel (src : FVec Ideal ⟨2, ![R, C]⟩ .f32) (acc : BitVec 32)
    (h : (⟨2, ![R, C]⟩ : Shape).Reduces [1] (⟨1, ![R]⟩ : Shape)) (hφ : FKind.Formats .f32)
    (hacc : acc = FKind.maximumf.neutral .f32 hφ) (r : Fin R) :
    multiReduction .maximumf [1] ⟨1, ![R]⟩ src acc h hφ hacc (ix1 r)
      = (Finset.univ : Finset (Fin C)).fold max (Ideal.ofBits .f32 acc) (fun k => src (ix2 r k)) := by
  refine (Ideal.multiReduction_maximumf_single src acc h hφ hacc (ix1 r)).trans ?_
  have hf : (src ∘ h.lift (ix1 r)) = fun k : Fin C => src (ix2 r k) := funext fun k => congrArg src (lift_row h r k)
  exact congrArg (fun f => Finset.fold max (Ideal.ofBits .f32 acc) f (Finset.univ : Finset (Fin C))) hf

/-- The host's reduce with a maximum body over the second axis, at row `r`: folded from the initial value. -/
theorem rowMax_host (x : FVec Ideal ⟨2, ![R, C]⟩ .f32) (init : (⟨0, ![]⟩ : Shape).Idx → EReal)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (r : Fin R) :
    Host.reduce (FloatOps.maximumf (F := Ideal) (φ := .f32)) x init h' hu (ix1 r)
      = (Finset.univ : Finset (Fin C)).fold max (init (Shape.Idx.first hu)) (fun k => x (ix2 r k)) := by
  rw [Host.reduce_eq_fold_single (FloatOps.maximumf (F := Ideal) (φ := .f32)) x init h' h hu]
  have hf : (x ∘ h.lift (ix1 r)) = fun k : Fin C => x (ix2 r k) := funext fun k => congrArg x (lift_row h r k)
  exact congrArg (fun f => Finset.fold max (init (Shape.Idx.first hu)) f (Finset.univ : Finset (Fin C))) hf

/-- The f32 pattern of minus infinity denotes the bottom element. -/
theorem ofBits_neg_inf : Ideal.ofBits .f32 0xFF800000#32 = ⊥ := by simp [Ideal.ofBits, Ideal.ieee]

end Cert.LibRowReduce

end
-- ==== Proof.LibColumn.lean ====
/-
  Column forms of a row-wise reduction's result, read with coordinates, for any extents.

  A reduction over the second axis of an a × b array that keeps its dimensions leaves one number per row, stored as a
  column: an array of extent [a] is cast to [a, 1], and the column [a, 1] is then repeated along the rows to [a, b].
  * `shapeCast_a_a1_apply`: the cast [a] → [a, 1] read at (i, u) is the operand at i, whatever the unit coordinate u.
  * `shapeCast_a1_a_apply`: the cast back [a, 1] → [a] read at i is the operand at (i, 0).
  * `broadcastTo_a1_ab_apply`: the column [a, 1] repeated to [a, b] read at (p, c) is the column's entry of row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column repeated to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.PayAttn.lean ====
/-
  The attention body's arithmetic read at an index.

  The body takes a block of 256 query rows and the whole arrays of 4096 key rows and 4096 value rows, every row of
  length 512. It multiplies the query block by the key array, both contracted along their rows' length, and scales the
  product: entry (p, j) is the scaled score of query row p against key row j. It takes each row's largest score, the
  exponential of every score less that largest, each row's sum of exponentials and the reciprocal of that sum. Its first
  result is the exponentials times the reciprocal (the softmax weights); its second is the exponentials multiplied into
  the value array, the reciprocal applied to that product.

  On the extended reals every operation is exact and a change of float format is the identity, so each stage read at
  an index is the corresponding function of the specification, applied to query row p and to the key and value arrays
  as functions of two coordinates:
  * `scaled_apply`: the scaled product at (p, j) is `Spec.score` at j;
  * `expo_apply`: the exponentials at (p, j) are `Spec.expo` of the row's scores at j;
  * `recip_apply`: the column of reciprocals at row p is one over `Spec.denom` of the row's scores;
  * `pay_attn`: the first result at (p, j) is `Spec.weightK` at j;
  * `pay_o1`: the second result at (p, d) is `Spec.mixK` at d.
-/
import proofs.«164798_j81956565942714_2_alg».proof.Proof.Gen.KernelIdeal.Skeleton
import proofs.«164798_j81956565942714_2_alg».proof.Proof.Spec
import proofs.«164798_j81956565942714_2_alg».proof.Proof.LibRowReduce
import proofs.«164798_j81956565942714_2_alg».proof.Proof.LibPlainDot
import proofs.«164798_j81956565942714_2_alg».proof.Proof.LibColumn
import Idealize.ShloMosaic.Lib.IdealHost

noncomputable section

open scoped BigOperators

namespace Cert.KernelIdeal.Pay

open Cert.KernelIdeal Cert.KernelIdeal.Gen Idealize.ShloMosaic Idealize.ShloMosaic.ValueIdx

/-! ## The product of the query block with the key array, both contracted on their second axis -/

/-- The left operand's first coordinate is the result's row. -/
theorem qk_lhs0 (i : S256x4096.Idx) (c : dot_S256x512_S4096x512_S256x4096_1_1_0_0_n_n.contr.Idx) :
    (dot_S256x512_S4096x512_S256x4096_1_1_0_0_n_n.lhsIdx i c 0).val = (i 0).val := by
  unfold DotDims.lhsIdx
  rw [dif_neg (show ¬(0 : Fin S256x512.rank) ∈ dot_S256x512_S4096x512_S256x4096_1_1_0_0_n_n.lhsBatch by decide),
    dif_pos (show (0 : Fin S256x512.rank) ∈ dot_S256x512_S4096x512_S256x4096_1_1_0_0_n_n.lhsNonContracting by decide)]
  rfl

/-- The right operand's first coordinate is the result's column. -/
theorem qk_rhs0 (i : S256x4096.Idx) (c : dot_S256x512_S4096x512_S256x4096_1_1_0_0_n_n.contr.Idx) :
    (dot_S256x512_S4096x512_S256x4096_1_1_0_0_n_n.rhsIdx i c 0).val = (i 1).val := by
  unfold DotDims.rhsIdx
  rw [dif_neg (show ¬(0 : Fin S4096x512.rank) ∈ dot_S256x512_S4096x512_S256x4096_1_1_0_0_n_n.rhsBatch by decide),
    dif_pos (show (0 : Fin S4096x512.rank) ∈ dot_S256x512_S4096x512_S256x4096_1_1_0_0_n_n.rhsNonContracting by decide)]
  rfl

/-- The product into a zero accumulator at (p, j): the sum over d of left (p, d) times right (j, d). -/
theorem qk_apply (l : FVec Ideal S256x512 .bf16) (r : FVec Ideal S4096x512 .bf16) (p : Fin 256) (j : Fin 4096) :
    FloatOps.matmul dot_S256x512_S4096x512_S256x4096_1_1_0_0_n_n none l r (constant (F := Ideal) S256x4096 .f32 0x00000000#32) (ix2 p j)
      = ∑ d : Fin 512, l (ix2 p d) * r (ix2 j d) := by
  rw [Ideal.matmul_constant_zero_apply, ← Equiv.sum_comp (contrEquiv1 dot_S256x512_S4096x512_S256x4096_1_1_0_0_n_n 512 rfl rfl).symm]
  refine Finset.sum_congr rfl fun d _ => ?_
  have hd := contrEquiv1_symm_val dot_S256x512_S4096x512_S256x4096_1_1_0_0_n_n 512 rfl rfl d
  have el : dot_S256x512_S4096x512_S256x4096_1_1_0_0_n_n.lhsIdx (ix2 p j) ((contrEquiv1 dot_S256x512_S4096x512_S256x4096_1_1_0_0_n_n 512 rfl rfl).symm d) = ix2 p d :=
    funext fun a => Fin.ext (by
      match a with
      | ⟨0, _⟩ => exact qk_lhs0 _ _
      | ⟨1, _⟩ => exact (dot_S256x512_S4096x512_S256x4096_1_1_0_0_n_n.lhsIdx_val_of_single rfl _ _).trans hd)
  have er : dot_S256x512_S4096x512_S256x4096_1_1_0_0_n_n.rhsIdx (ix2 p j) ((contrEquiv1 dot_S256x512_S4096x512_S256x4096_1_1_0_0_n_n 512 rfl rfl).symm d) = ix2 j d :=
    funext fun a => Fin.ext (by
      match a with
      | ⟨0, _⟩ => exact qk_rhs0 _ _
      | ⟨1, _⟩ => exact (dot_S256x512_S4096x512_S256x4096_1_1_0_0_n_n.rhsIdx_val_of_single rfl _ _).trans hd)
  rw [el, er]

/-! ## The scaled scores -/

/-- The body's scaled scores: the product of the query block with the key array times the scale, repeated everywhere. -/
def scaled (q : Vec Ideal S256x512 .bf16) (k : Vec Ideal S4096x512 .bf16) : FVec Ideal S256x4096 .f32 :=
  mulf (matmul dot_S256x512_S4096x512_S256x4096_1_1_0_0_n_n none (shapeCast S256x512 q shapeCasts_S256x512_S256x512 : FVec Ideal S256x512 .bf16)
      (shapeCast S4096x512 k shapeCasts_S4096x512_S4096x512 : FVec Ideal S4096x512 .bf16)
      (constant (F := Ideal) S256x4096 .f32 0x00000000#32))
    (broadcast S256x4096 (Scalar.ofBits (F := Ideal) .f32 0x3D3504F3#32))

/-- The scaled scores at (p, j): the score of query row p against key row j. -/
theorem scaled_apply (q : Vec Ideal S256x512 .bf16) (k : Vec Ideal S4096x512 .bf16) (p : Fin 256) (j : Fin 4096) :
    scaled q k (ix2 p j)
      = Spec.score (fun d : Fin 512 => q (ix2 p d)) (fun (j : Fin 4096) (d : Fin 512) => k (ix2 j d)) j := by
  unfold scaled
  rw [shapeCast_self, shapeCast_self]
  show FloatOps.matmul dot_S256x512_S4096x512_S256x4096_1_1_0_0_n_n none (q : FVec Ideal S256x512 .bf16) (k : FVec Ideal S4096x512 .bf16)
      (constant (F := Ideal) S256x4096 .f32 0x00000000#32) (ix2 p j) * Ideal.ofBits .f32 0x3D3504F3#32 = _
  rw [qk_apply]
  rfl

/-- Row p of the scaled scores is the row of scores of query row p. -/
theorem scaled_row (q : Vec Ideal S256x512 .bf16) (k : Vec Ideal S4096x512 .bf16) (p : Fin 256) :
    (fun j : Fin 4096 => scaled q k (ix2 p j))
      = Spec.score (fun d : Fin 512 => q (ix2 p d)) (fun (j : Fin 4096) (d : Fin 512) => k (ix2 j d)) :=
  funext fun j => scaled_apply q k p j

/-! ## The row maximum -/

/-- A maximum over the second axis from the pattern of minus infinity, at row p: the largest entry of the row. -/
theorem rowMax_apply (s : FVec Ideal S256x4096 .f32) (h : S256x4096.Reduces [1] S256) (hφ : FKind.Formats .f32)
    (hacc : (0xFF800000#32 : BitVec 32) = FKind.maximumf.neutral .f32 hφ) (p : Fin 256) :
    multiReduction (F := Ideal) .maximumf [1] S256 s 0xFF800000#32 h hφ hacc (ix1 p)
      = Spec.rowMax (fun j : Fin 4096 => s (ix2 p j)) := by
  refine (LibRowReduce.rowMax_kernel s 0xFF800000#32 h hφ hacc p).trans ?_
  rw [LibRowReduce.ofBits_neg_inf]
  rfl

/-! ## The exponentials -/

/-- The exponentials at (p, j): the exponential of the score less the row's largest. -/
theorem expo_apply (q : Vec Ideal S256x512 .bf16) (k : Vec Ideal S4096x512 .bf16) (p : Fin 256) (j : Fin 4096) :
    k1_pay1 (F := Ideal) q k (ix2 p j)
      = Spec.expo (Spec.score (fun d : Fin 512 => q (ix2 p d)) (fun (j : Fin 4096) (d : Fin 512) => k (ix2 j d))) j := by
  have hmax : broadcastTo S256x4096 (shapeCast S256x1 (multiReduction (F := Ideal) .maximumf [1] S256 (scaled q k) 0xFF800000#32
        reduces_S256x4096_S256 (.inl rfl) rfl) shapeCasts_S256_S256x1) broadcasts_S256x1_S256x4096 (ix2 p j)
      = Spec.rowMax (Spec.score (fun d : Fin 512 => q (ix2 p d)) (fun (j : Fin 4096) (d : Fin 512) => k (ix2 j d))) :=
    (LibColumn.broadcastTo_a1_ab_apply _ _ p j).trans
      ((LibColumn.shapeCast_a_a1_apply _ _ p 0).trans
        ((rowMax_apply (scaled q k) _ _ _ p).trans (congrArg Spec.rowMax (scaled_row q k p))))
  show Ideal.exp (scaled q k (ix2 p j) - broadcastTo S256x4096 (shapeCast S256x1 (multiReduction (F := Ideal) .maximumf [1] S256
      (scaled q k) 0xFF800000#32 reduces_S256x4096_S256 (.inl rfl) rfl) shapeCasts_S256_S256x1) broadcasts_S256x1_S256x4096 (ix2 p j)) = _
  rw [hmax, scaled_apply]
  rfl

/-! ## The reciprocal of the row's sum of exponentials -/

/-- The column of reciprocals at row p: one over the sum of the row's exponentials. -/
theorem recip_apply (q : Vec Ideal S256x512 .bf16) (k : Vec Ideal S4096x512 .bf16) (p : Fin 256) (u : Fin 1) :
    k1_pay2 (F := Ideal) q k (ix2 p u)
      = Ideal.div 1 (Spec.denom (Spec.score (fun d : Fin 512 => q (ix2 p d)) (fun (j : Fin 4096) (d : Fin 512) => k (ix2 j d)))) := by
  have hsum : shapeCast S256x1 (multiReduction (F := Ideal) .add [1] S256 (k1_pay1 (F := Ideal) q k) 0x00000000#32
        reduces_S256x4096_S256 (.inl rfl) rfl) shapeCasts_S256_S256x1 (ix2 p u)
      = Spec.denom (Spec.score (fun d : Fin 512 => q (ix2 p d)) (fun (j : Fin 4096) (d : Fin 512) => k (ix2 j d))) :=
    (LibColumn.shapeCast_a_a1_apply _ _ p u).trans
      ((LibRowReduce.rowSum_kernel (k1_pay1 (F := Ideal) q k) 0x00000000#32 reduces_S256x4096_S256 (.inl rfl) rfl p).trans
        (Finset.sum_congr rfl fun j _ => expo_apply q k p j))
  show Ideal.div (Ideal.ofBits .f32 0x3F800000#32) (shapeCast S256x1 (multiReduction (F := Ideal) .add [1] S256
      (k1_pay1 (F := Ideal) q k) 0x00000000#32 reduces_S256x4096_S256 (.inl rfl) rfl) shapeCasts_S256_S256x1 (ix2 p u)) = _
  rw [hsum, Ideal.ofBits_one_f32]

/-! ## The two results -/

/-- The first result at (p, j): the softmax weight of key row j for query row p, as the exponential times the reciprocal
    of the row's sum. -/
theorem pay_attn (q : Vec Ideal S256x512 .bf16) (k : Vec Ideal S4096x512 .bf16) (p : Fin 256) (j : Fin 4096) :
    k1_pay3 (F := Ideal) q k (ix2 p j)
      = Spec.weightK (Spec.score (fun d : Fin 512 => q (ix2 p d)) (fun (j : Fin 4096) (d : Fin 512) => k (ix2 j d))) j := by
  show k1_pay1 (F := Ideal) q k (ix2 p j)
      * broadcastTo S256x4096 (k1_pay2 (F := Ideal) q k) broadcasts_S256x1_S256x4096 (ix2 p j) = _
  rw [expo_apply, LibColumn.broadcastTo_a1_ab_apply, recip_apply]
  rfl

/-- The second result at (p, d): the value rows mixed by the exponentials, times the reciprocal of the row's sum. -/
theorem pay_o1 (q : Vec Ideal S256x512 .bf16) (k v : Vec Ideal S4096x512 .bf16) (p : Fin 256) (d : Fin 512) :
    k1_pay4 (F := Ideal) q k v (ix2 p d)
      = Spec.mixK (Spec.score (fun d : Fin 512 => q (ix2 p d)) (fun (j : Fin 4096) (d : Fin 512) => k (ix2 j d)))
          (fun (j : Fin 4096) (d : Fin 512) => v (ix2 j d)) d := by
  have hmix : FloatOps.matmul (DotDims.plain 256 4096 512) none (truncf .bf16 (k1_pay1 (F := Ideal) q k) bitsLt_bf16_f32)
        (shapeCast S4096x512 v shapeCasts_S4096x512_S4096x512 : FVec Ideal S4096x512 .bf16)
        (constant (F := Ideal) S256x512 .f32 0x00000000#32) (ix2 p d)
      = ∑ j : Fin 4096, Spec.expo (Spec.score (fun d : Fin 512 => q (ix2 p d))
          (fun (j : Fin 4096) (d : Fin 512) => k (ix2 j d))) j * v (ix2 j d) := by
    refine (LibPlainDot.matmul_plain_zero_apply none _ _ (ix2 p d)).trans ?_
    refine Finset.sum_congr rfl fun j _ => ?_
    rw [shapeCast_self]
    show k1_pay1 (F := Ideal) q k (ix2 p j) * v (ix2 j d) = _
    rw [expo_apply]
  show FloatOps.matmul (DotDims.plain 256 4096 512) none (truncf .bf16 (k1_pay1 (F := Ideal) q k) bitsLt_bf16_f32)
        (shapeCast S4096x512 v shapeCasts_S4096x512_S4096x512 : FVec Ideal S4096x512 .bf16)
        (constant (F := Ideal) S256x512 .f32 0x00000000#32) (ix2 p d)
      * broadcastTo S256x512 (k1_pay2 (F := Ideal) q k) broadcasts_S256x1_S256x512 (ix2 p d) = _
  rw [hmix, LibColumn.broadcastTo_a1_ab_apply, recip_apply]
  rfl

end Cert.KernelIdeal.Pay

end
-- ==== Proof.Value1.lean ====
/-
  What the attention region leaves: the softmax weights and the mixed value rows as whole-array functions of the
  contents the region is entered with.

  Grid point `t` holds query rows 256·t … 256·t + 255; the key and value arrays are whole at every point. Row `p` of
  what the point writes back is the softmax of query row 256·t + p against all key rows, in the arrangement that
  multiplies by the reciprocal of the row's sum, and that row's mix of the value rows.
-/
import proofs.«164798_j81956565942714_2_alg».proof.Proof.Reg1Ideal
import proofs.«164798_j81956565942714_2_alg».proof.Proof.PayAttn
import proofs.«164798_j81956565942714_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the buffer contents when the region is entered, at the ideal values
variable (V : (c : Dev nD) → (b : Ref sig .tc) → Buf (Elt Ideal) ((c : Thread nD τ).loc b))

theorem hz2' : (![0, 0] : Fin 2 → Nat) = fun _ => 0 := funext fun a => by fin_cases a <;> rfl

/-- The printed index maps over the sixteen grid points: the query rows and the two outputs move with the point, the
    key and value arrays stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem row1_lt (t : Fin cfg1.N) (p : Fin 256) : 256 * t.val + p.val < 4096 := by
  have hN : (cfg1.N : Nat) = 16 := N_1
  have := t.isLt; have := p.isLt; omega

/-- Row `p` of the query block at point `t` is query row 256·t + p. -/
theorem blk1_q (c : Dev nD) (t : Fin cfg1.N) (p : Fin 256) (d : Fin 512) :
    (iblk1 V c 0 t : S256x512.Idx → EReal) (ix2 p d) = V c main_v3_0 (ix2 (⟨256 * t.val + p.val, row1_lt t p⟩ : Fin 4096) d) := by
  unfold iblk1
  show V c main_v3_0 (((cfg1.win 0).blk t).view.emb (ix2 p d)) = _
  refine congrArg (V c main_v3_0) ?_
  obtain ⟨e0, e1, -⟩ := idx_facts1 t
  funext a; apply Fin.ext
  match a with
  | ⟨0, _⟩ => show win1_0.index t (0 : Fin 2) * 256 + 1 * p.val = 256 * t.val + p.val; omega
  | ⟨1, _⟩ => show win1_0.index t (1 : Fin 2) * 512 + 1 * d.val = d.val; omega

/-- The key block at any point is the whole key array. -/
theorem blk1_k (c : Dev nD) (t : Fin cfg1.N) (j : Fin 4096) (d : Fin 512) :
    (iblk1 V c 1 t : S4096x512.Idx → EReal) (ix2 j d) = V c main_v3_1 (ix2 j d) := by
  unfold iblk1
  show V c main_v3_1 (((cfg1.win 1).blk t).view.emb (ix2 j d)) = _
  refine congrArg (V c main_v3_1) ?_
  obtain ⟨-, -, e2, e3, -⟩ := idx_facts1 t
  funext a; apply Fin.ext
  match a with
  | ⟨0, _⟩ => show win1_1.index t (0 : Fin 2) * 4096 + 1 * j.val = j.val; omega
  | ⟨1, _⟩ => show win1_1.index t (1 : Fin 2) * 512 + 1 * d.val = d.val; omega

/-- The value block at any point is the whole value array. -/
theorem blk1_v (c : Dev nD) (t : Fin cfg1.N) (j : Fin 4096) (d : Fin 512) :
    (iblk1 V c 2 t : S4096x512.Idx → EReal) (ix2 j d) = V c main_v3_2 (ix2 j d) := by
  unfold iblk1
  show V c main_v3_2 (((cfg1.win 2).blk t).view.emb (ix2 j d)) = _
  refine congrArg (V c main_v3_2) ?_
  obtain ⟨-, -, -, -, e4, e5, -⟩ := idx_facts1 t
  funext a; apply Fin.ext
  match a with
  | ⟨0, _⟩ => show win1_2.index t (0 : Fin 2) * 4096 + 1 * j.val = j.val; omega
  | ⟨1, _⟩ => show win1_2.index t (1 : Fin 2) * 512 + 1 * d.val = d.val; omega

/-- The scores of query row `i` of the entry contents against every key row. -/
def srow (c : Dev nD) (i : Fin 4096) : Fin 4096 → EReal :=
  Spec.score (fun d : Fin 512 => V c main_v3_0 (ix2 i d)) (fun (j : Fin 4096) (d : Fin 512) => V c main_v3_1 (ix2 j d))

/-- The softmax weights as an array. -/
def attnArr (c : Dev nD) : S4096x4096.Idx → EReal :=
  fun i => Spec.weightK (srow V c ⟨(i 0).val, idx2_lt0 i⟩) ⟨(i 1).val, idx2_lt1 i⟩
theorem attnArr_apply (c : Dev nD) (i j : Fin 4096) : attnArr V c (ix2 i j) = Spec.weightK (srow V c i) j := rfl

/-- The mixed value rows as an array. -/
def mixArr (c : Dev nD) : S4096x512.Idx → EReal :=
  fun i => Spec.mixK (srow V c ⟨(i 0).val, idx2_lt0 i⟩) (fun (j : Fin 4096) (d : Fin 512) => V c main_v3_2 (ix2 j d)) ⟨(i 1).val, idx2_lt1 i⟩
theorem mixArr_apply (c : Dev nD) (i : Fin 4096) (d : Fin 512) :
    mixArr V c (ix2 i d) = Spec.mixK (srow V c i) (fun (j : Fin 4096) (d : Fin 512) => V c main_v3_2 (ix2 j d)) d := rfl

/-- The scores of a block's row are the scores of the array's row. -/
theorem srow_blk (c : Dev nD) (t : Fin cfg1.N) (p : Fin 256) :
    Spec.score (fun d : Fin 512 => (iblk1 V c 0 t : S256x512.Idx → EReal) (ix2 p d))
        (fun (j : Fin 4096) (d : Fin 512) => (iblk1 V c 1 t : S4096x512.Idx → EReal) (ix2 j d))
      = srow V c (⟨256 * t.val + p.val, row1_lt t p⟩ : Fin 4096) := by
  have h1 : (fun d : Fin 512 => (iblk1 V c 0 t : S256x512.Idx → EReal) (ix2 p d))
      = fun d : Fin 512 => V c main_v3_0 (ix2 (⟨256 * t.val + p.val, row1_lt t p⟩ : Fin 4096) d) := funext fun d => blk1_q V c t p d
  have h2 : (fun (j : Fin 4096) (d : Fin 512) => (iblk1 V c 1 t : S4096x512.Idx → EReal) (ix2 j d))
      = fun (j : Fin 4096) (d : Fin 512) => V c main_v3_1 (ix2 j d) := funext fun j => funext fun d => blk1_k V c t j d
  unfold srow
  rw [h1, h2]

/-- Where an entry of the weights block sits in its array: row 256·t + p, the same column. -/
theorem emb1_3 (t : Fin cfg1.N) (p : Fin 256) (j : Fin 4096) :
    ((cfg1.win 3).blk t).view.emb (ix2 p j) = ix2 (⟨256 * t.val + p.val, row1_lt t p⟩ : Fin 4096) j := by
  have hf := idx_facts1 t
  have e5 : win1_3.index t (0 : Fin 2) = t.val := by simp only [hf]
  have e6 : win1_3.index t (1 : Fin 2) = 0 := by simp only [hf]
  funext a; apply Fin.ext
  match a with
  | ⟨0, _⟩ => show win1_3.index t (0 : Fin 2) * 256 + 1 * p.val = 256 * t.val + p.val; omega
  | ⟨1, _⟩ => show win1_3.index t (1 : Fin 2) * 4096 + 1 * j.val = j.val; omega

/-- Where an entry of the mixed-rows block sits in its array. -/
theorem emb1_4 (t : Fin cfg1.N) (p : Fin 256) (d : Fin 512) :
    ((cfg1.win 4).blk t).view.emb (ix2 p d) = ix2 (⟨256 * t.val + p.val, row1_lt t p⟩ : Fin 4096) d := by
  have hf := idx_facts1 t
  have e5 : win1_4.index t (0 : Fin 2) = t.val := by simp only [hf]
  have e6 : win1_4.index t (1 : Fin 2) = 0 := by simp only [hf]
  funext a; apply Fin.ext
  match a with
  | ⟨0, _⟩ => show win1_4.index t (0 : Fin 2) * 256 + 1 * p.val = 256 * t.val + p.val; omega
  | ⟨1, _⟩ => show win1_4.index t (1 : Fin 2) * 512 + 1 * d.val = d.val; omega

/-- What point `t` writes back into the weights array is block `t` of the softmax weights. -/
theorem flushed1_a (c : Dev nD) (t : Fin cfg1.N) :
    (dat1 V c).flushed 3 t = ((cfg1.win 3).blk t).view.read (Elt Ideal) (attnArr V c) := by
  show (cfg1.win 3).cut (grid1.coords t) ((dat1 V c).after 3 t) = _
  rw [after1_3]
  unfold out1_3
  rw [View.canon_unit_zero hz2']
  simp only [View.ld_unit_zero (S := S256x512) hz2', View.ld_unit_zero (S := S4096x512) hz2']
  funext y
  obtain ⟨p, j, rfl⟩ : ∃ (p : Fin 256) (j : Fin 4096), y = ix2 p j := ⟨y 0, y 1, eq_ix2 y⟩
  show k1_pay3 (F := Ideal) (iblk1 V c 0 t) (iblk1 V c 1 t) (ix2 p j) = attnArr V c (((cfg1.win 3).blk t).view.emb (ix2 p j))
  refine (Pay.pay_attn (iblk1 V c 0 t) (iblk1 V c 1 t) p j).trans ?_
  rw [emb1_3, attnArr_apply, ← srow_blk V c t p]

/-- What point `t` writes back into the mixed-rows array is block `t` of the mixed value rows. -/
theorem flushed1_o (c : Dev nD) (t : Fin cfg1.N) :
    (dat1 V c).flushed 4 t = ((cfg1.win 4).blk t).view.read (Elt Ideal) (mixArr V c) := by
  show (cfg1.win 4).cut (grid1.coords t) ((dat1 V c).after 4 t) = _
  rw [after1_4]
  unfold out1_4
  rw [View.canon_unit_zero hz2']
  simp only [View.ld_unit_zero (S := S256x512) hz2', View.ld_unit_zero (S := S4096x512) hz2']
  funext y
  obtain ⟨p, d, rfl⟩ : ∃ (p : Fin 256) (d : Fin 512), y = ix2 p d := ⟨y 0, y 1, eq_ix2 y⟩
  show k1_pay4 (F := Ideal) (iblk1 V c 0 t) (iblk1 V c 1 t) (iblk1 V c 2 t) (ix2 p d) = mixArr V c (((cfg1.win 4).blk t).view.emb (ix2 p d))
  refine (Pay.pay_o1 (iblk1 V c 0 t) (iblk1 V c 1 t) (iblk1 V c 2 t) p d).trans ?_
  have h3 : (fun (j : Fin 4096) (d : Fin 512) => (iblk1 V c 2 t : S4096x512.Idx → EReal) (ix2 j d))
      = fun (j : Fin 4096) (d : Fin 512) => V c main_v3_2 (ix2 j d) := funext fun j => funext fun d => blk1_v V c t j d
  rw [emb1_4, mixArr_apply, ← srow_blk V c t p, h3]

theorem mem_blk1_3 (t : Fin cfg1.N) (i : S4096x4096.Idx) :
    i ∈ ((cfg1.win 3).blk t).view.set ↔ ∀ a : Fin 2, win1_3.index t a * S256x4096.size a ≤ (i a).val ∧ (i a).val < win1_3.index t a * S256x4096.size a + S256x4096.size a := by
  show i ∈ ((View.whole main_v4_0).slice (win1_3.rect t)).set ↔ _
  rw [View.set_slice_whole, Rect.mem_set_unit]
  exact Iff.rfl

theorem mem_blk1_4 (t : Fin cfg1.N) (i : S4096x512.Idx) :
    i ∈ ((cfg1.win 4).blk t).view.set ↔ ∀ a : Fin 2, win1_4.index t a * S256x512.size a ≤ (i a).val ∧ (i a).val < win1_4.index t a * S256x512.size a + S256x512.size a := by
  show i ∈ ((View.whole main_v4_1).slice (win1_4.rect t)).set ↔ _
  rw [View.set_slice_whole, Rect.mem_set_unit]
  exact Iff.rfl

/-- Every entry of the weights array is in the block of the point its row falls in. -/
theorem covered1_3 (i : S4096x4096.Idx) : ∃ t : Fin cfg1.N, (cfg1.win 3).flush t = true ∧ i ∈ ((cfg1.win 3).blk t).view.set := by
  have hi0 : (i 0).val < 4096 := idx2_lt0 i
  have hi1 : (i 1).val < 4096 := idx2_lt1 i
  have hN : (cfg1.N : Nat) = 16 := N_1
  have ht : (i 0).val / 256 < cfg1.N := by omega
  have hf := idx_facts1 ⟨(i 0).val / 256, ht⟩
  have e5 : win1_3.index ⟨(i 0).val / 256, ht⟩ (0 : Fin 2) = (i 0).val / 256 := by simp only [hf]
  have e6 : win1_3.index ⟨(i 0).val / 256, ht⟩ (1 : Fin 2) = 0 := by simp only [hf]
  refine ⟨⟨(i 0).val / 256, ht⟩, flush1_3 _, ?_⟩
  rw [mem_blk1_3]
  intro a
  match a with
  | ⟨0, _⟩ =>
    show win1_3.index ⟨(i 0).val / 256, ht⟩ (0 : Fin 2) * 256 ≤ (i 0).val ∧ (i 0).val < win1_3.index ⟨(i 0).val / 256, ht⟩ (0 : Fin 2) * 256 + 256
    omega
  | ⟨1, _⟩ =>
    show win1_3.index ⟨(i 0).val / 256, ht⟩ (1 : Fin 2) * 4096 ≤ (i 1).val ∧ (i 1).val < win1_3.index ⟨(i 0).val / 256, ht⟩ (1 : Fin 2) * 4096 + 4096
    omega

/-- Every entry of the mixed-rows array is in the block of the point its row falls in. -/
theorem covered1_4 (i : S4096x512.Idx) : ∃ t : Fin cfg1.N, (cfg1.win 4).flush t = true ∧ i ∈ ((cfg1.win 4).blk t).view.set := by
  have hi0 : (i 0).val < 4096 := idx2_lt0 i
  have hi1 : (i 1).val < 512 := idx2_lt1 i
  have hN : (cfg1.N : Nat) = 16 := N_1
  have ht : (i 0).val / 256 < cfg1.N := by omega
  have hf := idx_facts1 ⟨(i 0).val / 256, ht⟩
  have e5 : win1_4.index ⟨(i 0).val / 256, ht⟩ (0 : Fin 2) = (i 0).val / 256 := by simp only [hf]
  have e6 : win1_4.index ⟨(i 0).val / 256, ht⟩ (1 : Fin 2) = 0 := by simp only [hf]
  refine ⟨⟨(i 0).val / 256, ht⟩, flush1_4 _, ?_⟩
  rw [mem_blk1_4]
  intro a
  match a with
  | ⟨0, _⟩ =>
    show win1_4.index ⟨(i 0).val / 256, ht⟩ (0 : Fin 2) * 256 ≤ (i 0).val ∧ (i 0).val < win1_4.index ⟨(i 0).val / 256, ht⟩ (0 : Fin 2) * 256 + 256
    omega
  | ⟨1, _⟩ =>
    show win1_4.index ⟨(i 0).val / 256, ht⟩ (1 : Fin 2) * 512 ≤ (i 1).val ∧ (i 1).val < win1_4.index ⟨(i 0).val / 256, ht⟩ (1 : Fin 2) * 512 + 512
    omega

/-- The weights array after the region. -/
theorem final1_a (c : Dev nD) : (dat1 V c).arrAt 3 cfg1.N = attnArr V c :=
  (dat1 V c).arrAt_eq_of_cover 3 (attnArr V c) (fun t _ => flushed1_a V c t) (covered1_3)

/-- The mixed-rows array after the region. -/
theorem final1_o (c : Dev nD) : (dat1 V c).arrAt 4 cfg1.N = mixArr V c :=
  (dat1 V c).arrAt_eq_of_cover 4 (mixArr V c) (fun t _ => flushed1_o V c t) (covered1_4)

end Cert.KernelIdeal.Hand

end
-- ==== Proof.PayPost.lean ====
/-
  The output projection and the perceptron, read at an index, at the ideal values.

  The kernel body computes, on a block of 256 rows, three biased products in a chain: the first residual
  r = o · Wo + bo + x, the hidden rows h = max (r · W1 + b1) 0, and the result h · W2 + b2 + r. At the ideal values
  every change of format is the identity, each product into a zero accumulator is the plain sum over the contracted
  coordinate, and a bias repeated down the rows reads its own entry. The three stages are named here as functions of
  the arrays they read (`r1`, `hid`, `outv`), each is read at an index as the row function of Proof/Spec.lean
  (`Spec.res1`, `Spec.hidden`, `Spec.outRow`) on row p of its operands, and the body's value is their composite,
  `Spec.tail`.
-/
import proofs.«164798_j81956565942714_2_alg».proof.Proof.Gen.KernelIdeal.Skeleton
import proofs.«164798_j81956565942714_2_alg».proof.Proof.Spec
import proofs.«164798_j81956565942714_2_alg».proof.Proof.LibPlainDot
import proofs.«164798_j81956565942714_2_alg».proof.Proof.LibRowBias

noncomputable section

namespace Cert.KernelIdeal.Pay

open Cert.KernelIdeal Cert.KernelIdeal.Gen Idealize.ShloMosaic Idealize.ShloMosaic.ValueIdx

/-- The first residual as an array: o · Wo + bo + x. -/
def r1 (o : Vec Ideal S256x512 .bf16) (x : Vec Ideal S256x1024 .f32) (wo : Vec Ideal S512x1024 .bf16)
    (bo : Vec Ideal S1024 .f32) : FVec Ideal S256x1024 .f32 :=
  addf
    (addf
      (matmul dot_S256x512_S512x1024_S256x1024_1_0_0_1_n_n none
        (shapeCast S256x512 o shapeCasts_S256x512_S256x512 : FVec Ideal S256x512 .bf16)
        (shapeCast S512x1024 wo shapeCasts_S512x1024_S512x1024 : FVec Ideal S512x1024 .bf16)
        (constant (F := Ideal) S256x1024 .f32 0x00000000#32))
      (broadcastTo S256x1024 (shapeCast S1x1024 bo shapeCasts_S1024_S1x1024) broadcasts_S1x1024_S256x1024))
    x

/-- The hidden rows as an array: the positive part of r · W1 + b1. -/
def hid (r : FVec Ideal S256x1024 .f32) (w1 : Vec Ideal S1024x4096 .bf16) (b1 : Vec Ideal S4096 .f32) :
    FVec Ideal S256x4096 .f32 :=
  maximumf
    (addf
      (matmul dot_S256x1024_S1024x4096_S256x4096_1_0_0_1_n_n none
        (truncf .bf16 r bitsLt_bf16_f32 : FVec Ideal S256x1024 .bf16)
        (shapeCast S1024x4096 w1 shapeCasts_S1024x4096_S1024x4096 : FVec Ideal S1024x4096 .bf16)
        (constant (F := Ideal) S256x4096 .f32 0x00000000#32))
      (broadcastTo S256x4096 (shapeCast S1x4096 b1 shapeCasts_S4096_S1x4096) broadcasts_S1x4096_S256x4096))
    (broadcast S256x4096 (Scalar.ofBits (F := Ideal) .f32 0x00000000#32))

/-- The result as an array: h · W2 + b2 + r. -/
def outv (r : FVec Ideal S256x1024 .f32) (h : FVec Ideal S256x4096 .f32) (w2 : Vec Ideal S4096x1024 .bf16)
    (b2 : Vec Ideal S1024 .f32) : FVec Ideal S256x1024 .f32 :=
  addf
    (addf
      (matmul dot_S256x4096_S4096x1024_S256x1024_1_0_0_1_n_n none
        (truncf .bf16 h bitsLt_bf16_f32 : FVec Ideal S256x4096 .bf16)
        (shapeCast S4096x1024 w2 shapeCasts_S4096x1024_S4096x1024 : FVec Ideal S4096x1024 .bf16)
        (constant (F := Ideal) S256x1024 .f32 0x00000000#32))
      (broadcastTo S256x1024 (shapeCast S1x1024 b2 shapeCasts_S1024_S1x1024) broadcasts_S1x1024_S256x1024))
    r

/-- The body's value is the composite of the three stages. -/
theorem k2_pay1_eq (o : Vec Ideal S256x512 .bf16) (x : Vec Ideal S256x1024 .f32) (wo : Vec Ideal S512x1024 .bf16)
    (bo : Vec Ideal S1024 .f32) (w1 : Vec Ideal S1024x4096 .bf16) (b1 : Vec Ideal S4096 .f32)
    (w2 : Vec Ideal S4096x1024 .bf16) (b2 : Vec Ideal S1024 .f32) :
    k2_pay1 (F := Ideal) o x wo bo w1 b1 w2 b2 = outv (r1 o x wo bo) (hid (r1 o x wo bo) w1 b1) w2 b2 := rfl

/-- Entry (p, n) of the first residual: `Spec.res1` on row p of o and of x. -/
theorem r1_apply (o : Vec Ideal S256x512 .bf16) (x : Vec Ideal S256x1024 .f32) (wo : Vec Ideal S512x1024 .bf16)
    (bo : Vec Ideal S1024 .f32) (p : Fin 256) (n : Fin 1024) :
    r1 o x wo bo (ix2 p n)
      = Spec.res1 (fun d : Fin 512 => o (ix2 p d)) (fun d n => wo (ix2 d n)) (fun n => bo (ix1 n))
          (fun n : Fin 1024 => x (ix2 p n)) n := by
  have ho : shapeCast S256x512 o shapeCasts_S256x512_S256x512 = o := shapeCast_self o _
  have hwo : shapeCast S512x1024 wo shapeCasts_S512x1024_S512x1024 = wo := shapeCast_self wo _
  unfold r1 Spec.res1
  refine (addf_apply _ _ _).trans ?_
  refine congrArg₂ (· + ·) ?_ rfl
  refine (addf_apply _ _ _).trans ?_
  rw [ho, hwo]
  refine congrArg₂ (· + ·) ?_ ?_
  · exact Cert.LibPlainDot.matmul_plain_zero_apply none o wo (ix2 p n)
  · exact Cert.LibRowBias.vectorRow_apply shapeCasts_S1024_S1x1024 broadcasts_S1x1024_S256x1024 bo p n

/-- Entry (p, f) of the hidden rows: `Spec.hidden` on row p of r. -/
theorem hid_apply (r : FVec Ideal S256x1024 .f32) (w1 : Vec Ideal S1024x4096 .bf16) (b1 : Vec Ideal S4096 .f32)
    (p : Fin 256) (f : Fin 4096) :
    hid r w1 b1 (ix2 p f)
      = Spec.hidden (fun n : Fin 1024 => r (ix2 p n)) (fun n f => w1 (ix2 n f)) (fun f => b1 (ix1 f)) f := by
  have hw : shapeCast S1024x4096 w1 shapeCasts_S1024x4096_S1024x4096 = w1 := shapeCast_self w1 _
  unfold hid Spec.hidden
  refine (maximumf_apply _ _ _).trans ?_
  refine congrArg₂ max ?_ Ideal.ofBits_zero_f32
  refine (addf_apply _ _ _).trans ?_
  rw [hw]
  refine congrArg₂ (· + ·) ?_ ?_
  · exact Cert.LibPlainDot.matmul_plain_zero_apply none (truncf FTy.bf16 r bitsLt_bf16_f32) w1 (ix2 p f)
  · exact Cert.LibRowBias.vectorRow_apply shapeCasts_S4096_S1x4096 broadcasts_S1x4096_S256x4096 b1 p f

/-- Entry (p, n) of the result: `Spec.outRow` on row p of r and of h. -/
theorem outv_apply (r : FVec Ideal S256x1024 .f32) (h : FVec Ideal S256x4096 .f32) (w2 : Vec Ideal S4096x1024 .bf16)
    (b2 : Vec Ideal S1024 .f32) (p : Fin 256) (n : Fin 1024) :
    outv r h w2 b2 (ix2 p n)
      = Spec.outRow (fun n : Fin 1024 => r (ix2 p n)) (fun f : Fin 4096 => h (ix2 p f)) (fun f n => w2 (ix2 f n))
          (fun n => b2 (ix1 n)) n := by
  have hw : shapeCast S4096x1024 w2 shapeCasts_S4096x1024_S4096x1024 = w2 := shapeCast_self w2 _
  unfold outv Spec.outRow
  refine (addf_apply _ _ _).trans ?_
  refine congrArg₂ (· + ·) ?_ rfl
  refine (addf_apply _ _ _).trans ?_
  rw [hw]
  refine congrArg₂ (· + ·) ?_ ?_
  · exact Cert.LibPlainDot.matmul_plain_zero_apply none (truncf FTy.bf16 h bitsLt_bf16_f32) w2 (ix2 p n)
  · exact Cert.LibRowBias.vectorRow_apply shapeCasts_S1024_S1x1024 broadcasts_S1x1024_S256x1024 b2 p n

/-- Entry (p, n) of the body's value: the block's last two stages on row p of the mixed rows and of the input. -/
theorem pay_out (o : Vec Ideal S256x512 .bf16) (x : Vec Ideal S256x1024 .f32) (wo : Vec Ideal S512x1024 .bf16)
    (bo : Vec Ideal S1024 .f32) (w1 : Vec Ideal S1024x4096 .bf16) (b1 : Vec Ideal S4096 .f32)
    (w2 : Vec Ideal S4096x1024 .bf16) (b2 : Vec Ideal S1024 .f32) (p : Fin 256) (n : Fin 1024) :
    k2_pay1 (F := Ideal) o x wo bo w1 b1 w2 b2 (ix2 p n)
      = Spec.tail (fun d : Fin 512 => o (ix2 p d)) (fun n : Fin 1024 => x (ix2 p n)) (fun d n => wo (ix2 d n))
          (fun n => bo (ix1 n)) (fun n f => w1 (ix2 n f)) (fun f => b1 (ix1 f)) (fun f n => w2 (ix2 f n))
          (fun n => b2 (ix1 n)) n := by
  have hr : (fun m : Fin 1024 => r1 o x wo bo (ix2 p m))
      = Spec.res1 (fun d : Fin 512 => o (ix2 p d)) (fun d n => wo (ix2 d n)) (fun n => bo (ix1 n))
          (fun n : Fin 1024 => x (ix2 p n)) := funext fun m => r1_apply o x wo bo p m
  have hh : (fun f : Fin 4096 => hid (r1 o x wo bo) w1 b1 (ix2 p f))
      = Spec.hidden (Spec.res1 (fun d : Fin 512 => o (ix2 p d)) (fun d n => wo (ix2 d n)) (fun n => bo (ix1 n))
          (fun n : Fin 1024 => x (ix2 p n))) (fun n f => w1 (ix2 n f)) (fun f => b1 (ix1 f)) :=
    funext fun f => (hid_apply (r1 o x wo bo) w1 b1 p f).trans (by rw [hr])
  rw [k2_pay1_eq]
  refine (outv_apply (r1 o x wo bo) (hid (r1 o x wo bo) w1 b1) w2 b2 p n).trans ?_
  unfold Spec.tail
  rw [hr, hh]

end Cert.KernelIdeal.Pay

end
-- ==== Proof.Value2.lean ====
/-
  What the output region leaves: the result array as a whole-array function of the contents the region is entered with.

  Grid point `t` holds mixed rows and input rows 256·t … 256·t + 255; the output projection, the two perceptron layers
  and the three biases are whole at every point. Row `p` of what the point writes back is the block's last two stages
  on mixed row 256·t + p and input row 256·t + p.
-/
import proofs.«164798_j81956565942714_2_alg».proof.Proof.Reg2Ideal
import proofs.«164798_j81956565942714_2_alg».proof.Proof.PayPost
import proofs.«164798_j81956565942714_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the buffer contents when the region is entered, at the ideal values
variable (V : (c : Dev nD) → (b : Ref sig .tc) → Buf (Elt Ideal) ((c : Thread nD τ).loc b))

theorem hz2'' : (![0, 0] : Fin 2 → Nat) = fun _ => 0 := funext fun a => by fin_cases a <;> rfl
theorem hz1'' : (![0] : Fin 1 → Nat) = fun _ => 0 := funext fun a => by fin_cases a <;> rfl

/-- The printed index maps over the sixteen grid points: the mixed rows, the input rows and the output move with the
    point, the matrices and the biases stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

theorem row2_lt (t : Fin cfg2.N) (p : Fin 256) : 256 * t.val + p.val < 4096 := by
  have hN : (cfg2.N : Nat) = 16 := N_2
  have := t.isLt; have := p.isLt; omega

/-! Each window's block read at an index: rows 256·t + p of the two moving inputs, the whole of the others. -/

theorem blk2_0 (c : Dev nD) (t : Fin cfg2.N) (p : Fin 256) (d : Fin 512) :
    (iblk2 V c 0 t : S256x512.Idx → EReal) (ix2 p d) = V c main_v4_1 (ix2 (⟨256 * t.val + p.val, row2_lt t p⟩ : Fin 4096) d) := by
  unfold iblk2
  show V c main_v4_1 (((cfg2.win 0).blk t).view.emb (ix2 p d)) = _
  refine congrArg (V c main_v4_1) ?_
  have hf := idx_facts2 t
  have e0 : win2_0.index t (0 : Fin 2) = t.val := by simp only [hf]
  have e1 : win2_0.index t (1 : Fin 2) = 0 := by simp only [hf]
  funext a; apply Fin.ext
  match a with
  | ⟨0, _⟩ => show win2_0.index t (0 : Fin 2) * 256 + 1 * p.val = 256 * t.val + p.val; omega
  | ⟨1, _⟩ => show win2_0.index t (1 : Fin 2) * 512 + 1 * d.val = d.val; omega

theorem blk2_1 (c : Dev nD) (t : Fin cfg2.N) (p : Fin 256) (d : Fin 1024) :
    (iblk2 V c 1 t : S256x1024.Idx → EReal) (ix2 p d) = V c main_arg0 (ix2 (⟨256 * t.val + p.val, row2_lt t p⟩ : Fin 4096) d) := by
  unfold iblk2
  show V c main_arg0 (((cfg2.win 1).blk t).view.emb (ix2 p d)) = _
  refine congrArg (V c main_arg0) ?_
  have hf := idx_facts2 t
  have e0 : win2_1.index t (0 : Fin 2) = t.val := by simp only [hf]
  have e1 : win2_1.index t (1 : Fin 2) = 0 := by simp only [hf]
  funext a; apply Fin.ext
  match a with
  | ⟨0, _⟩ => show win2_1.index t (0 : Fin 2) * 256 + 1 * p.val = 256 * t.val + p.val; omega
  | ⟨1, _⟩ => show win2_1.index t (1 : Fin 2) * 1024 + 1 * d.val = d.val; omega

theorem blk2_2 (c : Dev nD) (t : Fin cfg2.N) (a0 : Fin 512) (a1 : Fin 1024) :
    (iblk2 V c 2 t : S512x1024.Idx → EReal) (ix2 a0 a1) = V c main_v5 (ix2 a0 a1) := by
  unfold iblk2
  show V c main_v5 (((cfg2.win 2).blk t).view.emb (ix2 a0 a1)) = _
  refine congrArg (V c main_v5) ?_
  have hf := idx_facts2 t
  have e0 : win2_2.index t (0 : Fin 2) = 0 := by simp only [hf]
  have e1 : win2_2.index t (1 : Fin 2) = 0 := by simp only [hf]
  funext a; apply Fin.ext
  match a with
  | ⟨0, _⟩ => show win2_2.index t (0 : Fin 2) * 512 + 1 * a0.val = a0.val; omega
  | ⟨1, _⟩ => show win2_2.index t (1 : Fin 2) * 1024 + 1 * a1.val = a1.val; omega

theorem blk2_3 (c : Dev nD) (t : Fin cfg2.N) (a0 : Fin 1024) :
    (iblk2 V c 3 t : S1024.Idx → EReal) (ix1 a0) = V c main_arg8 (ix1 a0) := by
  unfold iblk2
  show V c main_arg8 (((cfg2.win 3).blk t).view.emb (ix1 a0)) = _
  refine congrArg (V c main_arg8) ?_
  have hf := idx_facts2 t
  have e0 : win2_3.index t (0 : Fin 1) = 0 := by simp only [hf]
  funext a; apply Fin.ext
  match a with
  | ⟨0, _⟩ => show win2_3.index t (0 : Fin 1) * 1024 + 1 * a0.val = a0.val; omega

theorem blk2_4 (c : Dev nD) (t : Fin cfg2.N) (a0 : Fin 1024) (a1 : Fin 4096) :
    (iblk2 V c 4 t : S1024x4096.Idx → EReal) (ix2 a0 a1) = V c main_v6 (ix2 a0 a1) := by
  unfold iblk2
  show V c main_v6 (((cfg2.win 4).blk t).view.emb (ix2 a0 a1)) = _
  refine congrArg (V c main_v6) ?_
  have hf := idx_facts2 t
  have e0 : win2_4.index t (0 : Fin 2) = 0 := by simp only [hf]
  have e1 : win2_4.index t (1 : Fin 2) = 0 := by simp only [hf]
  funext a; apply Fin.ext
  match a with
  | ⟨0, _⟩ => show win2_4.index t (0 : Fin 2) * 1024 + 1 * a0.val = a0.val; omega
  | ⟨1, _⟩ => show win2_4.index t (1 : Fin 2) * 4096 + 1 * a1.val = a1.val; omega

theorem blk2_5 (c : Dev nD) (t : Fin cfg2.N) (a0 : Fin 4096) :
    (iblk2 V c 5 t : S4096.Idx → EReal) (ix1 a0) = V c main_arg10 (ix1 a0) := by
  unfold iblk2
  show V c main_arg10 (((cfg2.win 5).blk t).view.emb (ix1 a0)) = _
  refine congrArg (V c main_arg10) ?_
  have hf := idx_facts2 t
  have e0 : win2_5.index t (0 : Fin 1) = 0 := by simp only [hf]
  funext a; apply Fin.ext
  match a with
  | ⟨0, _⟩ => show win2_5.index t (0 : Fin 1) * 4096 + 1 * a0.val = a0.val; omega

theorem blk2_6 (c : Dev nD) (t : Fin cfg2.N) (a0 : Fin 4096) (a1 : Fin 1024) :
    (iblk2 V c 6 t : S4096x1024.Idx → EReal) (ix2 a0 a1) = V c main_v7 (ix2 a0 a1) := by
  unfold iblk2
  show V c main_v7 (((cfg2.win 6).blk t).view.emb (ix2 a0 a1)) = _
  refine congrArg (V c main_v7) ?_
  have hf := idx_facts2 t
  have e0 : win2_6.index t (0 : Fin 2) = 0 := by simp only [hf]
  have e1 : win2_6.index t (1 : Fin 2) = 0 := by simp only [hf]
  funext a; apply Fin.ext
  match a with
  | ⟨0, _⟩ => show win2_6.index t (0 : Fin 2) * 4096 + 1 * a0.val = a0.val; omega
  | ⟨1, _⟩ => show win2_6.index t (1 : Fin 2) * 1024 + 1 * a1.val = a1.val; omega

theorem blk2_7 (c : Dev nD) (t : Fin cfg2.N) (a0 : Fin 1024) :
    (iblk2 V c 7 t : S1024.Idx → EReal) (ix1 a0) = V c main_arg12 (ix1 a0) := by
  unfold iblk2
  show V c main_arg12 (((cfg2.win 7).blk t).view.emb (ix1 a0)) = _
  refine congrArg (V c main_arg12) ?_
  have hf := idx_facts2 t
  have e0 : win2_7.index t (0 : Fin 1) = 0 := by simp only [hf]
  funext a; apply Fin.ext
  match a with
  | ⟨0, _⟩ => show win2_7.index t (0 : Fin 1) * 1024 + 1 * a0.val = a0.val; omega

/-- The result as an array: the block's last two stages on row `i` of the mixed rows and of the input. -/
def outArr (c : Dev nD) : S4096x1024.Idx → EReal :=
  fun i => Spec.tail (fun d : Fin 512 => V c main_v4_1 (ix2 (⟨(i 0).val, idx2_lt0 i⟩ : Fin 4096) d))
    (fun n : Fin 1024 => V c main_arg0 (ix2 (⟨(i 0).val, idx2_lt0 i⟩ : Fin 4096) n))
    (fun (d : Fin 512) (n : Fin 1024) => V c main_v5 (ix2 d n)) (fun n : Fin 1024 => V c main_arg8 (ix1 n))
    (fun (n : Fin 1024) (f : Fin 4096) => V c main_v6 (ix2 n f)) (fun f : Fin 4096 => V c main_arg10 (ix1 f))
    (fun (f : Fin 4096) (n : Fin 1024) => V c main_v7 (ix2 f n)) (fun n : Fin 1024 => V c main_arg12 (ix1 n))
    ⟨(i 1).val, idx2_lt1 i⟩
theorem outArr_apply (c : Dev nD) (i : Fin 4096) (n : Fin 1024) :
    outArr V c (ix2 i n) = Spec.tail (fun d : Fin 512 => V c main_v4_1 (ix2 i d)) (fun n : Fin 1024 => V c main_arg0 (ix2 i n))
      (fun (d : Fin 512) (n : Fin 1024) => V c main_v5 (ix2 d n)) (fun n : Fin 1024 => V c main_arg8 (ix1 n))
      (fun (n : Fin 1024) (f : Fin 4096) => V c main_v6 (ix2 n f)) (fun f : Fin 4096 => V c main_arg10 (ix1 f))
      (fun (f : Fin 4096) (n : Fin 1024) => V c main_v7 (ix2 f n)) (fun n : Fin 1024 => V c main_arg12 (ix1 n)) n := rfl

/-- Where an entry of the result block sits in its array: row 256·t + p, the same column. -/
theorem emb2_8 (t : Fin cfg2.N) (p : Fin 256) (n : Fin 1024) :
    ((cfg2.win 8).blk t).view.emb (ix2 p n) = ix2 (⟨256 * t.val + p.val, row2_lt t p⟩ : Fin 4096) n := by
  have hf := idx_facts2 t
  have e5 : win2_8.index t (0 : Fin 2) = t.val := by simp only [hf]
  have e6 : win2_8.index t (1 : Fin 2) = 0 := by simp only [hf]
  funext a; apply Fin.ext
  match a with
  | ⟨0, _⟩ => show win2_8.index t (0 : Fin 2) * 256 + 1 * p.val = 256 * t.val + p.val; omega
  | ⟨1, _⟩ => show win2_8.index t (1 : Fin 2) * 1024 + 1 * n.val = n.val; omega

/-- What point `t` writes back into the result array is block `t` of the result. -/
theorem flushed2_r (c : Dev nD) (t : Fin cfg2.N) :
    (dat2 V c).flushed 8 t = ((cfg2.win 8).blk t).view.read (Elt Ideal) (outArr V c) := by
  show (cfg2.win 8).cut (grid2.coords t) ((dat2 V c).after 8 t) = _
  rw [after2_8]
  unfold out2_8
  rw [View.canon_unit_zero hz2'']
  simp only [View.ld_unit_zero (S := S256x512) hz2'', View.ld_unit_zero (S := S256x1024) hz2'', View.ld_unit_zero (S := S512x1024) hz2'',
    View.ld_unit_zero (S := S1024) hz1'', View.ld_unit_zero (S := S1024x4096) hz2'', View.ld_unit_zero (S := S4096) hz1'',
    View.ld_unit_zero (S := S4096x1024) hz2'']
  funext y
  obtain ⟨p, n, rfl⟩ : ∃ (p : Fin 256) (n : Fin 1024), y = ix2 p n := ⟨y 0, y 1, eq_ix2 y⟩
  show k2_pay1 (F := Ideal) (iblk2 V c 0 t) (iblk2 V c 1 t) (iblk2 V c 2 t) (iblk2 V c 3 t) (iblk2 V c 4 t) (iblk2 V c 5 t) (iblk2 V c 6 t) (iblk2 V c 7 t) (ix2 p n)
    = outArr V c (((cfg2.win 8).blk t).view.emb (ix2 p n))
  refine (Pay.pay_out (iblk2 V c 0 t) (iblk2 V c 1 t) (iblk2 V c 2 t) (iblk2 V c 3 t) (iblk2 V c 4 t) (iblk2 V c 5 t) (iblk2 V c 6 t) (iblk2 V c 7 t) p n).trans ?_
  rw [emb2_8, outArr_apply]
  have h0 : (fun d : Fin 512 => (iblk2 V c 0 t : S256x512.Idx → EReal) (ix2 p d))
      = fun d : Fin 512 => V c main_v4_1 (ix2 (⟨256 * t.val + p.val, row2_lt t p⟩ : Fin 4096) d) := funext fun d => blk2_0 V c t p d
  have h1 : (fun n : Fin 1024 => (iblk2 V c 1 t : S256x1024.Idx → EReal) (ix2 p n))
      = fun n : Fin 1024 => V c main_arg0 (ix2 (⟨256 * t.val + p.val, row2_lt t p⟩ : Fin 4096) n) := funext fun n => blk2_1 V c t p n
  have h2 : (fun (d : Fin 512) (n : Fin 1024) => (iblk2 V c 2 t : S512x1024.Idx → EReal) (ix2 d n))
      = fun (d : Fin 512) (n : Fin 1024) => V c main_v5 (ix2 d n) := funext fun d => funext fun n => blk2_2 V c t d n
  have h3 : (fun n : Fin 1024 => (iblk2 V c 3 t : S1024.Idx → EReal) (ix1 n)) = fun n : Fin 1024 => V c main_arg8 (ix1 n) :=
    funext fun n => blk2_3 V c t n
  have h4 : (fun (n : Fin 1024) (f : Fin 4096) => (iblk2 V c 4 t : S1024x4096.Idx → EReal) (ix2 n f))
      = fun (n : Fin 1024) (f : Fin 4096) => V c main_v6 (ix2 n f) := funext fun n => funext fun f => blk2_4 V c t n f
  have h5 : (fun f : Fin 4096 => (iblk2 V c 5 t : S4096.Idx → EReal) (ix1 f)) = fun f : Fin 4096 => V c main_arg10 (ix1 f) :=
    funext fun f => blk2_5 V c t f
  have h6 : (fun (f : Fin 4096) (n : Fin 1024) => (iblk2 V c 6 t : S4096x1024.Idx → EReal) (ix2 f n))
      = fun (f : Fin 4096) (n : Fin 1024) => V c main_v7 (ix2 f n) := funext fun f => funext fun n => blk2_6 V c t f n
  have h7 : (fun n : Fin 1024 => (iblk2 V c 7 t : S1024.Idx → EReal) (ix1 n)) = fun n : Fin 1024 => V c main_arg12 (ix1 n) :=
    funext fun n => blk2_7 V c t n
  rw [h0, h1, h2, h3, h4, h5, h6, h7]

theorem mem_blk2_8 (t : Fin cfg2.N) (i : S4096x1024.Idx) :
    i ∈ ((cfg2.win 8).blk t).view.set ↔ ∀ a : Fin 2, win2_8.index t a * S256x1024.size a ≤ (i a).val ∧ (i a).val < win2_8.index t a * S256x1024.size a + S256x1024.size a := by
  show i ∈ ((View.whole main_v8).slice (win2_8.rect t)).set ↔ _
  rw [View.set_slice_whole, Rect.mem_set_unit]
  exact Iff.rfl

/-- Every entry of the result array is in the block of the point its row falls in. -/
theorem covered2_8 (i : S4096x1024.Idx) : ∃ t : Fin cfg2.N, (cfg2.win 8).flush t = true ∧ i ∈ ((cfg2.win 8).blk t).view.set := by
  have hi0 : (i 0).val < 4096 := idx2_lt0 i
  have hi1 : (i 1).val < 1024 := idx2_lt1 i
  have hN : (cfg2.N : Nat) = 16 := N_2
  have ht : (i 0).val / 256 < cfg2.N := by omega
  have hf := idx_facts2 ⟨(i 0).val / 256, ht⟩
  have e5 : win2_8.index ⟨(i 0).val / 256, ht⟩ (0 : Fin 2) = (i 0).val / 256 := by simp only [hf]
  have e6 : win2_8.index ⟨(i 0).val / 256, ht⟩ (1 : Fin 2) = 0 := by simp only [hf]
  refine ⟨⟨(i 0).val / 256, ht⟩, flush2_8 _, ?_⟩
  rw [mem_blk2_8]
  intro a
  match a with
  | ⟨0, _⟩ =>
    show win2_8.index ⟨(i 0).val / 256, ht⟩ (0 : Fin 2) * 256 ≤ (i 0).val ∧ (i 0).val < win2_8.index ⟨(i 0).val / 256, ht⟩ (0 : Fin 2) * 256 + 256
    omega
  | ⟨1, _⟩ =>
    show win2_8.index ⟨(i 0).val / 256, ht⟩ (1 : Fin 2) * 1024 ≤ (i 1).val ∧ (i 1).val < win2_8.index ⟨(i 0).val / 256, ht⟩ (1 : Fin 2) * 1024 + 1024
    omega

/-- The result array after the region. -/
theorem final2_r (c : Dev nD) : (dat2 V c).arrAt 8 cfg2.N = outArr V c :=
  (dat2 V c).arrAt_eq_of_cover 8 (outArr V c) (fun t _ => flushed2_r V c t) (covered2_8)

end Cert.KernelIdeal.Hand

end
-- ==== Proof.LibConcat3.lean ====
/-
  A concatenation of three arrays of one shape, read at an index.

  Three R × C matrices laid side by side along the second axis give an R × N matrix whose entry (r, c') is the entry
  (r, c) of the first, second or third matrix according as c' is c, C + c or C + C + c. Three vectors of length C laid
  end to end give a vector of length N whose entry c' is entry c of the first, second or third vector in the same way.
  Each is the library's reading of a concatenation at an index of one of its pieces, at the piece's position.
-/
import Idealize.ShloMosaic.Lib.Pipeline.Value
import Idealize.ShloMosaic.Lib.ValueIdx

noncomputable section

namespace Cert.LibConcat3

open Idealize.ShloMosaic Idealize.ShloMosaic.ValueIdx

variable {α : Type}

section Cols

variable {R C N : Nat} (x₀ x₁ x₂ : (⟨2, ![R, C]⟩ : Shape).Idx → α)
  (h : Shape.Concatenates (([⟨⟨2, ![R, C]⟩, x₀⟩, ⟨⟨2, ![R, C]⟩, x₁⟩, ⟨⟨2, ![R, C]⟩, x₂⟩] :
    List ((s : Shape) × (s.Idx → α))).map (·.1)) ⟨2, ![R, N]⟩ 1)

/-- Entry (r, c') of three matrices side by side, c' in the first: the first matrix at (r, c'). -/
theorem cols_apply_0 (r : Fin R) (c : Fin C) (c' : Fin N) (hc : c'.val = c.val) :
    concatenate ⟨2, ![R, N]⟩ 1 [⟨⟨2, ![R, C]⟩, x₀⟩, ⟨⟨2, ![R, C]⟩, x₁⟩, ⟨⟨2, ![R, C]⟩, x₂⟩] h (ix2 r c')
      = x₀ (ix2 r c) :=
  concatenate_apply_piece 1 _ h (ix2 r c') 0 (by show 0 < 3; omega) _ x₀ rfl rfl 0 rfl (ix2 r c)
    (fun b hb => by match b with | ⟨0, _⟩ => rfl | ⟨1, _⟩ => exact absurd rfl hb)
    (by show 0 + c.val = c'.val; omega)

/-- Entry (r, c') of three matrices side by side, c' in the second: the second matrix at (r, c' - C). -/
theorem cols_apply_1 (r : Fin R) (c : Fin C) (c' : Fin N) (hc : c'.val = c.val + C) :
    concatenate ⟨2, ![R, N]⟩ 1 [⟨⟨2, ![R, C]⟩, x₀⟩, ⟨⟨2, ![R, C]⟩, x₁⟩, ⟨⟨2, ![R, C]⟩, x₂⟩] h (ix2 r c')
      = x₁ (ix2 r c) :=
  concatenate_apply_piece 1 _ h (ix2 r c') 1 (by show 1 < 3; omega) _ x₁ rfl rfl C (by simp) (ix2 r c)
    (fun b hb => by match b with | ⟨0, _⟩ => rfl | ⟨1, _⟩ => exact absurd rfl hb)
    (by show C + c.val = c'.val; omega)

/-- Entry (r, c') of three matrices side by side, c' in the third: the third matrix at (r, c' - 2C). -/
theorem cols_apply_2 (r : Fin R) (c : Fin C) (c' : Fin N) (hc : c'.val = c.val + (C + C)) :
    concatenate ⟨2, ![R, N]⟩ 1 [⟨⟨2, ![R, C]⟩, x₀⟩, ⟨⟨2, ![R, C]⟩, x₁⟩, ⟨⟨2, ![R, C]⟩, x₂⟩] h (ix2 r c')
      = x₂ (ix2 r c) :=
  concatenate_apply_piece 1 _ h (ix2 r c') 2 (by show 2 < 3; omega) _ x₂ rfl rfl (C + C) (by simp) (ix2 r c)
    (fun b hb => by match b with | ⟨0, _⟩ => rfl | ⟨1, _⟩ => exact absurd rfl hb)
    (by show C + C + c.val = c'.val; omega)

end Cols

section Vecs

variable {C N : Nat} (x₀ x₁ x₂ : (⟨1, ![C]⟩ : Shape).Idx → α)
  (h : Shape.Concatenates (([⟨⟨1, ![C]⟩, x₀⟩, ⟨⟨1, ![C]⟩, x₁⟩, ⟨⟨1, ![C]⟩, x₂⟩] :
    List ((s : Shape) × (s.Idx → α))).map (·.1)) ⟨1, ![N]⟩ 0)

/-- Entry c' of three vectors end to end, c' in the first: the first vector at c'. -/
theorem vecs_apply_0 (c : Fin C) (c' : Fin N) (hc : c'.val = c.val) :
    concatenate ⟨1, ![N]⟩ 0 [⟨⟨1, ![C]⟩, x₀⟩, ⟨⟨1, ![C]⟩, x₁⟩, ⟨⟨1, ![C]⟩, x₂⟩] h (ix1 c') = x₀ (ix1 c) :=
  concatenate_apply_piece 0 _ h (ix1 c') 0 (by show 0 < 3; omega) _ x₀ rfl rfl 0 rfl (ix1 c)
    (fun b hb => by match b with | ⟨0, _⟩ => exact absurd rfl hb)
    (by show 0 + c.val = c'.val; omega)

/-- Entry c' of three vectors end to end, c' in the second: the second vector at c' - C. -/
theorem vecs_apply_1 (c : Fin C) (c' : Fin N) (hc : c'.val = c.val + C) :
    concatenate ⟨1, ![N]⟩ 0 [⟨⟨1, ![C]⟩, x₀⟩, ⟨⟨1, ![C]⟩, x₁⟩, ⟨⟨1, ![C]⟩, x₂⟩] h (ix1 c') = x₁ (ix1 c) :=
  concatenate_apply_piece 0 _ h (ix1 c') 1 (by show 1 < 3; omega) _ x₁ rfl rfl C (by simp) (ix1 c)
    (fun b hb => by match b with | ⟨0, _⟩ => exact absurd rfl hb)
    (by show C + c.val = c'.val; omega)

/-- Entry c' of three vectors end to end, c' in the third: the third vector at c' - 2C. -/
theorem vecs_apply_2 (c : Fin C) (c' : Fin N) (hc : c'.val = c.val + (C + C)) :
    concatenate ⟨1, ![N]⟩ 0 [⟨⟨1, ![C]⟩, x₀⟩, ⟨⟨1, ![C]⟩, x₁⟩, ⟨⟨1, ![C]⟩, x₂⟩] h (ix1 c') = x₂ (ix1 c) :=
  concatenate_apply_piece 0 _ h (ix1 c') 2 (by show 2 < 3; omega) _ x₂ rfl rfl (C + C) (by simp) (ix1 c)
    (fun b hb => by match b with | ⟨0, _⟩ => exact absurd rfl hb)
    (by show C + C + c.val = c'.val; omega)

end Vecs

end Cert.LibConcat3

end
-- ==== Proof.HostRead.lean ====
/-
  What the kernel program's two stretches of host operations leave in the buffers they write, read at an index.

  The first stretch lays the three projection matrices side by side into one 1024 × 1536 matrix (then changes its
  format, which on the extended reals is the identity) and the three bias vectors end to end into one vector of length
  1536: columns 0-511, 512-1023, 1024-1535 are the query, key and value parts. The second stretch changes the format of
  the three remaining weight matrices, which leaves them as they are.
-/
import proofs.«164798_j81956565942714_2_alg».proof.Proof.Gen.KernelIdeal.Launch
import Idealize.ShloMosaic.Lib.StableHlo.Run
import Idealize.ShloMosaic.Lib.Pipeline.Value
import Idealize.ShloMosaic.Lib.ValueIdx
import proofs.«164798_j81956565942714_2_alg».proof.Proof.LibConcat3

noncomputable section

namespace Cert.KernelIdeal.HostRead

open Cert.KernelIdeal Cert.KernelIdeal.Gen Idealize.ShloMosaic Idealize.ShloMosaic.TcCoe Idealize.ShloMosaic.ValueIdx

variable (W : Valuation τ sig (Elt Ideal))

/-- The wide weight matrix after the first stretch: the three projection matrices side by side (the change of format
    that follows is the identity). -/
theorem v1_term :
    (StableHlo.after (hostOps0 (F := Ideal)) W (Proc.devRef .tc main_v1) : S1024x1536.Idx → EReal)
      = concatenate S1024x1536 1
          [⟨S1024x512, (W (Proc.devRef .tc main_arg1) : S1024x512.Idx → EReal)⟩,
           ⟨S1024x512, (W (Proc.devRef .tc main_arg3) : S1024x512.Idx → EReal)⟩,
           ⟨S1024x512, (W (Proc.devRef .tc main_arg5) : S1024x512.Idx → EReal)⟩]
          concatenates_S1024x512_S1024x512_S1024x512_S1024x1536_d1 := by
  dsimp only [hostOps0]
  after_results
  rfl

/-- The long bias vector after the first stretch: the three bias vectors end to end. -/
theorem v2_term :
    (StableHlo.after (hostOps0 (F := Ideal)) W (Proc.devRef .tc main_v2) : S1536.Idx → EReal)
      = concatenate S1536 0
          [⟨S512, (W (Proc.devRef .tc main_arg2) : S512.Idx → EReal)⟩,
           ⟨S512, (W (Proc.devRef .tc main_arg4) : S512.Idx → EReal)⟩,
           ⟨S512, (W (Proc.devRef .tc main_arg6) : S512.Idx → EReal)⟩]
          concatenates_S512_S512_S512_S1536_d0 := by
  dsimp only [hostOps0]
  after_results
  rfl

/-- Columns 0-511 of the wide weight matrix are the query projection's. -/
theorem v1_q (k : Fin 1024) (j : Fin 512) :
    (StableHlo.after (hostOps0 (F := Ideal)) W (Proc.devRef .tc main_v1) : S1024x1536.Idx → EReal)
        (ix2 k (⟨j.val, by have := j.isLt; omega⟩ : Fin 1536))
      = (W (Proc.devRef .tc main_arg1) : S1024x512.Idx → EReal) (ix2 k j) := by
  rw [v1_term]
  exact Cert.LibConcat3.cols_apply_0 _ _ _ concatenates_S1024x512_S1024x512_S1024x512_S1024x1536_d1 k j _ (by rfl)

/-- Columns 512-1023 of the wide weight matrix are the key projection's. -/
theorem v1_k (k : Fin 1024) (j : Fin 512) :
    (StableHlo.after (hostOps0 (F := Ideal)) W (Proc.devRef .tc main_v1) : S1024x1536.Idx → EReal)
        (ix2 k (⟨j.val + 512, by have := j.isLt; omega⟩ : Fin 1536))
      = (W (Proc.devRef .tc main_arg3) : S1024x512.Idx → EReal) (ix2 k j) := by
  rw [v1_term]
  exact Cert.LibConcat3.cols_apply_1 _ _ _ concatenates_S1024x512_S1024x512_S1024x512_S1024x1536_d1 k j _ (by rfl)

/-- Columns 1024-1535 of the wide weight matrix are the value projection's. -/
theorem v1_v (k : Fin 1024) (j : Fin 512) :
    (StableHlo.after (hostOps0 (F := Ideal)) W (Proc.devRef .tc main_v1) : S1024x1536.Idx → EReal)
        (ix2 k (⟨j.val + 1024, by have := j.isLt; omega⟩ : Fin 1536))
      = (W (Proc.devRef .tc main_arg5) : S1024x512.Idx → EReal) (ix2 k j) := by
  rw [v1_term]
  exact Cert.LibConcat3.cols_apply_2 _ _ _ concatenates_S1024x512_S1024x512_S1024x512_S1024x1536_d1 k j _ (by rfl)

/-- Entries 0-511 of the long bias vector are the query bias. -/
theorem v2_q (j : Fin 512) :
    (StableHlo.after (hostOps0 (F := Ideal)) W (Proc.devRef .tc main_v2) : S1536.Idx → EReal)
        (ix1 (⟨j.val, by have := j.isLt; omega⟩ : Fin 1536))
      = (W (Proc.devRef .tc main_arg2) : S512.Idx → EReal) (ix1 j) := by
  rw [v2_term]
  exact Cert.LibConcat3.vecs_apply_0 _ _ _ concatenates_S512_S512_S512_S1536_d0 j _ (by rfl)

/-- Entries 512-1023 of the long bias vector are the key bias. -/
theorem v2_k (j : Fin 512) :
    (StableHlo.after (hostOps0 (F := Ideal)) W (Proc.devRef .tc main_v2) : S1536.Idx → EReal)
        (ix1 (⟨j.val + 512, by have := j.isLt; omega⟩ : Fin 1536))
      = (W (Proc.devRef .tc main_arg4) : S512.Idx → EReal) (ix1 j) := by
  rw [v2_term]
  exact Cert.LibConcat3.vecs_apply_1 _ _ _ concatenates_S512_S512_S512_S1536_d0 j _ (by rfl)

/-- Entries 1024-1535 of the long bias vector are the value bias. -/
theorem v2_v (j : Fin 512) :
    (StableHlo.after (hostOps0 (F := Ideal)) W (Proc.devRef .tc main_v2) : S1536.Idx → EReal)
        (ix1 (⟨j.val + 1024, by have := j.isLt; omega⟩ : Fin 1536))
      = (W (Proc.devRef .tc main_arg6) : S512.Idx → EReal) (ix1 j) := by
  rw [v2_term]
  exact Cert.LibConcat3.vecs_apply_2 _ _ _ concatenates_S512_S512_S512_S1536_d0 j _ (by rfl)

/-- The output projection's weights after the second stretch are the argument's. -/
theorem v5_eq :
    (StableHlo.after (hostOps2 (F := Ideal)) W (Proc.devRef .tc main_v5) : S512x1024.Idx → EReal)
      = W (Proc.devRef .tc main_arg7) := by
  dsimp only [hostOps2]
  after_results
  rfl

/-- The perceptron's first-layer weights after the second stretch are the argument's. -/
theorem v6_eq :
    (StableHlo.after (hostOps2 (F := Ideal)) W (Proc.devRef .tc main_v6) : S1024x4096.Idx → EReal)
      = W (Proc.devRef .tc main_arg9) := by
  dsimp only [hostOps2]
  after_results
  rfl

/-- The perceptron's second-layer weights after the second stretch are the argument's. -/
theorem v7_eq :
    (StableHlo.after (hostOps2 (F := Ideal)) W (Proc.devRef .tc main_v7) : S4096x1024.Idx → EReal)
      = W (Proc.devRef .tc main_arg11) := by
  dsimp only [hostOps2]
  after_results
  rfl

end Cert.KernelIdeal.HostRead

end
-- ==== Proof.View.lean ====
/-
  An array of extended reals as a function of its coordinates: a matrix by row and column, a vector by position.
-/
import Idealize.ShloMosaic.Lib.ValueIdx

noncomputable section

namespace Cert.View

open Idealize.ShloMosaic Idealize.ShloMosaic.ValueIdx

/-- Entry (i, j) of a matrix. -/
def view2 {R C : Nat} (a : (⟨2, ![R, C]⟩ : Shape).Idx → EReal) (i : Fin R) (j : Fin C) : EReal := a (ix2 i j)

/-- Entry j of a vector. -/
def view1 {C : Nat} (a : (⟨1, ![C]⟩ : Shape).Idx → EReal) (j : Fin C) : EReal := a (ix1 j)

theorem view2_apply {R C : Nat} (a : (⟨2, ![R, C]⟩ : Shape).Idx → EReal) (i : Fin R) (j : Fin C) : view2 a i j = a (ix2 i j) := rfl

theorem view1_apply {C : Nat} (a : (⟨1, ![C]⟩ : Shape).Idx → EReal) (j : Fin C) : view1 a j = a (ix1 j) := rfl

end Cert.View

end
-- ==== Proof.KernelValue.lean ====
/-
  The two results of the program after the whole run, entry by entry, as functions of the launch memory.

  Followed through the fold of the buffers' contents: the first stretch of host operations sets the three projections'
  matrices side by side and the three biases end to end; the projection region leaves the query, key and value arrays
  at the projections of the input rows; the attention region leaves the softmax weights of each input row's scores and
  that row's mix of the value rows, both in the arrangement that multiplies by the reciprocal of the row's sum; the
  second stretch only changes formats; the output region leaves the block's last two stages on each mixed row.
-/
import proofs.«164798_j81956565942714_2_alg».proof.Proof.RunIdeal
import proofs.«164798_j81956565942714_2_alg».proof.Proof.Value0
import proofs.«164798_j81956565942714_2_alg».proof.Proof.Value1
import proofs.«164798_j81956565942714_2_alg».proof.Proof.Value2
import proofs.«164798_j81956565942714_2_alg».proof.Proof.HostRead
import proofs.«164798_j81956565942714_2_alg».proof.Proof.View
import proofs.«164798_j81956565942714_2_alg».proof.Proof.Spec

set_option maxRecDepth 16384

noncomputable section

namespace Cert.KernelIdeal.Hand

open Cert.KernelIdeal Cert.KernelIdeal.Gen Cert.View
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-! ## The argument arrays by coordinates -/

abbrev aX : Fin 4096 → Fin 1024 → EReal := view2 (R := 4096) (C := 1024) (m ((c.tc : Thread nD τ).loc main_arg0))
abbrev aWq : Fin 1024 → Fin 512 → EReal := view2 (R := 1024) (C := 512) (m ((c.tc : Thread nD τ).loc main_arg1))
abbrev abq : Fin 512 → EReal := view1 (C := 512) (m ((c.tc : Thread nD τ).loc main_arg2))
abbrev aWk : Fin 1024 → Fin 512 → EReal := view2 (R := 1024) (C := 512) (m ((c.tc : Thread nD τ).loc main_arg3))
abbrev abk : Fin 512 → EReal := view1 (C := 512) (m ((c.tc : Thread nD τ).loc main_arg4))
abbrev aWv : Fin 1024 → Fin 512 → EReal := view2 (R := 1024) (C := 512) (m ((c.tc : Thread nD τ).loc main_arg5))
abbrev abv : Fin 512 → EReal := view1 (C := 512) (m ((c.tc : Thread nD τ).loc main_arg6))
abbrev aWo : Fin 512 → Fin 1024 → EReal := view2 (R := 512) (C := 1024) (m ((c.tc : Thread nD τ).loc main_arg7))
abbrev abo : Fin 1024 → EReal := view1 (C := 1024) (m ((c.tc : Thread nD τ).loc main_arg8))
abbrev aW1 : Fin 1024 → Fin 4096 → EReal := view2 (R := 1024) (C := 4096) (m ((c.tc : Thread nD τ).loc main_arg9))
abbrev ab1 : Fin 4096 → EReal := view1 (C := 4096) (m ((c.tc : Thread nD τ).loc main_arg10))
abbrev aW2 : Fin 4096 → Fin 1024 → EReal := view2 (R := 4096) (C := 1024) (m ((c.tc : Thread nD τ).loc main_arg11))
abbrev ab2 : Fin 1024 → EReal := view1 (C := 1024) (m ((c.tc : Thread nD τ).loc main_arg12))

/-! ## Before the projection region -/

theorem V1_x : V1 m ρ c main_arg0 = m ((c.tc : Thread nD τ).loc main_arg0) :=
  (W1_keep m ρ c main_arg0 (by decide)).trans rfl

/-- Entry (i, d) of the projection through columns `off …` of the side-by-side matrix, at the region's entry contents,
    is the projection by whichever matrix and bias those columns and biases came from. -/
theorem projAt_q (i : Fin 4096) (d : Fin 512) :
    projAt (V1 m ρ) c 0 (by omega) i d = Spec.proj (aX m c) (aWq m c) (abq m c) i d := by
  unfold projAt Spec.proj
  have h1 : (fun k : Fin 1024 => (V1 m ρ c main_arg0 : S4096x1024.Idx → EReal) (ix2 i k)) = aX m c i := by
    funext k; rw [V1_x]; rfl
  have h2 : (fun (k : Fin 1024) (j : Fin 512) => (V1 m ρ c main_v1 : S1024x1536.Idx → EReal) (ix2 k (⟨j.val + 0, by have := j.isLt; omega⟩ : Fin 1536))) = aWq m c :=
    funext fun k => funext fun j => HostRead.v1_q (W0 m ρ c) k j
  have h3 : (fun j : Fin 512 => (V1 m ρ c main_v2 : S1536.Idx → EReal) (ix1 (⟨j.val + 0, by have := j.isLt; omega⟩ : Fin 1536))) = abq m c :=
    funext fun j => HostRead.v2_q (W0 m ρ c) j
  rw [h1, h2, h3]

theorem projAt_k (i : Fin 4096) (d : Fin 512) :
    projAt (V1 m ρ) c 512 (by omega) i d = Spec.proj (aX m c) (aWk m c) (abk m c) i d := by
  unfold projAt Spec.proj
  have h1 : (fun k : Fin 1024 => (V1 m ρ c main_arg0 : S4096x1024.Idx → EReal) (ix2 i k)) = aX m c i := by
    funext k; rw [V1_x]; rfl
  have h2 : (fun (k : Fin 1024) (j : Fin 512) => (V1 m ρ c main_v1 : S1024x1536.Idx → EReal) (ix2 k (⟨j.val + 512, by have := j.isLt; omega⟩ : Fin 1536))) = aWk m c :=
    funext fun k => funext fun j => HostRead.v1_k (W0 m ρ c) k j
  have h3 : (fun j : Fin 512 => (V1 m ρ c main_v2 : S1536.Idx → EReal) (ix1 (⟨j.val + 512, by have := j.isLt; omega⟩ : Fin 1536))) = abk m c :=
    funext fun j => HostRead.v2_k (W0 m ρ c) j
  rw [h1, h2, h3]

theorem projAt_v (i : Fin 4096) (d : Fin 512) :
    projAt (V1 m ρ) c 1024 (by omega) i d = Spec.proj (aX m c) (aWv m c) (abv m c) i d := by
  unfold projAt Spec.proj
  have h1 : (fun k : Fin 1024 => (V1 m ρ c main_arg0 : S4096x1024.Idx → EReal) (ix2 i k)) = aX m c i := by
    funext k; rw [V1_x]; rfl
  have h2 : (fun (k : Fin 1024) (j : Fin 512) => (V1 m ρ c main_v1 : S1024x1536.Idx → EReal) (ix2 k (⟨j.val + 1024, by have := j.isLt; omega⟩ : Fin 1536))) = aWv m c :=
    funext fun k => funext fun j => HostRead.v1_v (W0 m ρ c) k j
  have h3 : (fun j : Fin 512 => (V1 m ρ c main_v2 : S1536.Idx → EReal) (ix1 (⟨j.val + 1024, by have := j.isLt; omega⟩ : Fin 1536))) = abv m c :=
    funext fun j => HostRead.v2_v (W0 m ρ c) j
  rw [h1, h2, h3]

/-! ## After the projection region -/

theorem Q_apply (i : Fin 4096) (d : Fin 512) :
    (V2 m ρ c main_v3_0 : S4096x512.Idx → EReal) (ix2 i d) = Spec.proj (aX m c) (aWq m c) (abq m c) i d := by
  have e : (V2 m ρ c main_v3_0 : S4096x512.Idx → EReal) = projArr (V1 m ρ) c 0 (by omega) :=
    (W2_arr m ρ c 3).trans (final0_q (V1 m ρ) c)
  rw [e, projArr_apply, projAt_q]

theorem K_apply (i : Fin 4096) (d : Fin 512) :
    (V2 m ρ c main_v3_1 : S4096x512.Idx → EReal) (ix2 i d) = Spec.proj (aX m c) (aWk m c) (abk m c) i d := by
  have e : (V2 m ρ c main_v3_1 : S4096x512.Idx → EReal) = projArr (V1 m ρ) c 512 (by omega) :=
    (W2_arr m ρ c 4).trans (final0_k (V1 m ρ) c)
  rw [e, projArr_apply, projAt_k]

theorem Vv_apply (i : Fin 4096) (d : Fin 512) :
    (V2 m ρ c main_v3_2 : S4096x512.Idx → EReal) (ix2 i d) = Spec.proj (aX m c) (aWv m c) (abv m c) i d := by
  have e : (V2 m ρ c main_v3_2 : S4096x512.Idx → EReal) = projArr (V1 m ρ) c 1024 (by omega) :=
    (W2_arr m ρ c 5).trans (final0_v (V1 m ρ) c)
  rw [e, projArr_apply, projAt_v]

/-- The scores of a row at the attention region's entry are the specification's. -/
theorem srow_eq (i : Fin 4096) : srow (V2 m ρ) c i = Spec.scores (aX m c) (aWq m c) (abq m c) (aWk m c) (abk m c) i := by
  unfold srow Spec.scores
  have h1 : (fun d : Fin 512 => (V2 m ρ c main_v3_0 : S4096x512.Idx → EReal) (ix2 i d)) = Spec.proj (aX m c) (aWq m c) (abq m c) i :=
    funext fun d => Q_apply m ρ c i d
  have h2 : (fun (j : Fin 4096) (d : Fin 512) => (V2 m ρ c main_v3_1 : S4096x512.Idx → EReal) (ix2 j d)) = Spec.proj (aX m c) (aWk m c) (abk m c) :=
    funext fun j => funext fun d => K_apply m ρ c j d
  rw [h1, h2]

/-! ## After the attention region -/

/-- The softmax weights the attention region leaves. -/
theorem attn3_apply (i j : Fin 4096) :
    (V3 m ρ c main_v4_0 : S4096x4096.Idx → EReal) (ix2 i j)
      = Spec.weightK (Spec.scores (aX m c) (aWq m c) (abq m c) (aWk m c) (abk m c) i) j := by
  have e : (V3 m ρ c main_v4_0 : S4096x4096.Idx → EReal) = attnArr (V2 m ρ) c :=
    (W3_arr m ρ c 3).trans (final1_a (V2 m ρ) c)
  rw [e, attnArr_apply, srow_eq]

/-- The mixed value rows the attention region leaves. -/
theorem mix3_apply (i : Fin 4096) (d : Fin 512) :
    (V3 m ρ c main_v4_1 : S4096x512.Idx → EReal) (ix2 i d)
      = Spec.mixK (Spec.scores (aX m c) (aWq m c) (abq m c) (aWk m c) (abk m c) i) (Spec.proj (aX m c) (aWv m c) (abv m c)) d := by
  have e : (V3 m ρ c main_v4_1 : S4096x512.Idx → EReal) = mixArr (V2 m ρ) c :=
    (W3_arr m ρ c 4).trans (final1_o (V2 m ρ) c)
  have h3 : (fun (j : Fin 4096) (d : Fin 512) => (V2 m ρ c main_v3_2 : S4096x512.Idx → EReal) (ix2 j d)) = Spec.proj (aX m c) (aWv m c) (abv m c) :=
    funext fun j => funext fun d => Vv_apply m ρ c j d
  rw [e, mixArr_apply, srow_eq, h3]

/-! ## Before the output region -/

/-- An argument array no stretch writes and no earlier region holds as a window reaches the output region as launched. -/
theorem V4_keep_arg (r : Ref sig .tc) (h4 : r ∉ hostOps2_W) (h3 : ∀ w, Pipeline.arrRef spec1 w ≠ r) (h2 : ∀ w, Pipeline.arrRef spec0 w ≠ r)
    (h1 : r ∉ hostOps0_W) : V4 m ρ c r = m ((c.tc : Thread nD τ).loc r) :=
  (W4_keep m ρ c r h4).trans <| (W3_of_ne m ρ c r h3).trans <| (W2_of_ne m ρ c r h2).trans <| (W1_keep m ρ c r h1).trans rfl

theorem V4_x : V4 m ρ c main_arg0 = m ((c.tc : Thread nD τ).loc main_arg0) :=
  (W4_keep m ρ c main_arg0 (by decide)).trans <| (W3_of_ne m ρ c main_arg0 (by decide)).trans <|
    (W2_in m ρ c 0 rfl).trans <| (W1_keep m ρ c main_arg0 (by decide)).trans rfl
theorem V4_bo : V4 m ρ c main_arg8 = m ((c.tc : Thread nD τ).loc main_arg8) := V4_keep_arg m ρ c main_arg8 (by decide) (by decide) (by decide) (by decide)
theorem V4_b1 : V4 m ρ c main_arg10 = m ((c.tc : Thread nD τ).loc main_arg10) := V4_keep_arg m ρ c main_arg10 (by decide) (by decide) (by decide) (by decide)
theorem V4_b2 : V4 m ρ c main_arg12 = m ((c.tc : Thread nD τ).loc main_arg12) := V4_keep_arg m ρ c main_arg12 (by decide) (by decide) (by decide) (by decide)

/-- An argument array reaches the second stretch of host operations as launched. -/
theorem W3_keep_arg (r : Ref sig .tc) (h3 : ∀ w, Pipeline.arrRef spec1 w ≠ r) (h2 : ∀ w, Pipeline.arrRef spec0 w ≠ r)
    (h1 : r ∉ hostOps0_W) : W3 m ρ c (Proc.devRef .tc r) = m ((c.tc : Thread nD τ).loc r) :=
  (W3_of_ne m ρ c r h3).trans <| (W2_of_ne m ρ c r h2).trans <| (W1_keep m ρ c r h1).trans rfl

theorem V4_Wo : (V4 m ρ c main_v5 : S512x1024.Idx → EReal) = m ((c.tc : Thread nD τ).loc main_arg7) :=
  (HostRead.v5_eq (W3 m ρ c)).trans (W3_keep_arg m ρ c main_arg7 (by decide) (by decide) (by decide))
theorem V4_W1 : (V4 m ρ c main_v6 : S1024x4096.Idx → EReal) = m ((c.tc : Thread nD τ).loc main_arg9) :=
  (HostRead.v6_eq (W3 m ρ c)).trans (W3_keep_arg m ρ c main_arg9 (by decide) (by decide) (by decide))
theorem V4_W2 : (V4 m ρ c main_v7 : S4096x1024.Idx → EReal) = m ((c.tc : Thread nD τ).loc main_arg11) :=
  (HostRead.v7_eq (W3 m ρ c)).trans (W3_keep_arg m ρ c main_arg11 (by decide) (by decide) (by decide))

theorem V4_mix : V4 m ρ c main_v4_1 = V3 m ρ c main_v4_1 := W4_keep m ρ c main_v4_1 (by decide)

/-! ## After the output region: the two results -/

/-- The softmax weights reach the end as the attention region left them. -/
theorem attn_apply (i j : Fin 4096) :
    (W5 m ρ c (Proc.devRef .tc main_v4_0) : S4096x4096.Idx → EReal) (ix2 i j)
      = Spec.weightK (Spec.scores (aX m c) (aWq m c) (abq m c) (aWk m c) (abk m c) i) j := by
  have e : W5 m ρ c (Proc.devRef .tc main_v4_0) = V3 m ρ c main_v4_0 :=
    (W5_of_ne m ρ c main_v4_0 (by decide)).trans (W4_keep m ρ c main_v4_0 (by decide))
  rw [e]; exact attn3_apply m ρ c i j

/-- The result array at the end: the block's last two stages on each mixed row. -/
theorem out_apply (i : Fin 4096) (n : Fin 1024) :
    (W5 m ρ c (Proc.devRef .tc main_v8) : S4096x1024.Idx → EReal) (ix2 i n)
      = Spec.tail (Spec.mixK (Spec.scores (aX m c) (aWq m c) (abq m c) (aWk m c) (abk m c) i) (Spec.proj (aX m c) (aWv m c) (abv m c)))
          (aX m c i) (aWo m c) (abo m c) (aW1 m c) (ab1 m c) (aW2 m c) (ab2 m c) n := by
  have e : (W5 m ρ c (Proc.devRef .tc main_v8) : S4096x1024.Idx → EReal) = outArr (V4 m ρ) c :=
    (W5_arr m ρ c 8).trans (final2_r (V4 m ρ) c)
  rw [e, outArr_apply]
  have h0 : (fun d : Fin 512 => (V4 m ρ c main_v4_1 : S4096x512.Idx → EReal) (ix2 i d))
      = Spec.mixK (Spec.scores (aX m c) (aWq m c) (abq m c) (aWk m c) (abk m c) i) (Spec.proj (aX m c) (aWv m c) (abv m c)) := by
    funext d; rw [V4_mix]; exact mix3_apply m ρ c i d
  have h1 : (fun n : Fin 1024 => (V4 m ρ c main_arg0 : S4096x1024.Idx → EReal) (ix2 i n)) = aX m c i := by
    funext n; rw [V4_x]; rfl
  have h2 : (fun (d : Fin 512) (n : Fin 1024) => (V4 m ρ c main_v5 : S512x1024.Idx → EReal) (ix2 d n)) = aWo m c := by
    funext d n; rw [V4_Wo]; rfl
  have h3 : (fun n : Fin 1024 => (V4 m ρ c main_arg8 : S1024.Idx → EReal) (ix1 n)) = abo m c := by
    funext n; rw [V4_bo]; rfl
  have h4 : (fun (n : Fin 1024) (f : Fin 4096) => (V4 m ρ c main_v6 : S1024x4096.Idx → EReal) (ix2 n f)) = aW1 m c := by
    funext n f; rw [V4_W1]; rfl
  have h5 : (fun f : Fin 4096 => (V4 m ρ c main_arg10 : S4096.Idx → EReal) (ix1 f)) = ab1 m c := by
    funext f; rw [V4_b1]; rfl
  have h6 : (fun (f : Fin 4096) (n : Fin 1024) => (V4 m ρ c main_v7 : S4096x1024.Idx → EReal) (ix2 f n)) = aW2 m c := by
    funext f n; rw [V4_W2]; rfl
  have h7 : (fun n : Fin 1024 => (V4 m ρ c main_arg12 : S1024.Idx → EReal) (ix1 n)) = ab2 m c := by
    funext n; rw [V4_b2]; rfl
  rw [h0, h1, h2, h3, h4, h5, h6, h7]

end Cert.KernelIdeal.Hand

end
-- ==== Proof.RefValue.lean ====
/-
  The plain version of the attention block, read entry by entry, is the row-wise specification.

  Each intermediate array of the plain program is identified, at an entry given by its coordinates, with the
  corresponding row-wise function of the specification: the three projections, the scaled scores, the row maximum,
  the exponentials and their sum, the softmax weights, the mixed value rows, the output projection with its residual,
  the perceptron's hidden row, and the final row.
-/
import proofs.«164798_j81956565942714_2_alg».proof.Proof.Gen.ReferenceIdeal.Read
import proofs.«164798_j81956565942714_2_alg».proof.Proof.Spec
import proofs.«164798_j81956565942714_2_alg».proof.Proof.View
import proofs.«164798_j81956565942714_2_alg».proof.Proof.LibRowReduce

noncomputable section

namespace Cert.RefValue

open Cert.ReferenceIdeal Idealize.ShloMosaic Idealize.ShloMosaic.ValueIdx Cert.View

/-- Two indices of a matrix given coordinate by coordinate are equal. -/
local macro "idx2" : tactic =>
  `(tactic| exact funext fun a => by match a with | ⟨0, _⟩ => rfl | ⟨1, _⟩ => rfl)
/-- Two indices of a vector given by their coordinate are equal. -/
local macro "idx1" : tactic =>
  `(tactic| exact funext fun a => by match a with | ⟨0, _⟩ => rfl)

variable (x0 : (⟨S4096x1024, .f32⟩ : BufTy).Contents (Elt Ideal))
  (x1 : (⟨S1024x512, .f32⟩ : BufTy).Contents (Elt Ideal)) (x2 : (⟨S512, .f32⟩ : BufTy).Contents (Elt Ideal))
  (x3 : (⟨S1024x512, .f32⟩ : BufTy).Contents (Elt Ideal)) (x4 : (⟨S512, .f32⟩ : BufTy).Contents (Elt Ideal))
  (x5 : (⟨S1024x512, .f32⟩ : BufTy).Contents (Elt Ideal)) (x6 : (⟨S512, .f32⟩ : BufTy).Contents (Elt Ideal))
  (x7 : (⟨S512x1024, .f32⟩ : BufTy).Contents (Elt Ideal)) (x8 : (⟨S1024, .f32⟩ : BufTy).Contents (Elt Ideal))
  (x9 : (⟨S1024x4096, .f32⟩ : BufTy).Contents (Elt Ideal)) (x10 : (⟨S4096, .f32⟩ : BufTy).Contents (Elt Ideal))
  (x11 : (⟨S4096x1024, .f32⟩ : BufTy).Contents (Elt Ideal)) (x12 : (⟨S1024, .f32⟩ : BufTy).Contents (Elt Ideal))

/-! ## The three projections -/

/-- The query projection at row `i`, column `d`. -/
theorem q_eq (i : Fin 4096) (d : Fin 512) :
    Read.val_main_v3 (F := Ideal) x0 x1 x2 (ix2 i d) = Spec.proj (view2 x0) (view2 x1) (view1 x2) i d := by
  have el : ∀ k : Fin 1024, Read.lidx_main_v0 (ix2 i d) k = ix2 i k := fun k => by idx2
  have er : ∀ k : Fin 1024, Read.ridx_main_v0 (ix2 i d) k = ix2 k d := fun k => by idx2
  have eb : Read.idx_main_v1 (Read.idx_main_v2 (ix2 i d)) = ix1 d := by idx1
  rw [Read.val_main_v3_apply, Read.val_main_v0_apply, Read.val_main_v2_apply, Read.val_main_v1_apply, eb]
  simp only [el, er, Ideal.addf_def]
  rfl

/-- The key projection at row `j`, column `d`. -/
theorem k_eq (j : Fin 4096) (d : Fin 512) :
    Read.val_main_v7 (F := Ideal) x0 x3 x4 (ix2 j d) = Spec.proj (view2 x0) (view2 x3) (view1 x4) j d := by
  have el : ∀ k : Fin 1024, Read.lidx_main_v4 (ix2 j d) k = ix2 j k := fun k => by idx2
  have er : ∀ k : Fin 1024, Read.ridx_main_v4 (ix2 j d) k = ix2 k d := fun k => by idx2
  have eb : Read.idx_main_v5 (Read.idx_main_v6 (ix2 j d)) = ix1 d := by idx1
  rw [Read.val_main_v7_apply, Read.val_main_v4_apply, Read.val_main_v6_apply, Read.val_main_v5_apply, eb]
  simp only [el, er, Ideal.addf_def]
  rfl

/-- The value projection at row `j`, column `d`. -/
theorem v_eq (j : Fin 4096) (d : Fin 512) :
    Read.val_main_v11 (F := Ideal) x0 x5 x6 (ix2 j d) = Spec.proj (view2 x0) (view2 x5) (view1 x6) j d := by
  have el : ∀ k : Fin 1024, Read.lidx_main_v8 (ix2 j d) k = ix2 j k := fun k => by idx2
  have er : ∀ k : Fin 1024, Read.ridx_main_v8 (ix2 j d) k = ix2 k d := fun k => by idx2
  have eb : Read.idx_main_v9 (Read.idx_main_v10 (ix2 j d)) = ix1 d := by idx1
  rw [Read.val_main_v11_apply, Read.val_main_v8_apply, Read.val_main_v10_apply, Read.val_main_v9_apply, eb]
  simp only [el, er, Ideal.addf_def]
  rfl

/-! ## The scores -/

/-- The scaled score of query row `i` against key row `j`. -/
theorem score_eq (i j : Fin 4096) :
    Read.val_main_v15 (F := Ideal) x0 x1 x2 x3 x4 (ix2 i j)
      = Spec.scores (view2 x0) (view2 x1) (view1 x2) (view2 x3) (view1 x4) i j := by
  have el : ∀ k : Fin 512, Read.lidx_main_v13 (ix2 i j) k = ix2 i k := fun k => by idx2
  have er : ∀ k : Fin 512, Read.idx_main_v12 (Read.ridx_main_v13 (ix2 i j) k) = ix2 j k := fun k => by idx2
  rw [Read.val_main_v15_apply, Read.val_main_v13_apply, Read.val_main_v14_apply, Read.val_main_cst_apply]
  simp only [Read.val_main_v12_apply, el, er, q_eq, k_eq, Ideal.mulf_def, Ideal.ofBits_def]
  rfl

/-! ## The softmax of a row -/

/-- The scores of query row `i`, as a function of the key row. -/
theorem scoreRow_eq (i : Fin 4096) :
    (fun k : Fin 4096 => Read.val_main_v15 (F := Ideal) x0 x1 x2 x3 x4 (ix2 i k))
      = Spec.scores (view2 x0) (view2 x1) (view1 x2) (view2 x3) (view1 x4) i :=
  funext fun k => score_eq x0 x1 x2 x3 x4 i k

/-- The largest score of query row `i`: the fold of the maximum from the bottom element, and a further maximum with
    the bottom element changes nothing. -/
theorem rowMax_eq (i : Fin 4096) :
    Read.val_main_v18 (F := Ideal) x0 x1 x2 x3 x4 (ix1 i)
      = Spec.rowMax (Spec.scores (view2 x0) (view2 x1) (view1 x2) (view2 x3) (view1 x4) i) := by
  rw [Read.val_main_v18_apply, Read.val_main_v17_apply, Read.val_main_cst_1_apply]
  unfold Read.val_main_v16
  rw [Cert.LibRowReduce.rowMax_host _ _ _ (by decide) _ i, Read.val_main_cst_0_apply, scoreRow_eq]
  simp only [Ideal.maximumf_def, Ideal.ofBits_def, Cert.LibRowReduce.ofBits_neg_inf]
  rw [max_bot_left]
  rfl

/-- The exponential of a score less its row's largest. -/
theorem expo_eq (i j : Fin 4096) :
    Read.val_main_v22 (F := Ideal) x0 x1 x2 x3 x4 (ix2 i j)
      = Spec.expo (Spec.scores (view2 x0) (view2 x1) (view1 x2) (view2 x3) (view1 x4) i) j := by
  have eb : Read.idx_main_v19 (Read.idx_main_v20 (ix2 i j)) = ix1 i := by idx1
  rw [Read.val_main_v22_apply, Read.val_main_v21_apply, Read.val_main_v20_apply, Read.val_main_v19_apply, eb,
    score_eq, rowMax_eq]
  simp only [Ideal.hostUnary_exp_def, Ideal.subf_def]
  rfl

/-- The sum of a row's exponentials: the sum from the zero word. -/
theorem denom_eq (i : Fin 4096) :
    Read.val_main_v23 (F := Ideal) x0 x1 x2 x3 x4 (ix1 i)
      = Spec.denom (Spec.scores (view2 x0) (view2 x1) (view1 x2) (view2 x3) (view1 x4) i) := by
  have ek : ∀ k : Fin 4096, Read.idx_main_v23 (ix1 i) k = ix2 i k := fun k => by idx2
  rw [Read.val_main_v23_apply, Read.val_main_cst_2_apply]
  simp only [ek, expo_eq, Ideal.ofBits_def, Ideal.ofBits_zero_f32, zero_add]
  rfl

/-- The softmax weights of the plain program are the specification's. -/
theorem attn_eq (i j : Fin 4096) :
    Read.val_main_v26 (F := Ideal) x0 x1 x2 x3 x4 (ix2 i j)
      = Spec.weight (Spec.scores (view2 x0) (view2 x1) (view1 x2) (view2 x3) (view1 x4) i) j := by
  have eb : Read.idx_main_v24 (Read.idx_main_v25 (ix2 i j)) = ix1 i := by idx1
  rw [Read.val_main_v26_apply, Read.val_main_v25_apply, Read.val_main_v24_apply, eb, expo_eq, denom_eq]
  simp only [Ideal.hostDivf_def]
  rfl

/-! ## The mix, the output projection and the perceptron -/

/-- The value rows mixed by the softmax weights of query row `i`. -/
theorem mix_eq (i : Fin 4096) (d : Fin 512) :
    Read.val_main_v27 (F := Ideal) x0 x1 x2 x3 x4 x5 x6 (ix2 i d)
      = Spec.mix (Spec.scores (view2 x0) (view2 x1) (view1 x2) (view2 x3) (view1 x4) i)
          (Spec.proj (view2 x0) (view2 x5) (view1 x6)) d := by
  have el : ∀ k : Fin 4096, Read.lidx_main_v27 (ix2 i d) k = ix2 i k := fun k => by idx2
  have er : ∀ k : Fin 4096, Read.ridx_main_v27 (ix2 i d) k = ix2 k d := fun k => by idx2
  rw [Read.val_main_v27_apply]
  simp only [el, er, attn_eq, v_eq]
  rfl

/-- The output projection of the mixed row, with its bias and the input row added. -/
theorem res1_eq (i : Fin 4096) (n : Fin 1024) :
    Read.val_main_v32 (F := Ideal) x0 x1 x2 x3 x4 x5 x6 x7 x8 (ix2 i n)
      = Spec.res1 (Spec.mix (Spec.scores (view2 x0) (view2 x1) (view1 x2) (view2 x3) (view1 x4) i)
          (Spec.proj (view2 x0) (view2 x5) (view1 x6))) (view2 x7) (view1 x8) (view2 x0 i) n := by
  have el : ∀ k : Fin 512, Read.lidx_main_v28 (ix2 i n) k = ix2 i k := fun k => by idx2
  have er : ∀ k : Fin 512, Read.ridx_main_v28 (ix2 i n) k = ix2 k n := fun k => by idx2
  have eb : Read.idx_main_v29 (Read.idx_main_v30 (ix2 i n)) = ix1 n := by idx1
  rw [Read.val_main_v32_apply, Read.val_main_v31_apply, Read.val_main_v28_apply, Read.val_main_v30_apply,
    Read.val_main_v29_apply, eb]
  simp only [el, er, mix_eq, Ideal.addf_def]
  rfl

/-- The perceptron's hidden row: the maximum of the first layer against a zero array. -/
theorem hidden_eq (i : Fin 4096) (f : Fin 4096) :
    Read.val_main_v37 (F := Ideal) x0 x1 x2 x3 x4 x5 x6 x7 x8 x9 x10 (ix2 i f)
      = Spec.hidden (Spec.res1 (Spec.mix (Spec.scores (view2 x0) (view2 x1) (view1 x2) (view2 x3) (view1 x4) i)
          (Spec.proj (view2 x0) (view2 x5) (view1 x6))) (view2 x7) (view1 x8) (view2 x0 i)) (view2 x9) (view1 x10) f := by
  have el : ∀ k : Fin 1024, Read.lidx_main_v33 (ix2 i f) k = ix2 i k := fun k => by idx2
  have er : ∀ k : Fin 1024, Read.ridx_main_v33 (ix2 i f) k = ix2 k f := fun k => by idx2
  have eb : Read.idx_main_v34 (Read.idx_main_v35 (ix2 i f)) = ix1 f := by idx1
  rw [Read.val_main_v37_apply, Read.val_main_v36_apply, Read.val_main_v33_apply, Read.val_main_v35_apply,
    Read.val_main_v34_apply, eb, Read.val_main_call0_v0_apply, Read.val_main_call0_cst_apply]
  simp only [el, er, res1_eq, Ideal.addf_def, Ideal.maximumf_def, Ideal.ofBits_def, Ideal.ofBits_zero_f32]
  rfl

/-- The plain program's result is the specification's last two stages on the mixed row. -/
theorem out_eq (i : Fin 4096) (n : Fin 1024) :
    Read.val_main_v42 (F := Ideal) x0 x1 x2 x3 x4 x5 x6 x7 x8 x9 x10 x11 x12 (ix2 i n)
      = Spec.tail (Spec.mix (Spec.scores (view2 x0) (view2 x1) (view1 x2) (view2 x3) (view1 x4) i)
            (Spec.proj (view2 x0) (view2 x5) (view1 x6)))
          (view2 x0 i) (view2 x7) (view1 x8) (view2 x9) (view1 x10) (view2 x11) (view1 x12) n := by
  have el : ∀ k : Fin 4096, Read.lidx_main_v38 (ix2 i n) k = ix2 i k := fun k => by idx2
  have er : ∀ k : Fin 4096, Read.ridx_main_v38 (ix2 i n) k = ix2 k n := fun k => by idx2
  have eb : Read.idx_main_v39 (Read.idx_main_v40 (ix2 i n)) = ix1 n := by idx1
  rw [Read.val_main_v42_apply, Read.val_main_v41_apply, Read.val_main_v38_apply, Read.val_main_v40_apply,
    Read.val_main_v39_apply, eb, res1_eq]
  simp only [el, er, hidden_eq, Ideal.addf_def]
  rfl

end Cert.RefValue

end
-- ==== Proof.LibExtReal.lean ====
/-
  Extended reals that are real numbers.

  A float at the ideal instance is an extended real. When every input of a network is a real number, so is every value
  built from the inputs by sums, products and maxima; and on real numbers the two ways a log-softmax is written,
  `a - (L + m)` and `(a - m) - L`, agree whatever `L` is.
-/
import Mathlib.Data.EReal.Operations
import Mathlib.Algebra.BigOperators.Group.Finset.Basic
import Mathlib.Data.Finset.Lattice.Fold

namespace Cert.LibExtReal

/-- `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem isReal_max {x y : EReal} (hx : IsReal x) (hy : IsReal y) : IsReal (max x y) := by
  rcases max_choice x y with h | h <;> rw [h] <;> assumption

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The maximum of finitely many real numbers, at least one, folded from the bottom element, is one of them: a real number. -/
theorem isReal_fold_max {ι : Type*} (s : Finset ι) (hs : s.Nonempty) (f : ι → EReal) (h : ∀ i ∈ s, IsReal (f i)) :
    IsReal (s.fold max ⊥ f) := by
  obtain ⟨i, hi, e⟩ := Finset.exists_mem_eq_sup s hs f
  have hfold : s.fold max ⊥ f = s.sup f := rfl
  rw [hfold, e]
  exact h i hi

/-- For real `a` and `m`, subtracting `L + m` from `a` is subtracting `m` and then `L`, for every extended real `L`. -/
theorem sub_add_eq_sub_sub_of_real (a m : ℝ) (L : EReal) : (a : EReal) - (L + (m : EReal)) = ((a : EReal) - (m : EReal)) - L := by
  induction L using EReal.rec with
  | bot => rw [EReal.bot_add, EReal.coe_sub_bot, ← EReal.coe_sub, EReal.coe_sub_bot]
  | coe l => rw [← EReal.coe_add, ← EReal.coe_sub, ← EReal.coe_sub, ← EReal.coe_sub]; congr 1; ring
  | top => rw [EReal.top_add_coe, EReal.sub_top, EReal.sub_top]

end Cert.LibExtReal
-- ==== Proof.Softmax.lean ====
/-
  The softmax of a row of real scores, on the extended reals.

  When every score of a row is a real number, the row's largest score is real, every exponential of a score less the
  largest is a positive real, and so the sum of the exponentials is a positive real number. Dividing by a positive real
  is multiplying by its reciprocal, and a product with a nonnegative real distributes over every finite sum of extended
  reals; hence the two ways the softmax is written in the specification agree, whatever the value rows hold.
-/
import proofs.«164798_j81956565942714_2_alg».proof.Proof.Spec
import proofs.«164798_j81956565942714_2_alg».proof.Proof.LibExtReal

noncomputable section

namespace Cert.Softmax

open Idealize.ShloMosaic
open Cert.LibExtReal

/-- The coercion of the reals commutes with finite sums. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A product with a nonnegative real on the right distributes over a finite sum of extended reals. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The scale of the scores is a finite single-precision pattern: a real number. -/
theorem isReal_scale : IsReal Spec.scale := by
  unfold Spec.scale
  simp [Ideal.ofBits, Ideal.ieee, -EReal.coe_mul]
  exact ⟨_, rfl⟩

/-- A row times a real matrix plus a real bias, of a real row, is real. -/
theorem isReal_lin {K C : Nat} (xr : Fin K → EReal) (W : Fin K → Fin C → EReal) (b : Fin C → EReal)
    (hx : ∀ k, IsReal (xr k)) (hW : ∀ k j, IsReal (W k j)) (hb : ∀ j, IsReal (b j)) (j : Fin C) :
    IsReal (Spec.lin xr W b j) :=
  (isReal_sum _ _ fun k _ => (hx k).mul (hW k j)).add (hb j)

/-- The scores of real inputs under real projections are real. -/
theorem isReal_scores (x : Fin 4096 → Fin 1024 → EReal) (Wq : Fin 1024 → Fin 512 → EReal) (bq : Fin 512 → EReal)
    (Wk : Fin 1024 → Fin 512 → EReal) (bk : Fin 512 → EReal)
    (hx : ∀ i k, IsReal (x i k)) (hWq : ∀ k d, IsReal (Wq k d)) (hbq : ∀ d, IsReal (bq d))
    (hWk : ∀ k d, IsReal (Wk k d)) (hbk : ∀ d, IsReal (bk d)) (i j : Fin 4096) :
    IsReal (Spec.scores x Wq bq Wk bk i j) := by
  unfold Spec.scores Spec.score Spec.proj
  exact (isReal_sum _ _ fun d _ =>
    (isReal_lin (x i) Wq bq (hx i) hWq hbq d).mul (isReal_lin (x j) Wk bk (hx j) hWk hbk d)).mul isReal_scale

/-- The sum of the exponentials of a row of real scores is a positive real number. -/
theorem denom_pos (s : Fin 4096 → EReal) (hs : ∀ j, IsReal (s j)) : ∃ r : ℝ, 0 < r ∧ Spec.denom s = (r : EReal) := by
  obtain ⟨m, hm⟩ : IsReal (Spec.rowMax s) :=
    isReal_fold_max Finset.univ Finset.univ_nonempty s fun j _ => hs j
  choose a ha using hs
  have he : ∀ j, Spec.expo s j = ((Real.exp (a j - m) : ℝ) : EReal) := by
    intro j
    rw [Spec.expo, hm, ha j, ← EReal.coe_sub, Ideal.exp_coe]
  refine ⟨∑ j : Fin 4096, Real.exp (a j - m), Finset.sum_pos (fun j _ => Real.exp_pos _) Finset.univ_nonempty, ?_⟩
  rw [Spec.denom, ← coe_sum]
  exact Finset.sum_congr rfl fun j _ => he j

/-- Multiplying by the reciprocal of a positive real sum is dividing by it. -/
theorem weightK_eq (s : Fin 4096 → EReal) (h : ∃ r : ℝ, 0 < r ∧ Spec.denom s = (r : EReal)) (j : Fin 4096) :
    Spec.weightK s j = Spec.weight s j := by
  obtain ⟨r, hr, hd⟩ := h
  rw [Spec.weightK, Spec.weight, hd, Ideal.div_coe hr.ne', Ideal.div_coe hr.ne', one_mul]

/-- The reciprocal of a positive real sum, applied to the mix of the value rows by the exponentials, is the mix by the
    softmax weights: a product with a positive real distributes over the sum, whatever the value rows hold. -/
theorem mixK_eq (s : Fin 4096 → EReal) (Vm : Fin 4096 → Fin 512 → EReal)
    (h : ∃ r : ℝ, 0 < r ∧ Spec.denom s = (r : EReal)) (d : Fin 512) : Spec.mixK s Vm d = Spec.mix s Vm d := by
  obtain ⟨r, hr, hd⟩ := h
  have hc : (0 : ℝ) ≤ 1 / r := by positivity
  rw [Spec.mixK, Spec.mix, hd, Ideal.div_coe hr.ne', one_mul, sum_mul_coe _ _ _ hc]
  refine Finset.sum_congr rfl fun j _ => ?_
  rw [Spec.weight, hd, Ideal.div_coe hr.ne', mul_right_comm]

end Cert.Softmax

end
-- ==== Proof.Finite.lean ====
/-
  Finite inputs are real numbers.

  The precondition is a conjunction of thirteen statements, one per argument array: every entry's absolute value is below
  plus infinity. On the extended reals the absolute value of x is the larger of x and -x, which is plus infinity at both
  infinities; so an entry whose absolute value is below plus infinity is a real number. The first five conjuncts give
  the first five arrays real, entry by entry.
-/
import proofs.«164798_j81956565942714_2_alg».proof.Pre_finite_inputs
import proofs.«164798_j81956565942714_2_alg».proof.Proof.Gen.Pre_finite_inputs
import proofs.«164798_j81956565942714_2_alg».proof.Proof.LibExtReal
import Idealize.ShloMosaic.Lib.ReduceAll
import Idealize.ShloMosaic.Lib.ValueIdx
import Idealize.ShloMosaic.PureOps.Ideal

noncomputable section

namespace Cert.Finite

open Idealize.ShloMosaic
open Cert.LibExtReal
open Cert.Pre_finite_inputs

/-- The shape of a scalar has one index. -/
instance : Subsingleton S_.Idx := ⟨fun a b => funext fun d => d.elim0⟩

/-- The single-precision pattern of plus infinity is the top element. -/
theorem ofBits_inf : Ideal.ofBits .f32 0x7F800000#32 = ⊤ := by simp [Ideal.ofBits, Ideal.ieee]

/-- An extended real whose absolute value, the larger of it and its negative, is below plus infinity is a real number. -/
theorem isReal_of_abs_lt (x : EReal) (h : Ideal.cmp .olt (max x (-x)) (Ideal.ofBits .f32 0x7F800000#32) = 1#1) :
    IsReal x := by
  rw [ofBits_inf] at h
  induction x using EReal.rec with
  | bot => simp [Ideal.cmp] at h
  | coe r => exact ⟨r, rfl⟩
  | top => simp [Ideal.cmp] at h

/-- One `all(|a| < +inf)`: when the conjunction over every entry holds, every entry is a real number. -/
theorem real_of_all {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi (cmpf .olt (Host.absf x) (broadcastInDim s ![] bc (constant S_ .f32 0x7F800000#32)))
      (constantI S_ 1 1#1) hr hu ValueIdx.ix0 = 1#1) (i : s.Idx) : IsReal (x i) :=
  isReal_of_abs_lt (x i) (Host.reduce_andi_all _ _ hr hu ValueIdx.ix0 e i)

/-- The precondition makes the first five argument arrays real, entry by entry: its value at the one index of a scalar is
    the conjunction of the thirteen statements, and each of the first five is read back entry by entry. -/
theorem real_of_pre [Cert.Pre_finite_inputs.Facts]
    (a0 : FVec Ideal S4096x1024 .f32) (a1 : FVec Ideal S1024x512 .f32) (a2 : FVec Ideal S512 .f32)
    (a3 : FVec Ideal S1024x512 .f32) (a4 : FVec Ideal S512 .f32) (a5 : FVec Ideal S1024x512 .f32)
    (a6 : FVec Ideal S512 .f32) (a7 : FVec Ideal S512x1024 .f32) (a8 : FVec Ideal S1024 .f32)
    (a9 : FVec Ideal S1024x4096 .f32) (a10 : FVec Ideal S4096 .f32) (a11 : FVec Ideal S4096x1024 .f32)
    (a12 : FVec Ideal S1024 .f32)
    (h : Cert.Pre_finite_inputs.fn (F := Ideal) a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a3 i)) ∧ (∀ i, IsReal (a4 i)) := by
  have e := congrFun h ValueIdx.ix0
  unfold Cert.Pre_finite_inputs.fn Cert.Pre_finite_inputs.fn_part1 Cert.Pre_finite_inputs.fn_part2
    Cert.Pre_finite_inputs.fn_part3 at e
  dsimp only at e
  simp only [andi, IntOp.andi_eq_one] at e
  obtain ⟨⟨⟨⟨⟨⟨⟨⟨⟨⟨⟨⟨e0, e1⟩, e2⟩, e3⟩, e4⟩, -⟩, -⟩, -⟩, -⟩, -⟩, -⟩, -⟩, -⟩ := e
  exact ⟨real_of_all a0 _ _ _ e0, real_of_all a1 _ _ _ e1, real_of_all a2 _ _ _ e2, real_of_all a3 _ _ _ e3,
    real_of_all a4 _ _ _ e4⟩

end Cert.Finite

end
-- ==== Proof.lean ====
/-
  The attention block against its reference: `Cert.Claim`.

  The three frames: the program, as printed and as idealized, is three regions among two stretches of host operations,
  and its run (Proof/RunBits.lean, Proof/RunIdeal.lean) ends with the argument arrays as launched; the reference is a
  straight line of host operations whose generated run says the same. The idealization rewrote nothing.

  The two results agree at the ideal values. The reference computes, for each input row, the softmax weights of its scaled
  scores against all key rows — each exponential DIVIDED by the row's sum — and mixes the value rows by those weights
  (Proof/RefValue.lean). The kernel multiplies each exponential by the RECIPROCAL of the row's sum, and for the mix
  applies that reciprocal after the product with the value rows (Proof/KernelValue.lean). Under the precondition the
  input, the query and key matrices and their biases hold real numbers, so every score is a real number, every
  exponential a positive real, and the row's sum a positive real: dividing by it is multiplying by its reciprocal, and a
  positive real factor distributes over the mix's sum whatever the value rows hold (Proof/Softmax.lean). Every other
  stage — the three projections (the kernel's from one product with the matrices side by side), the output projection,
  the perceptron and the two residuals — is the same expression on both sides.
-/
import proofs.«164798_j81956565942714_2_alg».proof.Defs
import proofs.«164798_j81956565942714_2_alg».proof.Proof.Gen.Kernel
import proofs.«164798_j81956565942714_2_alg».proof.Proof.Gen.KernelIdeal
import proofs.«164798_j81956565942714_2_alg».proof.Proof.Gen.ReferenceIdeal
import proofs.«164798_j81956565942714_2_alg».proof.Proof.Gen.ReferenceIdeal.Run
import proofs.«164798_j81956565942714_2_alg».proof.Proof.Gen.ReferenceIdeal.Read
import proofs.«164798_j81956565942714_2_alg».proof.Proof.Gen.Pre_finite_inputs
import proofs.«164798_j81956565942714_2_alg».proof.Proof.RunBits
import proofs.«164798_j81956565942714_2_alg».proof.Proof.RunIdeal
import proofs.«164798_j81956565942714_2_alg».proof.Proof.KernelValue
import proofs.«164798_j81956565942714_2_alg».proof.Proof.RefValue
import proofs.«164798_j81956565942714_2_alg».proof.Proof.Softmax
import proofs.«164798_j81956565942714_2_alg».proof.Proof.Finite

set_option maxRecDepth 16384

noncomputable section

namespace Cert.Proof

open Idealize.ShloMosaic Idealize.ShloMosaic.TcCoe Idealize.ShloMosaic.ValueIdx Idealize.SL.Sem
open Cert.View Cert.LibExtReal

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

section
open Cert.KernelIdeal Cert.KernelIdeal.Hand

/-- Under the precondition the sum of every row's exponentials is a positive real number. -/
theorem denom_pos_of_pre (m : (ℓ : Loc Cert.KernelIdeal.nD Cert.KernelIdeal.τ Cert.KernelIdeal.sig) → Buf (Elt Ideal) ℓ)
    (hpre : Cert.Pre_KernelIdeal m) (c : Dev Cert.KernelIdeal.nD) (i : Fin 4096) :
    ∃ r : ℝ, 0 < r ∧ Spec.denom (Spec.scores (aX m c) (aWq m c) (abq m c) (aWk m c) (abk m c) i) = (r : EReal) := by
  obtain ⟨h0, h1, h2, h3, h4⟩ := Cert.Finite.real_of_pre _ _ _ _ _ _ _ _ _ _ _ _ _ (hpre c)
  exact Cert.Softmax.denom_pos _ (Cert.Softmax.isReal_scores (aX m c) (aWq m c) (abq m c) (aWk m c) (abk m c)
    (fun a b => h0 (ix2 a b)) (fun a b => h1 (ix2 a b)) (fun a => h2 (ix1 a)) (fun a b => h3 (ix2 a b)) (fun a => h4 (ix1 a)) i)

theorem algebraic : Cert.algebraic_KernelIdeal_ReferenceIdeal := by
  intro m ρ m' ρ' hpre hagree
  refine ⟨fun c => W5 m ρ c (Proc.devRef .tc main_v8), fun c => W5 m ρ c (Proc.devRef .tc main_v4_0), ?_, ?_⟩
  · refine (θ_run Cert.KernelIdeal.defs _ _).mono (fun r h c => ?_) (run_all m ρ)
    exact ⟨h c _ (mem_uc main_v8 (by decide)), h c _ (mem_uc main_v4_0 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c)⟩
  · refine (θ_run Cert.ReferenceIdeal.defs _ _).mono (fun r h c => ?_) (Cert.ReferenceIdeal.Value.run (F := Ideal) m' ρ')
    obtain ⟨h42, h26, hargs⟩ := h c
    obtain ⟨a0, a1, a2, a3, a4, a5, a6, a7, a8, a9, a10, a11, a12⟩ := hagree c
    refine ⟨h42.trans ?_, h26.trans ?_, hargs⟩
    · -- the result rows
      rw [Cert.ReferenceIdeal.Read.val_main_v42_eq (F := Ideal) m' c, a0, a1, a2, a3, a4, a5, a6, a7, a8, a9, a10, a11, a12]
      funext i
      obtain ⟨a, n, rfl⟩ : ∃ (a : Fin 4096) (n : Fin 1024), i = ix2 a n := ⟨i 0, i 1, eq_ix2 i⟩
      refine (Cert.RefValue.out_eq _ _ _ _ _ _ _ _ _ _ _ _ _ a n).trans ?_
      refine Eq.trans ?_ (out_apply m ρ c a n).symm
      have hm : Spec.mixK (Spec.scores (aX m c) (aWq m c) (abq m c) (aWk m c) (abk m c) a) (Spec.proj (aX m c) (aWv m c) (abv m c))
          = Spec.mix (Spec.scores (aX m c) (aWq m c) (abq m c) (aWk m c) (abk m c) a) (Spec.proj (aX m c) (aWv m c) (abv m c)) :=
        funext fun d => Cert.Softmax.mixK_eq _ _ (denom_pos_of_pre m hpre c a) d
      rw [hm]
    · -- the softmax weights
      rw [Cert.ReferenceIdeal.Read.val_main_v26_eq (F := Ideal) m' c, a0, a1, a2, a3, a4]
      funext i
      obtain ⟨a, j, rfl⟩ : ∃ (a : Fin 4096) (j : Fin 4096), i = ix2 a j := ⟨i 0, i 1, eq_ix2 i⟩
      refine (Cert.RefValue.attn_eq _ _ _ _ _ a j).trans ?_
      refine Eq.trans ?_ (attn_apply m ρ c a j).symm
      exact (Cert.Softmax.weightK_eq _ (denom_pos_of_pre m hpre c a) j).symm

end

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
